-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x12544x32 : Shape := ⟨4, ![8, 8, 12544, 32]⟩
abbrev S_ : Shape := ⟨0, ![]⟩

class Facts : Prop where
  bcast_S_S8x8x12544x32 : S_.BroadcastsInDim S8x8x12544x32 (![] : Fin 0 → Fin S8x8x12544x32.rank)
  reducesTo_S8x8x12544x32_S_d0_1_2_3 : S8x8x12544x32.ReducesTo [0, 1, 2, 3] S_
  h_S_ : 0 < S_.numel

variable [Facts]

def fn {F : FTy → Type} [FloatOps F] (main_arg0 : FVec F S8x8x12544x32 .f32) (main_arg1 : FVec F S8x8x12544x32 .f32) (main_arg2 : FVec F S8x8x12544x32 .f32) : IVec S_ 1 :=
  let main_v0 : FVec F S8x8x12544x32 .f32 := Host.absf main_arg0
  let main_cst : FVec F S_ .f32 := constant S_ .f32 0x7F800000#32
  let main_v1 : FVec F S8x8x12544x32 .f32 := broadcastInDim S8x8x12544x32 ![] bcast_S_S8x8x12544x32 main_cst
  let main_v2 : IVec S8x8x12544x32 1 := cmpf .olt main_v0 main_v1
  let main_c : IVec S_ 1 := constantI S_ 1 1#1
  let main_v3 : IVec S_ 1 := (fun x v => Host.reduce IntOp.andi x v reducesTo_S8x8x12544x32_S_d0_1_2_3 h_S_) main_v2 main_c
  let main_v4 : FVec F S8x8x12544x32 .f32 := Host.absf main_arg1
  let main_cst_0 : FVec F S_ .f32 := constant S_ .f32 0x7F800000#32
  let main_v5 : FVec F S8x8x12544x32 .f32 := broadcastInDim S8x8x12544x32 ![] bcast_S_S8x8x12544x32 main_cst_0
  let main_v6 : IVec S8x8x12544x32 1 := cmpf .olt main_v4 main_v5
  let main_c_1 : IVec S_ 1 := constantI S_ 1 1#1
  let main_v7 : IVec S_ 1 := (fun x v => Host.reduce IntOp.andi x v reducesTo_S8x8x12544x32_S_d0_1_2_3 h_S_) main_v6 main_c_1
  let main_v8 : IVec S_ 1 := andi main_v3 main_v7
  let main_v9 : FVec F S8x8x12544x32 .f32 := Host.absf main_arg2
  let main_cst_2 : FVec F S_ .f32 := constant S_ .f32 0x7F800000#32
  let main_v10 : FVec F S8x8x12544x32 .f32 := broadcastInDim S8x8x12544x32 ![] bcast_S_S8x8x12544x32 main_cst_2
  let main_v11 : IVec S8x8x12544x32 1 := cmpf .olt main_v9 main_v10
  let main_c_3 : IVec S_ 1 := constantI S_ 1 1#1
  let main_v12 : IVec S_ 1 := (fun x v => Host.reduce IntOp.andi x v reducesTo_S8x8x12544x32_S_d0_1_2_3 h_S_) main_v11 main_c_3
  let main_v13 : IVec S_ 1 := andi main_v8 main_v12
  main_v13
-- ==== Kernel.lean ====
abbrev S8x8x12544x32 : Shape := ⟨4, ![8, 8, 12544, 32]⟩
abbrev S8x8x112x112x32 : Shape := ⟨5, ![8, 8, 112, 112, 32]⟩
abbrev S8x8x109x112x32 : Shape := ⟨5, ![8, 8, 109, 112, 32]⟩
abbrev S8x8x3x112x32 : Shape := ⟨5, ![8, 8, 3, 112, 32]⟩
abbrev S8x8x112x109x32 : Shape := ⟨5, ![8, 8, 112, 109, 32]⟩
abbrev S8x8x112x3x32 : Shape := ⟨5, ![8, 8, 112, 3, 32]⟩
abbrev S1x1x28x112x32 : Shape := ⟨5, ![1, 1, 28, 112, 32]⟩
abbrev S28x112x32 : Shape := ⟨3, ![28, 112, 32]⟩
abbrev S4x7x16x7x32 : Shape := ⟨5, ![4, 7, 16, 7, 32]⟩
abbrev S4x16x7x7x32 : Shape := ⟨5, ![4, 16, 7, 7, 32]⟩
abbrev S64x49x32 : Shape := ⟨3, ![64, 49, 32]⟩
abbrev S64x49x49 : Shape := ⟨3, ![64, 49, 49]⟩
abbrev S64x49 : Shape := ⟨2, ![64, 49]⟩
abbrev S64x49x1 : Shape := ⟨3, ![64, 49, 1]⟩

abbrev nBuf : Space → Nat
  | .hbm => 29
  | .vmem => 8
  | .smem => 0
  | _ => 0

abbrev bufTy : (tb : Table) → Fin (tcTables nBuf tb) → BufTy
  | .hbm, ⟨0, _⟩ => ⟨S8x8x12544x32, .f32⟩
  | .hbm, ⟨1, _⟩ => ⟨S8x8x12544x32, .f32⟩
  | .hbm, ⟨2, _⟩ => ⟨S8x8x12544x32, .f32⟩
  | .hbm, ⟨3, _⟩ => ⟨S8x8x12544x32, .bf16⟩
  | .hbm, ⟨4, _⟩ => ⟨S8x8x112x112x32, .bf16⟩
  | .hbm, ⟨5, _⟩ => ⟨S8x8x109x112x32, .bf16⟩
  | .hbm, ⟨6, _⟩ => ⟨S8x8x3x112x32, .bf16⟩
  | .hbm, ⟨7, _⟩ => ⟨S8x8x112x112x32, .bf16⟩
  | .hbm, ⟨8, _⟩ => ⟨S8x8x112x109x32, .bf16⟩
  | .hbm, ⟨9, _⟩ => ⟨S8x8x112x3x32, .bf16⟩
  | .hbm, ⟨10, _⟩ => ⟨S8x8x112x112x32, .bf16⟩
  | .hbm, ⟨11, _⟩ => ⟨S8x8x12544x32, .bf16⟩
  | .hbm, ⟨12, _⟩ => ⟨S8x8x112x112x32, .bf16⟩
  | .hbm, ⟨13, _⟩ => ⟨S8x8x109x112x32, .bf16⟩
  | .hbm, ⟨14, _⟩ => ⟨S8x8x3x112x32, .bf16⟩
  | .hbm, ⟨15, _⟩ => ⟨S8x8x112x112x32, .bf16⟩
  | .hbm, ⟨16, _⟩ => ⟨S8x8x112x109x32, .bf16⟩
  | .hbm, ⟨17, _⟩ => ⟨S8x8x112x3x32, .bf16⟩
  | .hbm, ⟨18, _⟩ => ⟨S8x8x112x112x32, .bf16⟩
  | .hbm, ⟨19, _⟩ => ⟨S8x8x12544x32, .bf16⟩
  | .hbm, ⟨20, _⟩ => ⟨S8x8x112x112x32, .bf16⟩
  | .hbm, ⟨21, _⟩ => ⟨S8x8x109x112x32, .bf16⟩
  | .hbm, ⟨22, _⟩ => ⟨S8x8x3x112x32, .bf16⟩
  | .hbm, ⟨23, _⟩ => ⟨S8x8x112x112x32, .bf16⟩
  | .hbm, ⟨24, _⟩ => ⟨S8x8x112x109x32, .bf16⟩
  | .hbm, ⟨25, _⟩ => ⟨S8x8x112x3x32, .bf16⟩
  | .hbm, ⟨26, _⟩ => ⟨S8x8x112x112x32, .bf16⟩
  | .hbm, ⟨27, _⟩ => ⟨S8x8x112x112x32, .f32⟩
  | .hbm, ⟨28, _⟩ => ⟨S8x8x12544x32, .f32⟩
  | .local _ .vmem, ⟨0, _⟩ => ⟨S1x1x28x112x32, .bf16⟩
  | .local _ .vmem, ⟨1, _⟩ => ⟨S1x1x28x112x32, .bf16⟩
  | .local _ .vmem, ⟨2, _⟩ => ⟨S1x1x28x112x32, .bf16⟩
  | .local _ .vmem, ⟨3, _⟩ => ⟨S1x1x28x112x32, .bf16⟩
  | .local _ .vmem, ⟨4, _⟩ => ⟨S1x1x28x112x32, .bf16⟩
  | .local _ .vmem, ⟨5, _⟩ => ⟨S1x1x28x112x32, .bf16⟩
  | .local _ .vmem, ⟨6, _⟩ => ⟨S1x1x28x112x32, .f32⟩
  | .local _ .vmem, ⟨7, _⟩ => ⟨S1x1x28x112x32, .f32⟩
  | _, _ => ⟨S8x8x12544x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x28x112x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x28x112x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x28x112x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x28x112x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  bitsLt_bf16_f32 : FTy.bits .bf16 < FTy.bits .f32
  shapeCasts_S8x8x12544x32_S8x8x112x112x32 : S8x8x12544x32.ShapeCasts S8x8x112x112x32
  slices_S8x8x112x112x32_S8x8x109x112x32_0_0_3_0_0 : S8x8x112x112x32.Slices ![0, 0, 3, 0, 0] S8x8x109x112x32
  slices_S8x8x112x112x32_S8x8x3x112x32_0_0_0_0_0 : S8x8x112x112x32.Slices ![0, 0, 0, 0, 0] S8x8x3x112x32
  concatenates_S8x8x109x112x32_S8x8x3x112x32_S8x8x112x112x32_d2 : Shape.Concatenates [S8x8x109x112x32, S8x8x3x112x32] S8x8x112x112x32 2
  slices_S8x8x112x112x32_S8x8x112x109x32_0_0_0_3_0 : S8x8x112x112x32.Slices ![0, 0, 0, 3, 0] S8x8x112x109x32
  slices_S8x8x112x112x32_S8x8x112x3x32_0_0_0_0_0 : S8x8x112x112x32.Slices ![0, 0, 0, 0, 0] S8x8x112x3x32
  concatenates_S8x8x112x109x32_S8x8x112x3x32_S8x8x112x112x32_d3 : Shape.Concatenates [S8x8x112x109x32, S8x8x112x3x32] S8x8x112x112x32 3
  inb_S1x1x28x112x32_S1x1x28x112x32_0_0_0_0_0 : ∀ a, (![0, 0, 0, 0, 0] : Fin 5 → Nat) a + S1x1x28x112x32.size a ≤ S1x1x28x112x32.size a
  h_S1x1x28x112x32 : 0 < S1x1x28x112x32.numel
  shapeCasts_S1x1x28x112x32_S28x112x32 : S1x1x28x112x32.ShapeCasts S28x112x32
  shapeCasts_S28x112x32_S4x7x16x7x32 : S28x112x32.ShapeCasts S4x7x16x7x32
  transposes_S4x7x16x7x32_p0_2_1_3_4_S4x16x7x7x32 : S4x7x16x7x32.Transposes [0, 2, 1, 3, 4] S4x16x7x7x32
  shapeCasts_S4x16x7x7x32_S64x49x32 : S4x16x7x7x32.ShapeCasts S64x49x32
  reduces_S64x49x49_S64x49 : S64x49x49.Reduces [2] S64x49
  shapeCasts_S64x49_S64x49x1 : S64x49.ShapeCasts S64x49x1
  broadcasts_S64x49x1_S64x49x49 : S64x49x1.Broadcasts S64x49x49
  shapeCasts_S64x49x32_S4x16x7x7x32 : S64x49x32.ShapeCasts S4x16x7x7x32
  transposes_S4x16x7x7x32_p0_2_1_3_4_S4x7x16x7x32 : S4x16x7x7x32.Transposes [0, 2, 1, 3, 4] S4x7x16x7x32
  shapeCasts_S4x7x16x7x32_S28x112x32 : S4x7x16x7x32.ShapeCasts S28x112x32
  shapeCasts_S28x112x32_S1x1x28x112x32 : S28x112x32.ShapeCasts S1x1x28x112x32
  shapeCasts_S8x8x112x112x32_S8x8x12544x32 : S8x8x112x112x32.ShapeCasts S8x8x12544x32
  dot_S64x49x32_S64x49x32_S64x49x49_2_2_1_1_0_0_wf : DotDims.WF S64x49x32 S64x49x32 S64x49x49 [2] [2] [1] [1] [0] [0]
  dot_S64x49x49_S64x49x32_S64x49x32_2_1_1_2_0_0_wf : DotDims.WF S64x49x49 S64x49x32 S64x49x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x28x112x32.size a ≤ S8x8x112x112x32.size a
  hwx0_0 : ∀ i : grid0.Coords, EltTy.bits .bf16 = 32 ∨ (Rect.block (s := S8x8x112x112x32) S1x1x28x112x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x28x112x32.size a ≤ S8x8x112x112x32.size a
  hwx0_1 : ∀ i : grid0.Coords, EltTy.bits .bf16 = 32 ∨ (Rect.block (s := S8x8x112x112x32) S1x1x28x112x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x28x112x32.size a ≤ S8x8x112x112x32.size a
  hwx0_2 : ∀ i : grid0.Coords, EltTy.bits .bf16 = 32 ∨ (Rect.block (s := S8x8x112x112x32) S1x1x28x112x32.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x28x112x32.size a ≤ S8x8x112x112x32.size a
  hwx0_3 : ∀ i : grid0.Coords, EltTy.bits .f32 = 32 ∨ (Rect.block (s := S8x8x112x112x32) S1x1x28x112x32.size (cc0_transform_3 i) (hinb0_3 i)).WholeWords (EltTy.packing .f32)

variable [Facts₀]

def dot_S64x49x32_S64x49x32_S64x49x49_2_2_1_1_0_0 : DotDims S64x49x32 S64x49x32 S64x49x49 where
  lhsContracting := [2]
  rhsContracting := [2]
  lhsNonContracting := [1]
  rhsNonContracting := [1]
  lhsBatch := [0]
  rhsBatch := [0]
  wf := dot_S64x49x32_S64x49x32_S64x49x49_2_2_1_1_0_0_wf
def dot_S64x49x49_S64x49x32_S64x49x32_2_1_1_2_0_0 : DotDims S64x49x49 S64x49x32 S64x49x32 where
  lhsContracting := [2]
  rhsContracting := [1]
  lhsNonContracting := [1]
  rhsNonContracting := [2]
  lhsBatch := [0]
  rhsBatch := [0]
  wf := dot_S64x49x49_S64x49x32_S64x49x32_2_1_1_2_0_0_wf

abbrev win0_0 : Pipeline.Window sig grid0 :=
  Pipeline.Window.ofSpec (Memref.whole main_v2) S1x1x28x112x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1x28x112x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x28x112x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1x28x112x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8x12544x32 : Shape := ⟨4, ![8, 8, 12544, 32]⟩
abbrev S8x8x112x112x32 : Shape := ⟨5, ![8, 8, 112, 112, 32]⟩
abbrev S8x8x109x112x32 : Shape := ⟨5, ![8, 8, 109, 112, 32]⟩
abbrev S8x8x3x112x32 : Shape := ⟨5, ![8, 8, 3, 112, 32]⟩
abbrev S8x8x112x109x32 : Shape := ⟨5, ![8, 8, 112, 109, 32]⟩
abbrev S8x8x112x3x32 : Shape := ⟨5, ![8, 8, 112, 3, 32]⟩
abbrev S8x8x16x7x16x7x32 : Shape := ⟨7, ![8, 8, 16, 7, 16, 7, 32]⟩
abbrev S8x8x16x16x7x7x32 : Shape := ⟨7, ![8, 8, 16, 16, 7, 7, 32]⟩
abbrev S8x8x256x49x32 : Shape := ⟨5, ![8, 8, 256, 49, 32]⟩
abbrev S8x8x256x49x49 : Shape := ⟨5, ![8, 8, 256, 49, 49]⟩
abbrev S_ : Shape := ⟨0, ![]⟩
abbrev S8x8x256x49 : Shape := ⟨4, ![8, 8, 256, 49]⟩
abbrev S8x8x256x49x1 : Shape := ⟨5, ![8, 8, 256, 49, 1]⟩

abbrev nBuf : Space → Nat
  | .hbm => 55
  | .vmem => 0
  | .smem => 0
  | _ => 0

abbrev bufTy : (tb : Table) → Fin (tcTables nBuf tb) → BufTy
  | .hbm, ⟨0, _⟩ => ⟨S8x8x12544x32, .f32⟩
  | .hbm, ⟨1, _⟩ => ⟨S8x8x12544x32, .f32⟩
  | .hbm, ⟨2, _⟩ => ⟨S8x8x12544x32, .f32⟩
  | .hbm, ⟨3, _⟩ => ⟨S8x8x112x112x32, .f32⟩
  | .hbm, ⟨4, _⟩ => ⟨S8x8x109x112x32, .f32⟩
  | .hbm, ⟨5, _⟩ => ⟨S8x8x3x112x32, .f32⟩
  | .hbm, ⟨6, _⟩ => ⟨S8x8x112x112x32, .f32⟩
  | .hbm, ⟨7, _⟩ => ⟨S8x8x112x109x32, .f32⟩
  | .hbm, ⟨8, _⟩ => ⟨S8x8x112x3x32, .f32⟩
  | .hbm, ⟨9, _⟩ => ⟨S8x8x112x112x32, .f32⟩
  | .hbm, ⟨10, _⟩ => ⟨S8x8x16x7x16x7x32, .f32⟩
  | .hbm, ⟨11, _⟩ => ⟨S8x8x16x16x7x7x32, .f32⟩
  | .hbm, ⟨12, _⟩ => ⟨S8x8x256x49x32, .f32⟩
  | .hbm, ⟨13, _⟩ => ⟨S8x8x112x112x32, .f32⟩
  | .hbm, ⟨14, _⟩ => ⟨S8x8x109x112x32, .f32⟩
  | .hbm, ⟨15, _⟩ => ⟨S8x8x3x112x32, .f32⟩
  | .hbm, ⟨16, _⟩ => ⟨S8x8x112x112x32, .f32⟩
  | .hbm, ⟨17, _⟩ => ⟨S8x8x112x109x32, .f32⟩
  | .hbm, ⟨18, _⟩ => ⟨S8x8x112x3x32, .f32⟩
  | .hbm, ⟨19, _⟩ => ⟨S8x8x112x112x32, .f32⟩
  | .hbm, ⟨20, _⟩ => ⟨S8x8x16x7x16x7x32, .f32⟩
  | .hbm, ⟨21, _⟩ => ⟨S8x8x16x16x7x7x32, .f32⟩
  | .hbm, ⟨22, _⟩ => ⟨S8x8x256x49x32, .f32⟩
  | .hbm, ⟨23, _⟩ => ⟨S8x8x112x112x32, .f32⟩
  | .hbm, ⟨24, _⟩ => ⟨S8x8x109x112x32, .f32⟩
  | .hbm, ⟨25, _⟩ => ⟨S8x8x3x112x32, .f32⟩
  | .hbm, ⟨26, _⟩ => ⟨S8x8x112x112x32, .f32⟩
  | .hbm, ⟨27, _⟩ => ⟨S8x8x112x109x32, .f32⟩
  | .hbm, ⟨28, _⟩ => ⟨S8x8x112x3x32, .f32⟩
  | .hbm, ⟨29, _⟩ => ⟨S8x8x112x112x32, .f32⟩
  | .hbm, ⟨30, _⟩ => ⟨S8x8x16x7x16x7x32, .f32⟩
  | .hbm, ⟨31, _⟩ => ⟨S8x8x16x16x7x7x32, .f32⟩
  | .hbm, ⟨32, _⟩ => ⟨S8x8x256x49x32, .f32⟩
  | .hbm, ⟨33, _⟩ => ⟨S8x8x256x49x49, .f32⟩
  | .hbm, ⟨34, _⟩ => ⟨S_, .f32⟩
  | .hbm, ⟨35, _⟩ => ⟨S8x8x256x49x49, .f32⟩
  | .hbm, ⟨36, _⟩ => ⟨S8x8x256x49x49, .f32⟩
  | .hbm, ⟨37, _⟩ => ⟨S_, .f32⟩
  | .hbm, ⟨38, _⟩ => ⟨S8x8x256x49, .f32⟩
  | .hbm, ⟨39, _⟩ => ⟨S_, .f32⟩
  | .hbm, ⟨40, _⟩ => ⟨S8x8x256x49, .f32⟩
  | .hbm, ⟨41, _⟩ => ⟨S8x8x256x49, .f32⟩
  | .hbm, ⟨42, _⟩ => ⟨S8x8x256x49x1, .f32⟩
  | .hbm, ⟨43, _⟩ => ⟨S8x8x256x49x49, .f32⟩
  | .hbm, ⟨44, _⟩ => ⟨S8x8x256x49x49, .f32⟩
  | .hbm, ⟨45, _⟩ => ⟨S8x8x256x49x49, .f32⟩
  | .hbm, ⟨46, _⟩ => ⟨S_, .f32⟩
  | .hbm, ⟨47, _⟩ => ⟨S8x8x256x49, .f32⟩
  | .hbm, ⟨48, _⟩ => ⟨S8x8x256x49x1, .f32⟩
  | .hbm, ⟨49, _⟩ => ⟨S8x8x256x49x49, .f32⟩
  | .hbm, ⟨50, _⟩ => ⟨S8x8x256x49x49, .f32⟩
  | .hbm, ⟨51, _⟩ => ⟨S8x8x256x49x32, .f32⟩
  | .hbm, ⟨52, _⟩ => ⟨S8x8x16x16x7x7x32, .f32⟩
  | .hbm, ⟨53, _⟩ => ⟨S8x8x16x7x16x7x32, .f32⟩
  | .hbm, ⟨54, _⟩ => ⟨S8x8x12544x32, .f32⟩
  | _, _ => ⟨S8x8x12544x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩

abbrev nD : Nat := 1
abbrev τ : Topo := Topo.v7x

variable {F : FTy → Type} [FloatOps F]

class Facts₀ : Prop where
  shapeCasts_S8x8x12544x32_S8x8x112x112x32 : S8x8x12544x32.ShapeCasts S8x8x112x112x32
  slices_S8x8x112x112x32_S8x8x109x112x32_0_0_3_0_0 : S8x8x112x112x32.Slices ![0, 0, 3, 0, 0] S8x8x109x112x32
  slices_S8x8x112x112x32_S8x8x3x112x32_0_0_0_0_0 : S8x8x112x112x32.Slices ![0, 0, 0, 0, 0] S8x8x3x112x32
  concatenates_S8x8x109x112x32_S8x8x3x112x32_S8x8x112x112x32_d2 : Shape.Concatenates [S8x8x109x112x32, S8x8x3x112x32] S8x8x112x112x32 2
  slices_S8x8x112x112x32_S8x8x112x109x32_0_0_0_3_0 : S8x8x112x112x32.Slices ![0, 0, 0, 3, 0] S8x8x112x109x32
  slices_S8x8x112x112x32_S8x8x112x3x32_0_0_0_0_0 : S8x8x112x112x32.Slices ![0, 0, 0, 0, 0] S8x8x112x3x32
  concatenates_S8x8x112x109x32_S8x8x112x3x32_S8x8x112x112x32_d3 : Shape.Concatenates [S8x8x112x109x32, S8x8x112x3x32] S8x8x112x112x32 3
  shapeCasts_S8x8x112x112x32_S8x8x16x7x16x7x32 : S8x8x112x112x32.ShapeCasts S8x8x16x7x16x7x32
  transposes_S8x8x16x7x16x7x32_S8x8x16x16x7x7x32_0_1_2_4_3_5_6 : S8x8x16x7x16x7x32.Transposes [0, 1, 2, 4, 3, 5, 6] S8x8x16x16x7x7x32
  shapeCasts_S8x8x16x16x7x7x32_S8x8x256x49x32 : S8x8x16x16x7x7x32.ShapeCasts S8x8x256x49x32
  bcast_S_S8x8x256x49x49 : S_.BroadcastsInDim S8x8x256x49x49 (![] : Fin 0 → Fin S8x8x256x49x49.rank)
  reducesTo_S8x8x256x49x49_S8x8x256x49_d4 : S8x8x256x49x49.ReducesTo [4] S8x8x256x49
  h_S_ : 0 < S_.numel
  bcast_S_S8x8x256x49 : S_.BroadcastsInDim S8x8x256x49 (![] : Fin 0 → Fin S8x8x256x49.rank)
  bcast_S8x8x256x49_S8x8x256x49x1_0_1_2_3 : S8x8x256x49.BroadcastsInDim S8x8x256x49x1 (![0, 1, 2, 3] : Fin 4 → Fin S8x8x256x49x1.rank)
  bcast_S8x8x256x49x1_S8x8x256x49x49_0_1_2_3_4 : S8x8x256x49x1.BroadcastsInDim S8x8x256x49x49 (![0, 1, 2, 3, 4] : Fin 5 → Fin S8x8x256x49x49.rank)
  shapeCasts_S8x8x256x49x32_S8x8x16x16x7x7x32 : S8x8x256x49x32.ShapeCasts S8x8x16x16x7x7x32
  transposes_S8x8x16x16x7x7x32_S8x8x16x7x16x7x32_0_1_2_4_3_5_6 : S8x8x16x16x7x7x32.Transposes [0, 1, 2, 4, 3, 5, 6] S8x8x16x7x16x7x32
  shapeCasts_S8x8x16x7x16x7x32_S8x8x12544x32 : S8x8x16x7x16x7x32.ShapeCasts S8x8x12544x32
  dot_S8x8x256x49x32_S8x8x256x49x32_S8x8x256x49x49_4_4_3_3_012_012_wf : DotDims.WF S8x8x256x49x32 S8x8x256x49x32 S8x8x256x49x49 [4] [4] [3] [3] [0, 1, 2] [0, 1, 2]
  dot_S8x8x256x49x49_S8x8x256x49x32_S8x8x256x49x32_4_3_3_4_012_012_wf : DotDims.WF S8x8x256x49x49 S8x8x256x49x32 S8x8x256x49x32 [4] [3] [3] [4] [0, 1, 2] [0, 1, 2]

variable [Facts₀]

def dot_S8x8x256x49x32_S8x8x256x49x32_S8x8x256x49x49_4_4_3_3_012_012 : DotDims S8x8x256x49x32 S8x8x256x49x32 S8x8x256x49x49 where
  lhsContracting := [4]
  rhsContracting := [4]
  lhsNonContracting := [3]
  rhsNonContracting := [3]
  lhsBatch := [0, 1, 2]
  rhsBatch := [0, 1, 2]
  wf := dot_S8x8x256x49x32_S8x8x256x49x32_S8x8x256x49x49_4_4_3_3_012_012_wf
def dot_S8x8x256x49x49_S8x8x256x49x32_S8x8x256x49x32_4_3_3_4_012_012 : DotDims S8x8x256x49x49 S8x8x256x49x32 S8x8x256x49x32 where
  lhsContracting := [4]
  rhsContracting := [3]
  lhsNonContracting := [3]
  rhsNonContracting := [4]
  lhsBatch := [0, 1, 2]
  rhsBatch := [0, 1, 2]
  wf := dot_S8x8x256x49x49_S8x8x256x49x32_S8x8x256x49x32_4_3_3_4_012_012_wf

class Facts : Prop extends Facts₀ where

variable [Facts]
-- ==== Proof.Layout.lean ====
/-
  Re-layings of the image read at an index.

  A row-major position of a rank-7 index; the token axis of length 12544 split into 112 rows of 112 columns and
  merged back; and the cyclic shift of the image by three rows and three columns, which is printed as two
  slice-and-join steps: rows 3..111 followed by rows 0..2, then the same on the columns. Read at row `r`, column `c`
  the shifted image is the image at row `(r + 3) mod 112`, column `(c + 3) mod 112`.
-/
import Idealize.ShloMosaic.Lib.Pipeline.Value
import Idealize.ShloMosaic.Lib.ValueIdx

namespace Cert.Layout

open Idealize.ShloMosaic Idealize.ShloMosaic.ValueIdx

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
        + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun t => match t with | ⟨0, _⟩ => a | ⟨1, _⟩ => b | ⟨2, _⟩ => c | ⟨3, _⟩ => d | ⟨4, _⟩ => e | ⟨5, _⟩ => f | ⟨6, _⟩ => g

/-- The arrays with a token axis, and the same as images. -/
abbrev T4 : Shape := ⟨4, ![8, 8, 12544, 32]⟩
abbrev I5 : Shape := ⟨5, ![8, 8, 112, 112, 32]⟩

variable {α : Type}

/-- Splitting the token axis into rows and columns: row `r`, column `c` is token `112 r + c`. -/
theorem image_apply (x : T4.Idx → α) (h : T4.ShapeCasts I5) (b hd : Fin 8) (r c : Fin 112) (e : Fin 32) :
    shapeCast I5 x h (ix5 b hd r c e) = x (ix4 b hd ⟨r.val * 112 + c.val, by omega⟩ e) :=
  shapeCast_apply x h _ _ (by
    rw [Shape.rowMajor_val_four, Shape.rowMajor_val_five]
    show ((b.val * 8 + hd.val) * 12544 + (r.val * 112 + c.val)) * 32 + e.val
      = (((b.val * 8 + hd.val) * 112 + r.val) * 112 + c.val) * 32 + e.val
    omega)

/-- Merging rows and columns back: token `n` is row `n / 112`, column `n % 112`. -/
theorem tokens_apply (y : I5.Idx → α) (h : I5.ShapeCasts T4) (b hd : Fin 8) (n : Fin 12544) (e : Fin 32) :
    shapeCast T4 y h (ix4 b hd n e) = y (ix5 b hd ⟨n.val / 112, by omega⟩ ⟨n.val % 112, by omega⟩ e) :=
  shapeCast_apply y h _ _ (by
    rw [Shape.rowMajor_val_four, Shape.rowMajor_val_five]
    show (((b.val * 8 + hd.val) * 112 + n.val / 112) * 112 + n.val % 112) * 32 + e.val
      = ((b.val * 8 + hd.val) * 12544 + n.val) * 32 + e.val
    omega)

/-! ## The cyclic shift -/

abbrev R109 : Shape := ⟨5, ![8, 8, 109, 112, 32]⟩
abbrev R3 : Shape := ⟨5, ![8, 8, 3, 112, 32]⟩
abbrev C109 : Shape := ⟨5, ![8, 8, 112, 109, 32]⟩
abbrev C3 : Shape := ⟨5, ![8, 8, 112, 3, 32]⟩

/-- Rows 3..111 followed by rows 0..2: row `r` of the result is row `(r + 3) mod 112`. -/
theorem rollRows_apply (y : I5.Idx → α) (hs0 : I5.Slices ![0, 0, 3, 0, 0] R109) (hs1 : I5.Slices ![0, 0, 0, 0, 0] R3)
    (hc : Shape.Concatenates [R109, R3] I5 2) (b hd : Fin 8) (r c : Fin 112) (e : Fin 32) :
    concatenate I5 2 [⟨R109, extractStridedSlice R109 ![0, 0, 3, 0, 0] y hs0⟩, ⟨R3, extractStridedSlice R3 ![0, 0, 0, 0, 0] y hs1⟩] hc
        (ix5 b hd r c e)
      = y (ix5 b hd ⟨(r.val + 3) % 112, by omega⟩ c e) := by
  by_cases hr : r.val < 109
  · refine (concatenate_pair_apply_left (2 : Fin I5.rank) _ _ hc (ix5 b hd r c e) rfl (ix5 b hd ⟨r.val, hr⟩ c e)
      (fun t => match t with | ⟨0, _⟩ => rfl | ⟨1, _⟩ => rfl | ⟨2, _⟩ => rfl | ⟨3, _⟩ => rfl | ⟨4, _⟩ => rfl)).trans ?_
    refine (extractStridedSlice_apply ![0, 0, 3, 0, 0] y hs0 _ (ix5 b hd ⟨r.val + 3, by omega⟩ c e) (fun t => match t with
      | ⟨0, _⟩ => by show b.val = 0 + b.val; omega
      | ⟨1, _⟩ => by show hd.val = 0 + hd.val; omega
      | ⟨2, _⟩ => by show r.val + 3 = 3 + r.val; omega
      | ⟨3, _⟩ => by show c.val = 0 + c.val; omega
      | ⟨4, _⟩ => by show e.val = 0 + e.val; omega)).trans ?_
    exact congrArg y (congrArg (fun q => ix5 b hd q c e) (Fin.ext (by show r.val + 3 = (r.val + 3) % 112; omega)))
  · refine (concatenate_pair_apply_right (2 : Fin I5.rank) _ _ hc (ix5 b hd r c e) rfl rfl
      (ix5 b hd ⟨r.val - 109, by omega⟩ c e)
      (fun t => match t with
        | ⟨0, _⟩ => fun _ => rfl | ⟨1, _⟩ => fun _ => rfl | ⟨2, _⟩ => fun hne => absurd rfl hne
        | ⟨3, _⟩ => fun _ => rfl | ⟨4, _⟩ => fun _ => rfl)
      (by show r.val - 109 + 109 = r.val; omega)).trans ?_
    refine (extractStridedSlice_apply ![0, 0, 0, 0, 0] y hs1 _ (ix5 b hd ⟨r.val - 109, by omega⟩ c e) (fun t => match t with
      | ⟨0, _⟩ => by show b.val = 0 + b.val; omega
      | ⟨1, _⟩ => by show hd.val = 0 + hd.val; omega
      | ⟨2, _⟩ => by show r.val - 109 = 0 + (r.val - 109); omega
      | ⟨3, _⟩ => by show c.val = 0 + c.val; omega
      | ⟨4, _⟩ => by show e.val = 0 + e.val; omega)).trans ?_
    exact congrArg y (congrArg (fun q => ix5 b hd q c e) (Fin.ext (by show r.val - 109 = (r.val + 3) % 112; omega)))

/-- Columns 3..111 followed by columns 0..2: column `c` of the result is column `(c + 3) mod 112`. -/
theorem rollCols_apply (y : I5.Idx → α) (hs0 : I5.Slices ![0, 0, 0, 3, 0] C109) (hs1 : I5.Slices ![0, 0, 0, 0, 0] C3)
    (hc : Shape.Concatenates [C109, C3] I5 3) (b hd : Fin 8) (r c : Fin 112) (e : Fin 32) :
    concatenate I5 3 [⟨C109, extractStridedSlice C109 ![0, 0, 0, 3, 0] y hs0⟩, ⟨C3, extractStridedSlice C3 ![0, 0, 0, 0, 0] y hs1⟩] hc
        (ix5 b hd r c e)
      = y (ix5 b hd r ⟨(c.val + 3) % 112, by omega⟩ e) := by
  by_cases hr : c.val < 109
  · refine (concatenate_pair_apply_left (3 : Fin I5.rank) _ _ hc (ix5 b hd r c e) rfl (ix5 b hd r ⟨c.val, hr⟩ e)
      (fun t => match t with | ⟨0, _⟩ => rfl | ⟨1, _⟩ => rfl | ⟨2, _⟩ => rfl | ⟨3, _⟩ => rfl | ⟨4, _⟩ => rfl)).trans ?_
    refine (extractStridedSlice_apply ![0, 0, 0, 3, 0] y hs0 _ (ix5 b hd r ⟨c.val + 3, by omega⟩ e) (fun t => match t with
      | ⟨0, _⟩ => by show b.val = 0 + b.val; omega
      | ⟨1, _⟩ => by show hd.val = 0 + hd.val; omega
      | ⟨2, _⟩ => by show r.val = 0 + r.val; omega
      | ⟨3, _⟩ => by show c.val + 3 = 3 + c.val; omega
      | ⟨4, _⟩ => by show e.val = 0 + e.val; omega)).trans ?_
    exact congrArg y (congrArg (fun q => ix5 b hd r q e) (Fin.ext (by show c.val + 3 = (c.val + 3) % 112; omega)))
  · refine (concatenate_pair_apply_right (3 : Fin I5.rank) _ _ hc (ix5 b hd r c e) rfl rfl
      (ix5 b hd r ⟨c.val - 109, by omega⟩ e)
      (fun t => match t with
        | ⟨0, _⟩ => fun _ => rfl | ⟨1, _⟩ => fun _ => rfl | ⟨2, _⟩ => fun _ => rfl
        | ⟨3, _⟩ => fun hne => absurd rfl hne | ⟨4, _⟩ => fun _ => rfl)
      (by show c.val - 109 + 109 = c.val; omega)).trans ?_
    refine (extractStridedSlice_apply ![0, 0, 0, 0, 0] y hs1 _ (ix5 b hd r ⟨c.val - 109, by omega⟩ e) (fun t => match t with
      | ⟨0, _⟩ => by show b.val = 0 + b.val; omega
      | ⟨1, _⟩ => by show hd.val = 0 + hd.val; omega
      | ⟨2, _⟩ => by show r.val = 0 + r.val; omega
      | ⟨3, _⟩ => by show c.val - 109 = 0 + (c.val - 109); omega
      | ⟨4, _⟩ => by show e.val = 0 + e.val; omega)).trans ?_
    exact congrArg y (congrArg (fun q => ix5 b hd r q e) (Fin.ext (by show c.val - 109 = (c.val + 3) % 112; omega)))

end Cert.Layout
-- ==== Proof.Windows.lean ====
/-
  Cutting the image into 7 × 7 windows, and laying the windows back, read at an index.

  Window `w = 16·hw + ww`, position `p = 7·i + j` is row `7·hw + i`, column `7·ww + j` of the image. One program does
  this on the whole batch through rank-7 arrays (rows split 16 × 7, columns split 16 × 7, the two middle axes
  swapped, then merged to 256 windows of 49 positions); the other on a stripe of 28 rows (4 × 7 rows, 16 × 7 columns,
  the same swap, 64 windows of 49 positions). Each re-laying is a reshape, a transposition, a reshape; read at an
  index each step moves to the index with the same row-major position, or swaps two coordinates.
-/
import proofs.«127838_j19834158973060_2_alg».proof.Proof.Layout

namespace Cert.Windows

open Idealize.ShloMosaic Idealize.ShloMosaic.ValueIdx Cert.Layout

variable {α : Type}

/-! ## The whole batch: 256 windows per image -/

abbrev P7 : Shape := ⟨7, ![8, 8, 16, 7, 16, 7, 32]⟩
abbrev W7 : Shape := ⟨7, ![8, 8, 16, 16, 7, 7, 32]⟩
abbrev W5 : Shape := ⟨5, ![8, 8, 256, 49, 32]⟩

/-- The image cut into windows: window `w`, position `p` is row `7 (w / 16) + p / 7`, column `7 (w % 16) + p % 7`. -/
theorem cut_apply (y : I5.Idx → α) (h1 : I5.ShapeCasts P7) (h2 : P7.Transposes [0, 1, 2, 4, 3, 5, 6] W7) (h3 : W7.ShapeCasts W5)
    (b hd : Fin 8) (w : Fin 256) (p : Fin 49) (e : Fin 32) :
    shapeCast W5 (transpose W7 [0, 1, 2, 4, 3, 5, 6] (shapeCast P7 y h1) h2) h3 (ix5 b hd w p e)
      = y (ix5 b hd ⟨7 * (w.val / 16) + p.val / 7, by omega⟩ ⟨7 * (w.val % 16) + p.val % 7, by omega⟩ e) := by
  have e1 : (((((b.val * 8 + hd.val) * 16 + w.val / 16) * 16 + w.val % 16) * 7 + p.val / 7) * 7 + p.val % 7) * 32 + e.val
      = (((b.val * 8 + hd.val) * 256 + w.val) * 49 + p.val) * 32 + e.val := by omega
  have e2 : (((b.val * 8 + hd.val) * 112 + (7 * (w.val / 16) + p.val / 7)) * 112 + (7 * (w.val % 16) + p.val % 7)) * 32 + e.val
      = (((((b.val * 8 + hd.val) * 16 + w.val / 16) * 7 + p.val / 7) * 16 + w.val % 16) * 7 + p.val % 7) * 32 + e.val := by omega
  refine (shapeCast_apply _ h3 _
    (ix7 b hd (⟨w.val / 16, by omega⟩ : Fin 16) (⟨w.val % 16, by omega⟩ : Fin 16) (⟨p.val / 7, by omega⟩ : Fin 7)
      (⟨p.val % 7, by omega⟩ : Fin 7) e) (by rw [rowMajor_val_seven, Shape.rowMajor_val_five]; exact e1)).trans ?_
  refine (transpose_apply [0, 1, 2, 4, 3, 5, 6] _ h2 _
    (ix7 b hd (⟨w.val / 16, by omega⟩ : Fin 16) (⟨p.val / 7, by omega⟩ : Fin 7) (⟨w.val % 16, by omega⟩ : Fin 16)
      (⟨p.val % 7, by omega⟩ : Fin 7) e)
    (fun t => match t with
      | ⟨0, _⟩ => rfl | ⟨1, _⟩ => rfl | ⟨2, _⟩ => rfl | ⟨3, _⟩ => rfl | ⟨4, _⟩ => rfl | ⟨5, _⟩ => rfl | ⟨6, _⟩ => rfl)).trans ?_
  exact shapeCast_apply y h1 _ _ (by rw [Shape.rowMajor_val_five, rowMajor_val_seven]; exact e2)

/-- The windows laid back as tokens: token `n` (row `n / 112`, column `n % 112`) is window
    `16 (n / 112 / 7) + n % 112 / 7`, position `7 (n / 112 % 7) + n % 112 % 7`. -/
theorem lay_apply (o : W5.Idx → α) (h1 : W5.ShapeCasts W7) (h2 : W7.Transposes [0, 1, 2, 4, 3, 5, 6] P7) (h3 : P7.ShapeCasts T4)
    (b hd : Fin 8) (n : Fin 12544) (e : Fin 32) :
    shapeCast T4 (transpose P7 [0, 1, 2, 4, 3, 5, 6] (shapeCast W7 o h1) h2) h3 (ix4 b hd n e)
      = o (ix5 b hd ⟨16 * (n.val / 112 / 7) + n.val % 112 / 7, by omega⟩ ⟨7 * (n.val / 112 % 7) + n.val % 112 % 7, by omega⟩ e) := by
  have e1 : (((((b.val * 8 + hd.val) * 16 + n.val / 112 / 7) * 7 + n.val / 112 % 7) * 16 + n.val % 112 / 7) * 7 + n.val % 112 % 7) * 32
        + e.val
      = ((b.val * 8 + hd.val) * 12544 + n.val) * 32 + e.val := by omega
  have e2 : (((b.val * 8 + hd.val) * 256 + (16 * (n.val / 112 / 7) + n.val % 112 / 7)) * 49
          + (7 * (n.val / 112 % 7) + n.val % 112 % 7)) * 32 + e.val
      = (((((b.val * 8 + hd.val) * 16 + n.val / 112 / 7) * 16 + n.val % 112 / 7) * 7 + n.val / 112 % 7) * 7 + n.val % 112 % 7) * 32
        + e.val := by omega
  refine (shapeCast_apply _ h3 _
    (ix7 b hd (⟨n.val / 112 / 7, by omega⟩ : Fin 16) (⟨n.val / 112 % 7, by omega⟩ : Fin 7) (⟨n.val % 112 / 7, by omega⟩ : Fin 16)
      (⟨n.val % 112 % 7, by omega⟩ : Fin 7) e) (by rw [rowMajor_val_seven, Shape.rowMajor_val_four]; exact e1)).trans ?_
  refine (transpose_apply [0, 1, 2, 4, 3, 5, 6] _ h2 _
    (ix7 b hd (⟨n.val / 112 / 7, by omega⟩ : Fin 16) (⟨n.val % 112 / 7, by omega⟩ : Fin 16) (⟨n.val / 112 % 7, by omega⟩ : Fin 7)
      (⟨n.val % 112 % 7, by omega⟩ : Fin 7) e)
    (fun t => match t with
      | ⟨0, _⟩ => rfl | ⟨1, _⟩ => rfl | ⟨2, _⟩ => rfl | ⟨3, _⟩ => rfl | ⟨4, _⟩ => rfl | ⟨5, _⟩ => rfl | ⟨6, _⟩ => rfl)).trans ?_
  exact shapeCast_apply o h1 _ _ (by rw [Shape.rowMajor_val_five, rowMajor_val_seven]; exact e2)

/-! ## One stripe of 28 rows: 64 windows -/

abbrev B5 : Shape := ⟨5, ![1, 1, 28, 112, 32]⟩
abbrev B3 : Shape := ⟨3, ![28, 112, 32]⟩
abbrev Q5 : Shape := ⟨5, ![4, 7, 16, 7, 32]⟩
abbrev V5 : Shape := ⟨5, ![4, 16, 7, 7, 32]⟩
abbrev V3 : Shape := ⟨3, ![64, 49, 32]⟩

/-- The stripe cut into windows: window `w`, position `p` is row `7 (w / 16) + p / 7`, column `7 (w % 16) + p % 7` of
    the stripe. -/
theorem stripeCut_apply (x : B5.Idx → α) (h0 : B5.ShapeCasts B3) (h1 : B3.ShapeCasts Q5) (h2 : Q5.Transposes [0, 2, 1, 3, 4] V5)
    (h3 : V5.ShapeCasts V3) (w : Fin 64) (p : Fin 49) (e : Fin 32) :
    shapeCast V3 (transpose V5 [0, 2, 1, 3, 4] (shapeCast Q5 (shapeCast B3 x h0) h1) h2) h3 (ix3 w p e)
      = x (ix5 (0 : Fin 1) (0 : Fin 1) (⟨7 * (w.val / 16) + p.val / 7, by omega⟩ : Fin 28)
          (⟨7 * (w.val % 16) + p.val % 7, by omega⟩ : Fin 112) e) := by
  have e1 : ((((w.val / 16) * 16 + w.val % 16) * 7 + p.val / 7) * 7 + p.val % 7) * 32 + e.val = (w.val * 49 + p.val) * 32 + e.val := by
    omega
  have e2 : ((7 * (w.val / 16) + p.val / 7) * 112 + (7 * (w.val % 16) + p.val % 7)) * 32 + e.val
      = ((((w.val / 16) * 7 + p.val / 7) * 16 + w.val % 16) * 7 + p.val % 7) * 32 + e.val := by omega
  have e3 : (((0 * 1 + 0) * 28 + (7 * (w.val / 16) + p.val / 7)) * 112 + (7 * (w.val % 16) + p.val % 7)) * 32 + e.val
      = ((7 * (w.val / 16) + p.val / 7) * 112 + (7 * (w.val % 16) + p.val % 7)) * 32 + e.val := by omega
  refine (shapeCast_apply _ h3 _
    (ix5 (⟨w.val / 16, by omega⟩ : Fin 4) (⟨w.val % 16, by omega⟩ : Fin 16) (⟨p.val / 7, by omega⟩ : Fin 7)
      (⟨p.val % 7, by omega⟩ : Fin 7) e) (by rw [Shape.rowMajor_val_five, Shape.rowMajor_val_three]; exact e1)).trans ?_
  refine (transpose_apply [0, 2, 1, 3, 4] _ h2 _
    (ix5 (⟨w.val / 16, by omega⟩ : Fin 4) (⟨p.val / 7, by omega⟩ : Fin 7) (⟨w.val % 16, by omega⟩ : Fin 16)
      (⟨p.val % 7, by omega⟩ : Fin 7) e)
    (fun t => match t with | ⟨0, _⟩ => rfl | ⟨1, _⟩ => rfl | ⟨2, _⟩ => rfl | ⟨3, _⟩ => rfl | ⟨4, _⟩ => rfl)).trans ?_
  refine (shapeCast_apply _ h1 _
    (ix3 (⟨7 * (w.val / 16) + p.val / 7, by omega⟩ : Fin 28) (⟨7 * (w.val % 16) + p.val % 7, by omega⟩ : Fin 112) e)
    (by rw [Shape.rowMajor_val_three, Shape.rowMajor_val_five]; exact e2)).trans ?_
  exact shapeCast_apply x h0 _ _ (by rw [Shape.rowMajor_val_five, Shape.rowMajor_val_three]; exact e3)

/-- The stripe's windows laid back: row `r`, column `c` of the stripe is window `16 (r / 7) + c / 7`, position
    `7 (r % 7) + c % 7`. -/
theorem stripeLay_apply (o : V3.Idx → α) (h1 : V3.ShapeCasts V5) (h2 : V5.Transposes [0, 2, 1, 3, 4] Q5) (h3 : Q5.ShapeCasts B3)
    (h4 : B3.ShapeCasts B5) (z0 z1 : Fin 1) (r : Fin 28) (c : Fin 112) (e : Fin 32) :
    shapeCast B5 (shapeCast B3 (transpose Q5 [0, 2, 1, 3, 4] (shapeCast V5 o h1) h2) h3) h4 (ix5 z0 z1 r c e)
      = o (ix3 (⟨16 * (r.val / 7) + c.val / 7, by omega⟩ : Fin 64) (⟨7 * (r.val % 7) + c.val % 7, by omega⟩ : Fin 49) e) := by
  have e1 : (r.val * 112 + c.val) * 32 + e.val = (((z0.val * 1 + z1.val) * 28 + r.val) * 112 + c.val) * 32 + e.val := by omega
  have e2 : ((((r.val / 7) * 7 + r.val % 7) * 16 + c.val / 7) * 7 + c.val % 7) * 32 + e.val = (r.val * 112 + c.val) * 32 + e.val := by
    omega
  have e3 : ((16 * (r.val / 7) + c.val / 7) * 49 + (7 * (r.val % 7) + c.val % 7)) * 32 + e.val
      = ((((r.val / 7) * 16 + c.val / 7) * 7 + r.val % 7) * 7 + c.val % 7) * 32 + e.val := by omega
  refine (shapeCast_apply _ h4 _ (ix3 r c e) (by rw [Shape.rowMajor_val_three, Shape.rowMajor_val_five]; exact e1)).trans ?_
  refine (shapeCast_apply _ h3 _
    (ix5 (⟨r.val / 7, by omega⟩ : Fin 4) (⟨r.val % 7, by omega⟩ : Fin 7) (⟨c.val / 7, by omega⟩ : Fin 16)
      (⟨c.val % 7, by omega⟩ : Fin 7) e) (by rw [Shape.rowMajor_val_five, Shape.rowMajor_val_three]; exact e2)).trans ?_
  refine (transpose_apply [0, 2, 1, 3, 4] _ h2 _
    (ix5 (⟨r.val / 7, by omega⟩ : Fin 4) (⟨c.val / 7, by omega⟩ : Fin 16) (⟨r.val % 7, by omega⟩ : Fin 7)
      (⟨c.val % 7, by omega⟩ : Fin 7) e)
    (fun t => match t with | ⟨0, _⟩ => rfl | ⟨1, _⟩ => rfl | ⟨2, _⟩ => rfl | ⟨3, _⟩ => rfl | ⟨4, _⟩ => rfl)).trans ?_
  exact shapeCast_apply o h1 _ _ (by rw [Shape.rowMajor_val_three, Shape.rowMajor_val_five]; exact e3)

end Cert.Windows
-- ==== Proof.Attn.lean ====
/-
  Windowed attention over a shifted 112 × 112 image of 32-vectors, as ONE function of the three argument arrays.

  The image is cut into 16 × 16 windows of 7 × 7 positions, after a cyclic shift by 3 rows and 3 columns: position
  `p = 7·i + j` of window `(hw, ww)` is the token at row `(7·hw + i + 3) mod 112`, column `(7·ww + j + 3) mod 112`
  of the unshifted image. Inside one window, for each query position `p` the scores against the 49 key positions are
  the dot products over the 32 channels times a fixed scale; they are turned into weights by subtracting their
  maximum, exponentiating and dividing by the sum; the result is the weighted sum of the 49 value vectors. The result
  is laid out in the shifted image: the entry at token `n` (row `n / 112`, column `n % 112`) belongs to window
  `(n / 112 / 7, n % 112 / 7)`, position `7 · (n / 112 % 7) + n % 112 % 7`.

  Everything is on the extended reals; sums are finite sums in a commutative monoid, the maximum is a fold of `max`,
  so no order of evaluation enters.
-/
import Idealize.ShloMosaic.PureOps.Ideal
import Idealize.ShloMosaic.Lib.ValueIdx
import Mathlib.Data.Finset.Fold

noncomputable section

namespace Cert.Attn

open Idealize.ShloMosaic Idealize.ShloMosaic.ValueIdx

/-- The scale the scores are multiplied by: one f32 word, the same in both programs, never evaluated. -/
def scale : EReal := Ideal.ofBits .f32 0x3E3504F3#32
/-- The value the row maximum is folded from: the f32 word of minus infinity, never evaluated. -/
def floor : EReal := Ideal.ofBits .f32 0xFF800000#32

/-- The score of query position `p` against key position `j`. -/
def score (q k : Fin 49 → Fin 32 → EReal) (p j : Fin 49) : EReal := (∑ e : Fin 32, q p e * k j e) * scale
/-- The largest score of query position `p`. -/
def rowMax (q k : Fin 49 → Fin 32 → EReal) (p : Fin 49) : EReal :=
  (Finset.univ : Finset (Fin 49)).fold max floor (fun j => score q k p j)
/-- The unnormalized weight of key position `j` for query position `p`. -/
def weight (q k : Fin 49 → Fin 32 → EReal) (p j : Fin 49) : EReal := Ideal.exp (score q k p j - rowMax q k p)
/-- Attention inside one window: the weights normalized by their sum, applied to the value vectors. -/
def attn (q k v : Fin 49 → Fin 32 → EReal) (p : Fin 49) (d : Fin 32) : EReal :=
  ∑ j : Fin 49, Ideal.div (weight q k p j) (∑ j' : Fin 49, weight q k p j') * v j d

/-- The token (in the unshifted image) at position `p` of window `(hw, ww)` of the shifted image. -/
def src (hw ww : Fin 16) (p : Fin 49) : Fin 12544 :=
  ⟨((7 * hw.val + p.val / 7 + 3) % 112) * 112 + (7 * ww.val + p.val % 7 + 3) % 112, by omega⟩

/-- Window `(hw, ww)` of batch `b`, head `h` of an argument array: 49 positions of 32 channels. -/
def win (X : (⟨4, ![8, 8, 12544, 32]⟩ : Shape).Idx → EReal) (b h : Fin 8) (hw ww : Fin 16) : Fin 49 → Fin 32 → EReal :=
  fun p e => X (ix4 b h (src hw ww p) e)

/-- The result at batch `b`, head `h`, token `n` of the shifted image, channel `d`. -/
def G4 (X Y Z : (⟨4, ![8, 8, 12544, 32]⟩ : Shape).Idx → EReal) (b h : Fin 8) (n : Fin 12544) (d : Fin 32) : EReal :=
  attn (win X b h ⟨n.val / 112 / 7, by omega⟩ ⟨n.val % 112 / 7, by omega⟩)
    (win Y b h ⟨n.val / 112 / 7, by omega⟩ ⟨n.val % 112 / 7, by omega⟩)
    (win Z b h ⟨n.val / 112 / 7, by omega⟩ ⟨n.val % 112 / 7, by omega⟩)
    ⟨7 * (n.val / 112 % 7) + n.val % 112 % 7, by omega⟩ d

/-- The whole result array. -/
def G (X Y Z : (⟨4, ![8, 8, 12544, 32]⟩ : Shape).Idx → EReal) : (⟨4, ![8, 8, 12544, 32]⟩ : Shape).Idx → EReal :=
  fun i => G4 X Y Z (i 0) (i 1) (i 2) (i 3)

/-- Folding `max` from a value never goes below it: taking `max` with that value once more changes nothing. -/
theorem max_fold_max {ι : Type*} (s : Finset ι) (c : EReal) (f : ι → EReal) : max c (s.fold max c f) = s.fold max c f :=
  max_eq_right ((Finset.le_fold_max (s := s) (f := f) (b := c) (c := c)).mpr (Or.inl le_rfl))

end Cert.Attn

end
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.Body.lean ====
/-
  The kernel's body on one stripe, read at an index.

  The body cuts its three stripes into 64 windows of 49 positions, and in each window takes the scores (products over
  the 32 channels, scaled), their row maximum, the exponentials of the differences, their row sum, the quotient, and
  the product with the values; then lays the windows back into the stripe. Read at row `r`, column `c`, channel `d` of
  the stripe this is the specification's window attention, for the window `(r / 7, c / 7)` of the stripe, at position
  `7 (r % 7) + c % 7`.

  A matrix product with one contracted axis is a finite sum (the operand indices named axis by axis); a row maximum
  is the fold of `max` over the row; a row sum is a finite sum; a row value broadcast back along the row is that value.
-/
import proofs.«127838_j19834158973060_2_alg».proof.Proof.Gen.KernelIdeal.Skeleton
import proofs.«127838_j19834158973060_2_alg».proof.Proof.Windows
import proofs.«127838_j19834158973060_2_alg».proof.Proof.Attn
import proofs.«127838_j19834158973060_2_alg».proof.Proof.LibDotSingle
import Idealize.ShloMosaic.PureOps.Ideal.Laws

noncomputable section

namespace Cert.KernelIdeal.Body

open Cert.KernelIdeal Cert.KernelIdeal.Gen Idealize.ShloMosaic Idealize.ShloMosaic.ValueIdx

/-! ## The two products' operand indices, axis by axis -/

theorem s_lhs_0 (i : S64x49x49.Idx) (q : dot_S64x49x32_S64x49x32_S64x49x49_2_2_1_1_0_0.contr.Idx) :
    (dot_S64x49x32_S64x49x32_S64x49x49_2_2_1_1_0_0.lhsIdx i q 0).val = (i 0).val := by
  unfold DotDims.lhsIdx
  rw [dif_pos (show (0 : Fin S64x49x32.rank) ∈ dot_S64x49x32_S64x49x32_S64x49x49_2_2_1_1_0_0.lhsBatch by decide)]
  rfl
theorem s_lhs_1 (i : S64x49x49.Idx) (q : dot_S64x49x32_S64x49x32_S64x49x49_2_2_1_1_0_0.contr.Idx) :
    (dot_S64x49x32_S64x49x32_S64x49x49_2_2_1_1_0_0.lhsIdx i q 1).val = (i 1).val := by
  unfold DotDims.lhsIdx
  rw [dif_neg (show ¬(1 : Fin S64x49x32.rank) ∈ dot_S64x49x32_S64x49x32_S64x49x49_2_2_1_1_0_0.lhsBatch by decide), dif_pos (show (1 : Fin S64x49x32.rank) ∈ dot_S64x49x32_S64x49x32_S64x49x49_2_2_1_1_0_0.lhsNonContracting by decide)]
  rfl
theorem s_lhs_2 (i : S64x49x49.Idx) (q : dot_S64x49x32_S64x49x32_S64x49x49_2_2_1_1_0_0.contr.Idx) :
    (dot_S64x49x32_S64x49x32_S64x49x49_2_2_1_1_0_0.lhsIdx i q 2).val = (q ⟨0, by decide⟩).val :=
  dot_S64x49x32_S64x49x32_S64x49x49_2_2_1_1_0_0.lhsIdx_val_of_single rfl i q
theorem s_rhs_0 (i : S64x49x49.Idx) (q : dot_S64x49x32_S64x49x32_S64x49x49_2_2_1_1_0_0.contr.Idx) :
    (dot_S64x49x32_S64x49x32_S64x49x49_2_2_1_1_0_0.rhsIdx i q 0).val = (i 0).val := by
  unfold DotDims.rhsIdx
  rw [dif_pos (show (0 : Fin S64x49x32.rank) ∈ dot_S64x49x32_S64x49x32_S64x49x49_2_2_1_1_0_0.rhsBatch by decide)]
  rfl
theorem s_rhs_1 (i : S64x49x49.Idx) (q : dot_S64x49x32_S64x49x32_S64x49x49_2_2_1_1_0_0.contr.Idx) :
    (dot_S64x49x32_S64x49x32_S64x49x49_2_2_1_1_0_0.rhsIdx i q 1).val = (i 2).val := by
  unfold DotDims.rhsIdx
  rw [dif_neg (show ¬(1 : Fin S64x49x32.rank) ∈ dot_S64x49x32_S64x49x32_S64x49x49_2_2_1_1_0_0.rhsBatch by decide), dif_pos (show (1 : Fin S64x49x32.rank) ∈ dot_S64x49x32_S64x49x32_S64x49x49_2_2_1_1_0_0.rhsNonContracting by decide)]
  rfl
theorem s_rhs_2 (i : S64x49x49.Idx) (q : dot_S64x49x32_S64x49x32_S64x49x49_2_2_1_1_0_0.contr.Idx) :
    (dot_S64x49x32_S64x49x32_S64x49x49_2_2_1_1_0_0.rhsIdx i q 2).val = (q ⟨0, by decide⟩).val :=
  dot_S64x49x32_S64x49x32_S64x49x49_2_2_1_1_0_0.rhsIdx_val_of_single rfl i q
theorem o_lhs_0 (i : S64x49x32.Idx) (q : dot_S64x49x49_S64x49x32_S64x49x32_2_1_1_2_0_0.contr.Idx) :
    (dot_S64x49x49_S64x49x32_S64x49x32_2_1_1_2_0_0.lhsIdx i q 0).val = (i 0).val := by
  unfold DotDims.lhsIdx
  rw [dif_pos (show (0 : Fin S64x49x49.rank) ∈ dot_S64x49x49_S64x49x32_S64x49x32_2_1_1_2_0_0.lhsBatch by decide)]
  rfl
theorem o_lhs_1 (i : S64x49x32.Idx) (q : dot_S64x49x49_S64x49x32_S64x49x32_2_1_1_2_0_0.contr.Idx) :
    (dot_S64x49x49_S64x49x32_S64x49x32_2_1_1_2_0_0.lhsIdx i q 1).val = (i 1).val := by
  unfold DotDims.lhsIdx
  rw [dif_neg (show ¬(1 : Fin S64x49x49.rank) ∈ dot_S64x49x49_S64x49x32_S64x49x32_2_1_1_2_0_0.lhsBatch by decide), dif_pos (show (1 : Fin S64x49x49.rank) ∈ dot_S64x49x49_S64x49x32_S64x49x32_2_1_1_2_0_0.lhsNonContracting by decide)]
  rfl
theorem o_lhs_2 (i : S64x49x32.Idx) (q : dot_S64x49x49_S64x49x32_S64x49x32_2_1_1_2_0_0.contr.Idx) :
    (dot_S64x49x49_S64x49x32_S64x49x32_2_1_1_2_0_0.lhsIdx i q 2).val = (q ⟨0, by decide⟩).val :=
  dot_S64x49x49_S64x49x32_S64x49x32_2_1_1_2_0_0.lhsIdx_val_of_single rfl i q
theorem o_rhs_0 (i : S64x49x32.Idx) (q : dot_S64x49x49_S64x49x32_S64x49x32_2_1_1_2_0_0.contr.Idx) :
    (dot_S64x49x49_S64x49x32_S64x49x32_2_1_1_2_0_0.rhsIdx i q 0).val = (i 0).val := by
  unfold DotDims.rhsIdx
  rw [dif_pos (show (0 : Fin S64x49x32.rank) ∈ dot_S64x49x49_S64x49x32_S64x49x32_2_1_1_2_0_0.rhsBatch by decide)]
  rfl
theorem o_rhs_1 (i : S64x49x32.Idx) (q : dot_S64x49x49_S64x49x32_S64x49x32_2_1_1_2_0_0.contr.Idx) :
    (dot_S64x49x49_S64x49x32_S64x49x32_2_1_1_2_0_0.rhsIdx i q 1).val = (q ⟨0, by decide⟩).val :=
  dot_S64x49x49_S64x49x32_S64x49x32_2_1_1_2_0_0.rhsIdx_val_of_single rfl i q
theorem o_rhs_2 (i : S64x49x32.Idx) (q : dot_S64x49x49_S64x49x32_S64x49x32_2_1_1_2_0_0.contr.Idx) :
    (dot_S64x49x49_S64x49x32_S64x49x32_2_1_1_2_0_0.rhsIdx i q 2).val = (i 2).val := by
  unfold DotDims.rhsIdx
  rw [dif_neg (show ¬(2 : Fin S64x49x32.rank) ∈ dot_S64x49x49_S64x49x32_S64x49x32_2_1_1_2_0_0.rhsBatch by decide), dif_pos (show (2 : Fin S64x49x32.rank) ∈ dot_S64x49x49_S64x49x32_S64x49x32_2_1_1_2_0_0.rhsNonContracting by decide)]
  rfl

/-- Scores: at result index (w, p, j) and channel k the left operand is read at (w, p, k). -/
theorem s_lhs (w : Fin 64) (p j : Fin 49) (k : Fin 32) :
    dot_S64x49x32_S64x49x32_S64x49x49_2_2_1_1_0_0.lhsIdx (ix3 w p j) ((contrEquiv1 dot_S64x49x32_S64x49x32_S64x49x49_2_2_1_1_0_0 32 rfl rfl).symm k) = ix3 w p k :=
  funext fun a => Fin.ext (by
    have hk := contrEquiv1_symm_val dot_S64x49x32_S64x49x32_S64x49x49_2_2_1_1_0_0 32 rfl rfl k
    match a with
    | ⟨0, _⟩ => exact s_lhs_0 _ _
    | ⟨1, _⟩ => exact s_lhs_1 _ _
    | ⟨2, _⟩ => exact (s_lhs_2 _ _).trans hk)
/-- … and the right operand at (w, j, k). -/
theorem s_rhs (w : Fin 64) (p j : Fin 49) (k : Fin 32) :
    dot_S64x49x32_S64x49x32_S64x49x49_2_2_1_1_0_0.rhsIdx (ix3 w p j) ((contrEquiv1 dot_S64x49x32_S64x49x32_S64x49x49_2_2_1_1_0_0 32 rfl rfl).symm k) = ix3 w j k :=
  funext fun a => Fin.ext (by
    have hk := contrEquiv1_symm_val dot_S64x49x32_S64x49x32_S64x49x49_2_2_1_1_0_0 32 rfl rfl k
    match a with
    | ⟨0, _⟩ => exact s_rhs_0 _ _
    | ⟨1, _⟩ => exact s_rhs_1 _ _
    | ⟨2, _⟩ => exact (s_rhs_2 _ _).trans hk)
/-- Output: at result index (w, p, d) and key position k the weights are read at (w, p, k). -/
theorem o_lhs (w : Fin 64) (p : Fin 49) (d : Fin 32) (k : Fin 49) :
    dot_S64x49x49_S64x49x32_S64x49x32_2_1_1_2_0_0.lhsIdx (ix3 w p d) ((contrEquiv1 dot_S64x49x49_S64x49x32_S64x49x32_2_1_1_2_0_0 49 rfl rfl).symm k) = ix3 w p k :=
  funext fun a => Fin.ext (by
    have hk := contrEquiv1_symm_val dot_S64x49x49_S64x49x32_S64x49x32_2_1_1_2_0_0 49 rfl rfl k
    match a with
    | ⟨0, _⟩ => exact o_lhs_0 _ _
    | ⟨1, _⟩ => exact o_lhs_1 _ _
    | ⟨2, _⟩ => exact (o_lhs_2 _ _).trans hk)
/-- … and the values at (w, k, d). -/
theorem o_rhs (w : Fin 64) (p : Fin 49) (d : Fin 32) (k : Fin 49) :
    dot_S64x49x49_S64x49x32_S64x49x32_2_1_1_2_0_0.rhsIdx (ix3 w p d) ((contrEquiv1 dot_S64x49x49_S64x49x32_S64x49x32_2_1_1_2_0_0 49 rfl rfl).symm k) = ix3 w k d :=
  funext fun a => Fin.ext (by
    have hk := contrEquiv1_symm_val dot_S64x49x49_S64x49x32_S64x49x32_2_1_1_2_0_0 49 rfl rfl k
    match a with
    | ⟨0, _⟩ => exact o_rhs_0 _ _
    | ⟨1, _⟩ => exact (o_rhs_1 _ _).trans hk
    | ⟨2, _⟩ => exact o_rhs_2 _ _)

/-! ## Rows -/

/-- The index a row reduction inserts coordinate `j` into. -/
theorem lift_eq (w : Fin 64) (p j : Fin 49) : reduces_S64x49x49_S64x49.lift (ix2 w p) j = ix3 w p j :=
  funext fun a => Fin.ext (by match a with | ⟨0, _⟩ => rfl | ⟨1, _⟩ => rfl | ⟨2, _⟩ => rfl)

/-- A row value given a unit axis and broadcast back along the row, read anywhere in the row, is that value. -/
theorem keep_apply (v : FVec Ideal S64x49 .f32) (w : Fin 64) (p j : Fin 49) :
    broadcastTo S64x49x49 (shapeCast S64x49x1 v shapeCasts_S64x49_S64x49x1) broadcasts_S64x49x1_S64x49x49 (ix3 w p j) = v (ix2 w p) := by
  have e1 : w.val * 49 + p.val = (w.val * 49 + p.val) * 1 + 0 := by omega
  refine (broadcastTo_apply _ broadcasts_S64x49x1_S64x49x49 (ix3 w p j) (ix3 w p (0 : Fin 1)) (fun a => match a with
    | ⟨0, _⟩ => by show w.val = if (64 : Nat) = 1 then 0 else w.val; rw [if_neg (by decide)]
    | ⟨1, _⟩ => by show p.val = if (49 : Nat) = 1 then 0 else p.val; rw [if_neg (by decide)]
    | ⟨2, _⟩ => by show 0 = if (1 : Nat) = 1 then 0 else j.val; rw [if_pos rfl])).trans ?_
  exact shapeCast_apply v shapeCasts_S64x49_S64x49x1 _ (ix2 w p) (by rw [Shape.rowMajor_val_two, Shape.rowMajor_val_three]; exact e1)

/-! ## One stripe's windows -/

variable (q8 k11 v14 : FVec Ideal S64x49x32 .bf16)

/-- The scaled scores, as printed. -/
def sc : FVec Ideal S64x49x49 .f32 :=
  mulf (matmul dot_S64x49x32_S64x49x32_S64x49x49_2_2_1_1_0_0 none q8 k11 (constant S64x49x49 .f32 0x00000000#32)) (broadcast S64x49x49 (Scalar.ofBits .f32 0x3E3504F3#32))
/-- Their row maxima. -/
def mx : FVec Ideal S64x49 .f32 :=
  multiReduction .maximumf [2] S64x49 (sc q8 k11) 0xFF800000#32 reduces_S64x49x49_S64x49 (.inl rfl) rfl
/-- The exponentials of the differences. -/
def ex : FVec Ideal S64x49x49 .f32 :=
  exp (subf (sc q8 k11) (broadcastTo S64x49x49 (shapeCast S64x49x1 (mx q8 k11) shapeCasts_S64x49_S64x49x1) broadcasts_S64x49x1_S64x49x49))
/-- Their row sums. -/
def sm : FVec Ideal S64x49 .f32 :=
  multiReduction .add [2] S64x49 (ex q8 k11) 0x00000000#32 reduces_S64x49x49_S64x49 (.inl rfl) rfl
/-- The normalized weights. -/
def pr : FVec Ideal S64x49x49 .bf16 :=
  truncf .bf16 (divf (ex q8 k11) (broadcastTo S64x49x49 (shapeCast S64x49x1 (sm q8 k11) shapeCasts_S64x49_S64x49x1) broadcasts_S64x49x1_S64x49x49))
    bitsLt_bf16_f32
/-- The weighted values. -/
def ou : FVec Ideal S64x49x32 .f32 :=
  matmul dot_S64x49x49_S64x49x32_S64x49x32_2_1_1_2_0_0 none (pr q8 k11) v14 (constant S64x49x32 .f32 0x00000000#32)

/-- Window `w` of an operand: positions by channels. -/
abbrev winOf (x : FVec Ideal S64x49x32 .bf16) (w : Fin 64) : Fin 49 → Fin 32 → EReal := fun p e => x (ix3 w p e)

theorem sc_apply (w : Fin 64) (p j : Fin 49) : sc q8 k11 (ix3 w p j) = Cert.Attn.score (winOf q8 w) (winOf k11 w) p j := by
  show matmul dot_S64x49x32_S64x49x32_S64x49x49_2_2_1_1_0_0 none q8 k11 (constant S64x49x49 .f32 0x00000000#32) (ix3 w p j) * Ideal.ofBits .f32 0x3E3504F3#32 = _
  exact congrArg (· * Ideal.ofBits .f32 0x3E3504F3#32)
    (Cert.LibDotSingle.matmul_zero_apply dot_S64x49x32_S64x49x32_S64x49x49_2_2_1_1_0_0 32 rfl rfl none q8 k11 (ix3 w p j) (fun e => ix3 w p e) (fun e => ix3 w j e)
      (fun e => s_lhs w p j e) (fun e => s_rhs w p j e))

theorem mx_apply (w : Fin 64) (p : Fin 49) : mx q8 k11 (ix2 w p) = Cert.Attn.rowMax (winOf q8 w) (winOf k11 w) p := by
  refine (Ideal.multiReduction_maximumf_single (sc q8 k11) _ reduces_S64x49x49_S64x49 (.inl rfl) rfl (ix2 w p)).trans ?_
  show (Finset.univ : Finset (Fin 49)).fold max (Ideal.ofBits .f32 0xFF800000#32) (fun j => sc q8 k11 (reduces_S64x49x49_S64x49.lift (ix2 w p) j)) = _
  exact congrArg (Finset.fold max (Ideal.ofBits .f32 0xFF800000#32) · (Finset.univ : Finset (Fin 49)))
    (funext fun j => (congrArg (sc q8 k11) (lift_eq w p j)).trans (sc_apply q8 k11 w p j))

theorem ex_apply (w : Fin 64) (p j : Fin 49) : ex q8 k11 (ix3 w p j) = Cert.Attn.weight (winOf q8 w) (winOf k11 w) p j := by
  show Ideal.exp (sc q8 k11 (ix3 w p j)
    - broadcastTo S64x49x49 (shapeCast S64x49x1 (mx q8 k11) shapeCasts_S64x49_S64x49x1) broadcasts_S64x49x1_S64x49x49 (ix3 w p j)) = _
  rw [keep_apply, sc_apply, mx_apply]
  rfl

theorem sm_apply (w : Fin 64) (p : Fin 49) :
    sm q8 k11 (ix2 w p) = ∑ j : Fin 49, Cert.Attn.weight (winOf q8 w) (winOf k11 w) p j := by
  refine (Ideal.multiReduction_add_single (ex q8 k11) _ reduces_S64x49x49_S64x49 (.inl rfl) rfl (ix2 w p)).trans ?_
  exact Finset.sum_congr rfl fun j _ => (congrArg (ex q8 k11) (lift_eq w p j)).trans (ex_apply q8 k11 w p j)

theorem pr_apply (w : Fin 64) (p j : Fin 49) :
    pr q8 k11 (ix3 w p j)
      = Ideal.div (Cert.Attn.weight (winOf q8 w) (winOf k11 w) p j) (∑ j' : Fin 49, Cert.Attn.weight (winOf q8 w) (winOf k11 w) p j') := by
  show Ideal.div (ex q8 k11 (ix3 w p j))
    (broadcastTo S64x49x49 (shapeCast S64x49x1 (sm q8 k11) shapeCasts_S64x49_S64x49x1) broadcasts_S64x49x1_S64x49x49 (ix3 w p j)) = _
  rw [keep_apply, ex_apply, sm_apply]

/-- Window `w` of the weighted values is the specification's attention on window `w` of the three operands. -/
theorem ou_apply (w : Fin 64) (p : Fin 49) (d : Fin 32) :
    ou q8 k11 v14 (ix3 w p d) = Cert.Attn.attn (winOf q8 w) (winOf k11 w) (winOf v14 w) p d := by
  refine (Cert.LibDotSingle.matmul_zero_apply dot_S64x49x49_S64x49x32_S64x49x32_2_1_1_2_0_0 49 rfl rfl none (pr q8 k11) v14 (ix3 w p d) (fun k => ix3 w p k) (fun k => ix3 w k d)
    (fun k => o_lhs w p d k) (fun k => o_rhs w p d k)).trans ?_
  exact Finset.sum_congr rfl fun j _ => congrArg (· * v14 (ix3 w j d)) (pr_apply q8 k11 w p j)

/-! ## The stripe -/

/-- A stripe cut into its 64 windows, as printed. -/
def cutS (x : Vec Ideal S1x1x28x112x32 .bf16) : FVec Ideal S64x49x32 .bf16 :=
  shapeCast S64x49x32 (transpose S4x16x7x7x32 [0, 2, 1, 3, 4]
    (shapeCast S4x7x16x7x32 (shapeCast S28x112x32 x shapeCasts_S1x1x28x112x32_S28x112x32) shapeCasts_S28x112x32_S4x7x16x7x32)
    transposes_S4x7x16x7x32_p0_2_1_3_4_S4x16x7x7x32) shapeCasts_S4x16x7x7x32_S64x49x32

/-- Window `(hw, ww)` of a stripe: position `p` is row `7 hw + p / 7`, column `7 ww + p % 7`. -/
def stripeWin (x : Vec Ideal S1x1x28x112x32 .bf16) (hw : Fin 4) (ww : Fin 16) : Fin 49 → Fin 32 → EReal :=
  fun p e => x (ix5 (0 : Fin 1) (0 : Fin 1) (⟨7 * hw.val + p.val / 7, by omega⟩ : Fin 28) (⟨7 * ww.val + p.val % 7, by omega⟩ : Fin 112) e)

/-- The body's payload is the stripe's windows laid back. -/
theorem pay_eq (x0 x1 x2 : Vec Ideal S1x1x28x112x32 .bf16) :
    k0_pay1 (k0_pay2 x0 x1 x2)
      = shapeCast S1x1x28x112x32 (shapeCast S28x112x32 (transpose S4x7x16x7x32 [0, 2, 1, 3, 4]
          (shapeCast S4x16x7x7x32 (ou (cutS x0) (cutS x1) (cutS x2)) shapeCasts_S64x49x32_S4x16x7x7x32)
          transposes_S4x16x7x7x32_p0_2_1_3_4_S4x7x16x7x32) shapeCasts_S4x7x16x7x32_S28x112x32) shapeCasts_S28x112x32_S1x1x28x112x32 := rfl

/-- The window of the cut stripe that row `r`, column `c` lies in is the stripe's window `(r / 7, c / 7)`. -/
theorem winOf_cutS (x : Vec Ideal S1x1x28x112x32 .bf16) (r : Fin 28) (c : Fin 112) :
    winOf (cutS x) (⟨16 * (r.val / 7) + c.val / 7, by omega⟩ : Fin 64) = stripeWin x ⟨r.val / 7, by omega⟩ ⟨c.val / 7, by omega⟩ := by
  funext p e
  have h2 : (⟨7 * ((16 * (r.val / 7) + c.val / 7) / 16) + p.val / 7, by omega⟩ : Fin 28) = ⟨7 * (r.val / 7) + p.val / 7, by omega⟩ :=
    Fin.ext (by show 7 * ((16 * (r.val / 7) + c.val / 7) / 16) + p.val / 7 = 7 * (r.val / 7) + p.val / 7; omega)
  have h3 : (⟨7 * ((16 * (r.val / 7) + c.val / 7) % 16) + p.val % 7, by omega⟩ : Fin 112) = ⟨7 * (c.val / 7) + p.val % 7, by omega⟩ :=
    Fin.ext (by show 7 * ((16 * (r.val / 7) + c.val / 7) % 16) + p.val % 7 = 7 * (c.val / 7) + p.val % 7; omega)
  refine (Cert.Windows.stripeCut_apply x shapeCasts_S1x1x28x112x32_S28x112x32 shapeCasts_S28x112x32_S4x7x16x7x32
    transposes_S4x7x16x7x32_p0_2_1_3_4_S4x16x7x7x32 shapeCasts_S4x16x7x7x32_S64x49x32 _ p e).trans ?_
  show x (ix5 (0 : Fin 1) (0 : Fin 1) (⟨7 * ((16 * (r.val / 7) + c.val / 7) / 16) + p.val / 7, by omega⟩ : Fin 28)
    (⟨7 * ((16 * (r.val / 7) + c.val / 7) % 16) + p.val % 7, by omega⟩ : Fin 112) e) = _
  rw [h2, h3]
  rfl

/-- THE BODY AT AN INDEX: row `r`, column `c`, channel `d` of what the body stores is the specification's attention on window
    `(r / 7, c / 7)` of the three stripes, at position `7 (r % 7) + c % 7`. -/
theorem pay_apply (x0 x1 x2 : Vec Ideal S1x1x28x112x32 .bf16) (z0 z1 : Fin 1) (r : Fin 28) (c : Fin 112) (d : Fin 32) :
    k0_pay1 (k0_pay2 x0 x1 x2) (ix5 z0 z1 r c d)
      = Cert.Attn.attn (stripeWin x0 ⟨r.val / 7, by omega⟩ ⟨c.val / 7, by omega⟩) (stripeWin x1 ⟨r.val / 7, by omega⟩ ⟨c.val / 7, by omega⟩)
          (stripeWin x2 ⟨r.val / 7, by omega⟩ ⟨c.val / 7, by omega⟩) (⟨7 * (r.val % 7) + c.val % 7, by omega⟩ : Fin 49) d := by
  rw [pay_eq]
  refine (Cert.Windows.stripeLay_apply _ shapeCasts_S64x49x32_S4x16x7x7x32 transposes_S4x16x7x7x32_p0_2_1_3_4_S4x7x16x7x32
    shapeCasts_S4x7x16x7x32_S28x112x32 shapeCasts_S28x112x32_S1x1x28x112x32 z0 z1 r c d).trans ?_
  refine (ou_apply (cutS x0) (cutS x1) (cutS x2) _ _ d).trans ?_
  rw [winOf_cutS x0 r c, winOf_cutS x1 r c, winOf_cutS x2 r c]

end Cert.KernelIdeal.Body

end
-- ==== Proof.Gather.lean ====
/-
  Where the entries of an argument array end up.

  An argument array (tokens on one axis) is laid out as an image, shifted cyclically by three rows and three columns,
  and — in one of the two programs — cut into windows. Read at an index, the shifted image at row `r`, column `c` is
  the argument at token `112 ((r + 3) mod 112) + (c + 3) mod 112`, and position `p` of window `w` is the argument at
  the token the specification calls `src (w / 16) (w % 16) p`.
-/
import proofs.«127838_j19834158973060_2_alg».proof.Proof.Windows
import proofs.«127838_j19834158973060_2_alg».proof.Proof.Attn

namespace Cert.Gather

open Idealize.ShloMosaic Idealize.ShloMosaic.ValueIdx Cert.Layout Cert.Windows

variable {α : Type}

/-- The cyclic shift as printed: the row step, then the column step on its result. -/
def shift (y : I5.Idx → α) (hs0 : I5.Slices ![0, 0, 3, 0, 0] R109) (hs1 : I5.Slices ![0, 0, 0, 0, 0] R3)
    (hc2 : Shape.Concatenates [R109, R3] I5 2) (hs3 : I5.Slices ![0, 0, 0, 3, 0] C109) (hs4 : I5.Slices ![0, 0, 0, 0, 0] C3)
    (hc3 : Shape.Concatenates [C109, C3] I5 3) : I5.Idx → α :=
  concatenate I5 3
    [⟨C109, extractStridedSlice C109 ![0, 0, 0, 3, 0]
        (concatenate I5 2 [⟨R109, extractStridedSlice R109 ![0, 0, 3, 0, 0] y hs0⟩, ⟨R3, extractStridedSlice R3 ![0, 0, 0, 0, 0] y hs1⟩] hc2) hs3⟩,
     ⟨C3, extractStridedSlice C3 ![0, 0, 0, 0, 0]
        (concatenate I5 2 [⟨R109, extractStridedSlice R109 ![0, 0, 3, 0, 0] y hs0⟩, ⟨R3, extractStridedSlice R3 ![0, 0, 0, 0, 0] y hs1⟩] hc2) hs4⟩]
    hc3

/-- The shifted image at row `r`, column `c` is the image at row `(r + 3) mod 112`, column `(c + 3) mod 112`. -/
theorem shift_apply (y : I5.Idx → α) (hs0 : I5.Slices ![0, 0, 3, 0, 0] R109) (hs1 : I5.Slices ![0, 0, 0, 0, 0] R3)
    (hc2 : Shape.Concatenates [R109, R3] I5 2) (hs3 : I5.Slices ![0, 0, 0, 3, 0] C109) (hs4 : I5.Slices ![0, 0, 0, 0, 0] C3)
    (hc3 : Shape.Concatenates [C109, C3] I5 3) (b hd : Fin 8) (r c : Fin 112) (e : Fin 32) :
    shift y hs0 hs1 hc2 hs3 hs4 hc3 (ix5 b hd r c e)
      = y (ix5 b hd ⟨(r.val + 3) % 112, by omega⟩ ⟨(c.val + 3) % 112, by omega⟩ e) :=
  (rollCols_apply _ hs3 hs4 hc3 b hd r c e).trans (rollRows_apply y hs0 hs1 hc2 b hd r _ e)

/-- The shifted image of an argument array, at row `r`, column `c`. -/
theorem shifted_arg_apply (X : T4.Idx → α) (h : T4.ShapeCasts I5) (hs0 : I5.Slices ![0, 0, 3, 0, 0] R109)
    (hs1 : I5.Slices ![0, 0, 0, 0, 0] R3) (hc2 : Shape.Concatenates [R109, R3] I5 2) (hs3 : I5.Slices ![0, 0, 0, 3, 0] C109)
    (hs4 : I5.Slices ![0, 0, 0, 0, 0] C3) (hc3 : Shape.Concatenates [C109, C3] I5 3) (b hd : Fin 8) (r c : Fin 112) (e : Fin 32) :
    shift (shapeCast I5 X h) hs0 hs1 hc2 hs3 hs4 hc3 (ix5 b hd r c e)
      = X (ix4 b hd ⟨((r.val + 3) % 112) * 112 + (c.val + 3) % 112, by omega⟩ e) :=
  (shift_apply _ hs0 hs1 hc2 hs3 hs4 hc3 b hd r c e).trans (image_apply X h b hd _ _ e)

/-- Position `p` of window `w` of the shifted image of an argument array is the argument at the specification's token. -/
theorem window_arg_apply (X : T4.Idx → α) (h : T4.ShapeCasts I5) (hs0 : I5.Slices ![0, 0, 3, 0, 0] R109)
    (hs1 : I5.Slices ![0, 0, 0, 0, 0] R3) (hc2 : Shape.Concatenates [R109, R3] I5 2) (hs3 : I5.Slices ![0, 0, 0, 3, 0] C109)
    (hs4 : I5.Slices ![0, 0, 0, 0, 0] C3) (hc3 : Shape.Concatenates [C109, C3] I5 3) (h1 : I5.ShapeCasts P7)
    (h2 : P7.Transposes [0, 1, 2, 4, 3, 5, 6] W7) (h3 : W7.ShapeCasts W5) (b hd : Fin 8) (w : Fin 256) (p : Fin 49) (e : Fin 32) :
    shapeCast W5 (transpose W7 [0, 1, 2, 4, 3, 5, 6] (shapeCast P7 (shift (shapeCast I5 X h) hs0 hs1 hc2 hs3 hs4 hc3) h1) h2) h3
        (ix5 b hd w p e)
      = X (ix4 b hd (Cert.Attn.src ⟨w.val / 16, by omega⟩ ⟨w.val % 16, by omega⟩ p) e) :=
  (cut_apply _ h1 h2 h3 b hd w p e).trans (shifted_arg_apply X h hs0 hs1 hc2 hs3 hs4 hc3 b hd _ _ e)

end Cert.Gather
-- ==== Proof.Stripe.lean ====
/-
  From stripes to the whole image, and from the image back to tokens.

  The kernel works on the three SHIFTED images. At a grid point it sees, of each, the stripe of 28 rows number `R` of
  batch `B`, head `H`; window `(hw, ww)` of that stripe is window `(4 R + hw, ww)` of the image, so what the body stores
  at row `r`, column `c` of the stripe is the image-wide function `GI` at row `28 R + r`, column `c`. Merging rows and
  columns of `GI` of the three shifted arguments back into tokens gives the specification.
-/
import proofs.«127838_j19834158973060_2_alg».proof.Proof.Body
import proofs.«127838_j19834158973060_2_alg».proof.Proof.Gather

noncomputable section

namespace Cert.KernelIdeal.Stripe

open Cert.KernelIdeal Cert.KernelIdeal.Gen Cert.KernelIdeal.Body Idealize.ShloMosaic Idealize.ShloMosaic.ValueIdx
open Cert.Layout (I5 T4)

/-- Window `(hw, ww)` of batch `b`, head `hd` of an image: position `p` is row `7 hw + p / 7`, column `7 ww + p % 7`. -/
def imgWin (Q : I5.Idx → EReal) (b hd : Fin 8) (hw ww : Fin 16) : Fin 49 → Fin 32 → EReal :=
  fun p e => Q (ix5 b hd (⟨7 * hw.val + p.val / 7, by omega⟩ : Fin 112) (⟨7 * ww.val + p.val % 7, by omega⟩ : Fin 112) e)

/-- Window attention over three images, at row `r`, column `c`: the window the entry lies in, at its position there. -/
def GI4 (Q K V' : I5.Idx → EReal) (b hd : Fin 8) (r c : Fin 112) (d : Fin 32) : EReal :=
  Cert.Attn.attn (imgWin Q b hd ⟨r.val / 7, by omega⟩ ⟨c.val / 7, by omega⟩) (imgWin K b hd ⟨r.val / 7, by omega⟩ ⟨c.val / 7, by omega⟩)
    (imgWin V' b hd ⟨r.val / 7, by omega⟩ ⟨c.val / 7, by omega⟩) (⟨7 * (r.val % 7) + c.val % 7, by omega⟩ : Fin 49) d

/-- The same as an array. -/
def GI (Q K V' : I5.Idx → EReal) : I5.Idx → EReal := fun i => GI4 Q K V' (i 0) (i 1) (i 2) (i 3) (i 4)

/-- A stripe's window is the image's window four window-rows per stripe further down. -/
theorem stripeWin_eq (Q : I5.Idx → EReal) (B H : Fin 8) (R : Fin 4) (x : Vec Ideal S1x1x28x112x32 .bf16)
    (h : ∀ (r : Fin 28) (c : Fin 112) (e : Fin 32),
      x (ix5 (0 : Fin 1) (0 : Fin 1) r c e) = Q (ix5 B H (⟨R.val * 28 + r.val, by omega⟩ : Fin 112) c e))
    (r : Fin 28) (c : Fin 112) :
    stripeWin x ⟨r.val / 7, by omega⟩ ⟨c.val / 7, by omega⟩
      = imgWin Q B H ⟨(R.val * 28 + r.val) / 7, by omega⟩ ⟨c.val / 7, by omega⟩ := by
  funext p e
  refine (h _ _ e).trans ?_
  have h2 : (⟨R.val * 28 + (7 * (r.val / 7) + p.val / 7), by omega⟩ : Fin 112) = ⟨7 * ((R.val * 28 + r.val) / 7) + p.val / 7, by omega⟩ :=
    Fin.ext (by show R.val * 28 + (7 * (r.val / 7) + p.val / 7) = 7 * ((R.val * 28 + r.val) / 7) + p.val / 7; omega)
  show Q (ix5 B H (⟨R.val * 28 + (7 * (r.val / 7) + p.val / 7), by omega⟩ : Fin 112) _ e) = _
  rw [h2]
  rfl

/-- WHAT THE BODY STORES, in image coordinates. -/
theorem stripe_to_image (Q K V' : I5.Idx → EReal) (B H : Fin 8) (R : Fin 4) (x0 x1 x2 : Vec Ideal S1x1x28x112x32 .bf16)
    (h0 : ∀ (r : Fin 28) (c : Fin 112) (e : Fin 32),
      x0 (ix5 (0 : Fin 1) (0 : Fin 1) r c e) = Q (ix5 B H (⟨R.val * 28 + r.val, by omega⟩ : Fin 112) c e))
    (h1 : ∀ (r : Fin 28) (c : Fin 112) (e : Fin 32),
      x1 (ix5 (0 : Fin 1) (0 : Fin 1) r c e) = K (ix5 B H (⟨R.val * 28 + r.val, by omega⟩ : Fin 112) c e))
    (h2 : ∀ (r : Fin 28) (c : Fin 112) (e : Fin 32),
      x2 (ix5 (0 : Fin 1) (0 : Fin 1) r c e) = V' (ix5 B H (⟨R.val * 28 + r.val, by omega⟩ : Fin 112) c e))
    (z0 z1 : Fin 1) (r : Fin 28) (c : Fin 112) (d : Fin 32) :
    k0_pay1 (k0_pay2 x0 x1 x2) (ix5 z0 z1 r c d) = GI4 Q K V' B H (⟨R.val * 28 + r.val, by omega⟩ : Fin 112) c d := by
  rw [pay_apply, stripeWin_eq Q B H R x0 h0 r c, stripeWin_eq K B H R x1 h1 r c, stripeWin_eq V' B H R x2 h2 r c]
  have hp : (⟨7 * (r.val % 7) + c.val % 7, by omega⟩ : Fin 49) = ⟨7 * ((R.val * 28 + r.val) % 7) + c.val % 7, by omega⟩ :=
    Fin.ext (by show 7 * (r.val % 7) + c.val % 7 = 7 * ((R.val * 28 + r.val) % 7) + c.val % 7; omega)
  rw [hp]
  rfl

/-- The same at any index of the block. -/
theorem block_apply (Q K V' : I5.Idx → EReal) (B H : Fin 8) (R : Fin 4) (x0 x1 x2 : Vec Ideal S1x1x28x112x32 .bf16)
    (h0 : ∀ (r : Fin 28) (c : Fin 112) (e : Fin 32),
      x0 (ix5 (0 : Fin 1) (0 : Fin 1) r c e) = Q (ix5 B H (⟨R.val * 28 + r.val, by omega⟩ : Fin 112) c e))
    (h1 : ∀ (r : Fin 28) (c : Fin 112) (e : Fin 32),
      x1 (ix5 (0 : Fin 1) (0 : Fin 1) r c e) = K (ix5 B H (⟨R.val * 28 + r.val, by omega⟩ : Fin 112) c e))
    (h2 : ∀ (r : Fin 28) (c : Fin 112) (e : Fin 32),
      x2 (ix5 (0 : Fin 1) (0 : Fin 1) r c e) = V' (ix5 B H (⟨R.val * 28 + r.val, by omega⟩ : Fin 112) c e))
    (y : S1x1x28x112x32.Idx) :
    k0_pay1 (k0_pay2 x0 x1 x2) y
      = GI Q K V' (ix5 B H (⟨R.val * 28 + (y 2).val, by have h28 : (y 2).val < 28 := (y 2).isLt; omega⟩ : Fin 112) (y 3) (y 4)) :=
  (congrArg (k0_pay1 (k0_pay2 x0 x1 x2)) (eq_ix5 y)).trans (stripe_to_image Q K V' B H R x0 x1 x2 h0 h1 h2 (y 0) (y 1) (y 2) (y 3) (y 4))

/-! ## Back to tokens -/

open Cert.Layout Cert.Gather in
/-- Window `(hw, ww)` of the shifted image of an argument is the specification's window of the argument. -/
theorem imgWin_shift (X : T4.Idx → EReal) (h : T4.ShapeCasts I5) (hs0 : I5.Slices ![0, 0, 3, 0, 0] R109)
    (hs1 : I5.Slices ![0, 0, 0, 0, 0] R3) (hc2 : Shape.Concatenates [R109, R3] I5 2) (hs3 : I5.Slices ![0, 0, 0, 3, 0] C109)
    (hs4 : I5.Slices ![0, 0, 0, 0, 0] C3) (hc3 : Shape.Concatenates [C109, C3] I5 3) (b hd : Fin 8) (hw ww : Fin 16) :
    imgWin (shift (shapeCast I5 X h) hs0 hs1 hc2 hs3 hs4 hc3) b hd hw ww = Cert.Attn.win X b hd hw ww := by
  funext p e
  exact shifted_arg_apply X h hs0 hs1 hc2 hs3 hs4 hc3 b hd _ _ e

open Cert.Layout Cert.Gather in
/-- Merged back into tokens, window attention over the three shifted images of the arguments, at batch `b`, head `hd`,
    token `n`, channel `d`, is the specification there. -/
theorem tokens_GI_at (X Y Z : T4.Idx → EReal) (h : T4.ShapeCasts I5) (hs0 : I5.Slices ![0, 0, 3, 0, 0] R109)
    (hs1 : I5.Slices ![0, 0, 0, 0, 0] R3) (hc2 : Shape.Concatenates [R109, R3] I5 2) (hs3 : I5.Slices ![0, 0, 0, 3, 0] C109)
    (hs4 : I5.Slices ![0, 0, 0, 0, 0] C3) (hc3 : Shape.Concatenates [C109, C3] I5 3) (ht : I5.ShapeCasts T4)
    (b hd : Fin 8) (n : Fin 12544) (d : Fin 32) :
    shapeCast T4 (GI (shift (shapeCast I5 X h) hs0 hs1 hc2 hs3 hs4 hc3) (shift (shapeCast I5 Y h) hs0 hs1 hc2 hs3 hs4 hc3)
        (shift (shapeCast I5 Z h) hs0 hs1 hc2 hs3 hs4 hc3)) ht (ix4 b hd n d)
      = Cert.Attn.G4 X Y Z b hd n d := by
  refine (tokens_apply _ ht b hd n d).trans ?_
  show Cert.Attn.attn
      (imgWin (shift (shapeCast I5 X h) hs0 hs1 hc2 hs3 hs4 hc3) b hd ⟨n.val / 112 / 7, by omega⟩ ⟨n.val % 112 / 7, by omega⟩)
      (imgWin (shift (shapeCast I5 Y h) hs0 hs1 hc2 hs3 hs4 hc3) b hd ⟨n.val / 112 / 7, by omega⟩ ⟨n.val % 112 / 7, by omega⟩)
      (imgWin (shift (shapeCast I5 Z h) hs0 hs1 hc2 hs3 hs4 hc3) b hd ⟨n.val / 112 / 7, by omega⟩ ⟨n.val % 112 / 7, by omega⟩)
      (⟨7 * (n.val / 112 % 7) + n.val % 112 % 7, by omega⟩ : Fin 49) d = _
  rw [imgWin_shift, imgWin_shift, imgWin_shift]
  rfl

open Cert.Layout Cert.Gather in
/-- MERGED BACK INTO TOKENS, window attention over the three shifted images of the arguments is the specification. -/
theorem tokens_GI (X Y Z : T4.Idx → EReal) (h : T4.ShapeCasts I5) (hs0 : I5.Slices ![0, 0, 3, 0, 0] R109)
    (hs1 : I5.Slices ![0, 0, 0, 0, 0] R3) (hc2 : Shape.Concatenates [R109, R3] I5 2) (hs3 : I5.Slices ![0, 0, 0, 3, 0] C109)
    (hs4 : I5.Slices ![0, 0, 0, 0, 0] C3) (hc3 : Shape.Concatenates [C109, C3] I5 3) (ht : I5.ShapeCasts T4) :
    shapeCast T4 (GI (shift (shapeCast I5 X h) hs0 hs1 hc2 hs3 hs4 hc3) (shift (shapeCast I5 Y h) hs0 hs1 hc2 hs3 hs4 hc3)
        (shift (shapeCast I5 Z h) hs0 hs1 hc2 hs3 hs4 hc3)) ht
      = Cert.Attn.G X Y Z := by
  funext i
  exact (congrArg _ (eq_ix4 i)).trans (tokens_GI_at X Y Z h hs0 hs1 hc2 hs3 hs4 hc3 ht (i 0) (i 1) (i 2) (i 3))

end Cert.KernelIdeal.Stripe

end
-- ==== Proof.KernelValue.lean ====
/-
  The idealized kernel's result array is the specification.

  Before the region the host changes each argument's format (the identity on extended reals), lays it out as an image
  and shifts it: the three arrays the region stages are the shifted images of the arguments. The grid has one point
  per batch, head and stripe of 28 rows; at each point every window's block is that stripe, and what the body writes
  back is the image-wide window attention `GI` on the stripe's rows. The 256 stripes tile the result image, so after
  the run the image is `GI` of the three shifted arguments; the host then merges rows and columns back into tokens,
  which makes it the specification.
-/
import proofs.«127838_j19834158973060_2_alg».proof.Proof.Gen.KernelIdeal.Frame
import proofs.«127838_j19834158973060_2_alg».proof.Proof.Stripe
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Stripe (GI)

variable (m : (ℓ : Loc nD τ sig) → Buf (Elt Ideal) ℓ) (ρ : Dev nD → PrngReg)

/-! ## The arrays the region finds -/

/-- The shifted image of an argument array. -/
def img (X : S8x8x12544x32.Idx → EReal) : S8x8x112x112x32.Idx → EReal :=
  Cert.Gather.shift (shapeCast S8x8x112x112x32 X shapeCasts_S8x8x12544x32_S8x8x112x112x32) slices_S8x8x112x112x32_S8x8x109x112x32_0_0_3_0_0 slices_S8x8x112x112x32_S8x8x3x112x32_0_0_0_0_0
    concatenates_S8x8x109x112x32_S8x8x3x112x32_S8x8x112x112x32_d2 slices_S8x8x112x112x32_S8x8x112x109x32_0_0_0_3_0
    slices_S8x8x112x112x32_S8x8x112x3x32_0_0_0_0_0 concatenates_S8x8x112x109x32_S8x8x112x3x32_S8x8x112x112x32_d3

theorem V_v2 (c : Dev nD) : (V m c main_v2 : S8x8x112x112x32.Idx → EReal) = img (m ((c : Thread nD τ).loc main_arg0)) := by
  dsimp only [Gen.V, Gen.V0]
  simp only [hostOps0, hostOps0_1, hostOps0_2, hostOps0_3, hostOps0_4, hostOps0_5, List.flatten_cons, List.flatten_nil, List.append_nil,
    List.cons_append, List.nil_append]
  after_results
  rfl
theorem V_v5 (c : Dev nD) : (V m c main_v5 : S8x8x112x112x32.Idx → EReal) = img (m ((c : Thread nD τ).loc main_arg1)) := by
  dsimp only [Gen.V, Gen.V0]
  simp only [hostOps0, hostOps0_1, hostOps0_2, hostOps0_3, hostOps0_4, hostOps0_5, List.flatten_cons, List.flatten_nil, List.append_nil,
    List.cons_append, List.nil_append]
  after_results
  rfl
theorem V_v8 (c : Dev nD) : (V m c main_v8 : S8x8x112x112x32.Idx → EReal) = img (m ((c : Thread nD τ).loc main_arg2)) := by
  dsimp only [Gen.V, Gen.V0]
  simp only [hostOps0, hostOps0_1, hostOps0_2, hostOps0_3, hostOps0_4, hostOps0_5, List.flatten_cons, List.flatten_nil, List.append_nil,
    List.cons_append, List.nil_append]
  after_results
  rfl

/-! ## The grid: one point per batch, head and stripe -/

theorem hz : (![0, 0, 0, 0, 0] : Fin 5 → Nat) = fun _ => 0 := funext fun a => by fin_cases a <;> rfl

/-- The four windows move together: block (batch, head, stripe, 0, 0), decided over the 256 points. -/
theorem idx_facts : ∀ t : Fin cfg0.N, win0_0.index t (0 : Fin 5) = win0_3.index t (0 : Fin 5) ∧ win0_0.index t (1 : Fin 5) = win0_3.index t (1 : Fin 5)
    ∧ win0_0.index t (2 : Fin 5) = win0_3.index t (2 : Fin 5) ∧ win0_0.index t (3 : Fin 5) = 0 ∧ win0_0.index t (4 : Fin 5) = 0
    ∧ win0_1.index t (0 : Fin 5) = win0_3.index t (0 : Fin 5) ∧ win0_1.index t (1 : Fin 5) = win0_3.index t (1 : Fin 5)
    ∧ win0_1.index t (2 : Fin 5) = win0_3.index t (2 : Fin 5) ∧ win0_1.index t (3 : Fin 5) = 0 ∧ win0_1.index t (4 : Fin 5) = 0
    ∧ win0_2.index t (0 : Fin 5) = win0_3.index t (0 : Fin 5) ∧ win0_2.index t (1 : Fin 5) = win0_3.index t (1 : Fin 5)
    ∧ win0_2.index t (2 : Fin 5) = win0_3.index t (2 : Fin 5) ∧ win0_2.index t (3 : Fin 5) = 0 ∧ win0_2.index t (4 : Fin 5) = 0
    ∧ win0_3.index t (0 : Fin 5) ≤ 7 ∧ win0_3.index t (1 : Fin 5) ≤ 7 ∧ win0_3.index t (2 : Fin 5) ≤ 3
    ∧ win0_3.index t (3 : Fin 5) = 0 ∧ win0_3.index t (4 : Fin 5) = 0 :=
  (by decide +kernel : ∀ t : Fin grid0.N, _)

/-- The point of batch `q0`, head `q1`, stripe `q2`: the grid runs over the stripes fastest, then the heads, then the batches. -/
theorem idx_at : ∀ (q0 : Fin 8) (q1 : Fin 8) (q2 : Fin 4),
    win0_3.index (⟨q0.val * 32 + q1.val * 4 + q2.val, by have := N_0; omega⟩ : Fin grid0.N) = ![q0.val, q1.val, q2.val, 0, 0] := by
  decide +kernel

/-- Every (batch, head, stripe) is some point's. -/
theorem idx_onto (q0 : Fin 8) (q1 : Fin 8) (q2 : Fin 4) : ∃ t : Fin cfg0.N, win0_3.index t = ![q0.val, q1.val, q2.val, 0, 0] :=
  ⟨_, idx_at q0 q1 q2⟩

/-- A point's batch, head and stripe. -/
def bOf (t : Fin cfg0.N) : Fin 8 := ⟨win0_3.index t (0 : Fin 5), by have := (idx_facts t).2.2.2.2.2.2.2.2.2.2.2.2.2.2.2.1; omega⟩
def hOf (t : Fin cfg0.N) : Fin 8 := ⟨win0_3.index t (1 : Fin 5), by have := (idx_facts t).2.2.2.2.2.2.2.2.2.2.2.2.2.2.2.2.1; omega⟩
def rOf (t : Fin cfg0.N) : Fin 4 := ⟨win0_3.index t (2 : Fin 5), by have := (idx_facts t).2.2.2.2.2.2.2.2.2.2.2.2.2.2.2.2.2.1; omega⟩

/-- Input window 0's block at a point, read at row `r`, column `c`: the array at batch, head and stripe of the point. -/
theorem iblk0_apply (c : Dev nD) (t : Fin cfg0.N) (r : Fin 28) (cc : Fin 112) (e : Fin 32) :
    iblk m c 0 t (ix5 (0 : Fin 1) (0 : Fin 1) r cc e)
      = V m c main_v2 (ix5 (bOf t) (hOf t) (⟨(rOf t).val * 28 + r.val, by have := (rOf t).isLt; omega⟩ : Fin 112) cc e) := by
  obtain ⟨a0, a1, a2, a3, a4, b0, b1, b2, b3, b4, c0, c1, c2, c3, c4, d0, d1, d2, d3, d4⟩ := idx_facts t
  show V m c main_v2 (((cfg0.win 0).blk t).view.emb (ix5 (0 : Fin 1) (0 : Fin 1) r cc e)) = _
  refine congrArg (V m c main_v2) (funext fun a => Fin.ext ?_)
  match a with
  | ⟨0, _⟩ => show win0_0.index t (0 : Fin 5) * 1 + 1 * 0 = win0_3.index t (0 : Fin 5); omega
  | ⟨1, _⟩ => show win0_0.index t (1 : Fin 5) * 1 + 1 * 0 = win0_3.index t (1 : Fin 5); omega
  | ⟨2, _⟩ => show win0_0.index t (2 : Fin 5) * 28 + 1 * r.val = win0_3.index t (2 : Fin 5) * 28 + r.val; omega
  | ⟨3, _⟩ => show win0_0.index t (3 : Fin 5) * 112 + 1 * cc.val = cc.val; omega
  | ⟨4, _⟩ => show win0_0.index t (4 : Fin 5) * 32 + 1 * e.val = e.val; omega

/-- Input window 1's block at a point, read at row `r`, column `c`: the array at batch, head and stripe of the point. -/
theorem iblk1_apply (c : Dev nD) (t : Fin cfg0.N) (r : Fin 28) (cc : Fin 112) (e : Fin 32) :
    iblk m c 1 t (ix5 (0 : Fin 1) (0 : Fin 1) r cc e)
      = V m c main_v5 (ix5 (bOf t) (hOf t) (⟨(rOf t).val * 28 + r.val, by have := (rOf t).isLt; omega⟩ : Fin 112) cc e) := by
  obtain ⟨a0, a1, a2, a3, a4, b0, b1, b2, b3, b4, c0, c1, c2, c3, c4, d0, d1, d2, d3, d4⟩ := idx_facts t
  show V m c main_v5 (((cfg0.win 1).blk t).view.emb (ix5 (0 : Fin 1) (0 : Fin 1) r cc e)) = _
  refine congrArg (V m c main_v5) (funext fun a => Fin.ext ?_)
  match a with
  | ⟨0, _⟩ => show win0_1.index t (0 : Fin 5) * 1 + 1 * 0 = win0_3.index t (0 : Fin 5); omega
  | ⟨1, _⟩ => show win0_1.index t (1 : Fin 5) * 1 + 1 * 0 = win0_3.index t (1 : Fin 5); omega
  | ⟨2, _⟩ => show win0_1.index t (2 : Fin 5) * 28 + 1 * r.val = win0_3.index t (2 : Fin 5) * 28 + r.val; omega
  | ⟨3, _⟩ => show win0_1.index t (3 : Fin 5) * 112 + 1 * cc.val = cc.val; omega
  | ⟨4, _⟩ => show win0_1.index t (4 : Fin 5) * 32 + 1 * e.val = e.val; omega

/-- Input window 2's block at a point, read at row `r`, column `c`: the array at batch, head and stripe of the point. -/
theorem iblk2_apply (c : Dev nD) (t : Fin cfg0.N) (r : Fin 28) (cc : Fin 112) (e : Fin 32) :
    iblk m c 2 t (ix5 (0 : Fin 1) (0 : Fin 1) r cc e)
      = V m c main_v8 (ix5 (bOf t) (hOf t) (⟨(rOf t).val * 28 + r.val, by have := (rOf t).isLt; omega⟩ : Fin 112) cc e) := by
  obtain ⟨a0, a1, a2, a3, a4, b0, b1, b2, b3, b4, c0, c1, c2, c3, c4, d0, d1, d2, d3, d4⟩ := idx_facts t
  show V m c main_v8 (((cfg0.win 2).blk t).view.emb (ix5 (0 : Fin 1) (0 : Fin 1) r cc e)) = _
  refine congrArg (V m c main_v8) (funext fun a => Fin.ext ?_)
  match a with
  | ⟨0, _⟩ => show win0_2.index t (0 : Fin 5) * 1 + 1 * 0 = win0_3.index t (0 : Fin 5); omega
  | ⟨1, _⟩ => show win0_2.index t (1 : Fin 5) * 1 + 1 * 0 = win0_3.index t (1 : Fin 5); omega
  | ⟨2, _⟩ => show win0_2.index t (2 : Fin 5) * 28 + 1 * r.val = win0_3.index t (2 : Fin 5) * 28 + r.val; omega
  | ⟨3, _⟩ => show win0_2.index t (3 : Fin 5) * 112 + 1 * cc.val = cc.val; omega
  | ⟨4, _⟩ => show win0_2.index t (4 : Fin 5) * 32 + 1 * e.val = e.val; omega

/-- Where an index of the output block lies in the result image. -/
theorem emb3 (t : Fin cfg0.N) (y : S1x1x28x112x32.Idx) :
    ((cfg0.win 3).blk t).view.emb y
      = ix5 (bOf t) (hOf t) (⟨(rOf t).val * 28 + (y 2).val, by have := (rOf t).isLt; have h28 : (y 2).val < 28 := (y 2).isLt; omega⟩ : Fin 112) (y 3) (y 4) := by
  obtain ⟨a0, a1, a2, a3, a4, b0, b1, b2, b3, b4, c0, c1, c2, c3, c4, d0, d1, d2, d3, d4⟩ := idx_facts t
  have y0 : (y 0).val < 1 := (y 0).isLt
  have y1 : (y 1).val < 1 := (y 1).isLt
  funext a
  apply Fin.ext
  match a with
  | ⟨0, _⟩ => show win0_3.index t (0 : Fin 5) * 1 + 1 * (y 0).val = win0_3.index t (0 : Fin 5); omega
  | ⟨1, _⟩ => show win0_3.index t (1 : Fin 5) * 1 + 1 * (y 1).val = win0_3.index t (1 : Fin 5); omega
  | ⟨2, _⟩ => show win0_3.index t (2 : Fin 5) * 28 + 1 * (y 2).val = win0_3.index t (2 : Fin 5) * 28 + (y 2).val; omega
  | ⟨3, _⟩ => show win0_3.index t (3 : Fin 5) * 112 + 1 * (y 3).val = (y 3).val; omega
  | ⟨4, _⟩ => show win0_3.index t (4 : Fin 5) * 32 + 1 * (y 4).val = (y 4).val; omega

/-! ## What a point writes back, and the array after the run -/

/-- WHAT POINT `t` WRITES BACK is block `t` of the image-wide window attention of the three staged arrays. -/
theorem flushed_eq (c : Dev nD) (t : Fin cfg0.N) :
    (dats m 0 c).flushed 3 t
      = ((cfg0.win 3).blk t).view.read (Elt Ideal) (GI (V m c main_v2) (V m c main_v5) (V m c main_v8)) := by
  show (cfg0.win 3).cut (grid0.coords t) ((dats m 0 c).after 3 t) = _
  rw [after0_3]
  unfold out0_3
  rw [View.canon_unit_zero hz]
  simp only [View.ld_unit_zero (S := S1x1x28x112x32) hz]
  funext y
  show k0_pay1 (k0_pay2 (iblk m c 0 t) (iblk m c 1 t) (iblk m c 2 t)) y
    = GI (V m c main_v2) (V m c main_v5) (V m c main_v8) (((cfg0.win 3).blk t).view.emb y)
  rw [emb3 t y]
  exact Cert.KernelIdeal.Stripe.block_apply (V m c main_v2) (V m c main_v5) (V m c main_v8) (bOf t) (hOf t) (rOf t)
    (iblk m c 0 t) (iblk m c 1 t) (iblk m c 2 t) (iblk0_apply m c t) (iblk1_apply m c t) (iblk2_apply m c t) y

/-- An index of the image is in point `t`'s block iff each coordinate is in the block's range on its axis. -/
theorem mem_blk (t : Fin cfg0.N) (i : S8x8x112x112x32.Idx) :
    i ∈ ((cfg0.win 3).blk t).view.set ↔ ∀ a : Fin 5, win0_3.index t a * S1x1x28x112x32.size a ≤ (i a).val
      ∧ (i a).val < win0_3.index t a * S1x1x28x112x32.size a + S1x1x28x112x32.size a := by
  show i ∈ ((View.whole main_v9).slice (win0_3.rect t)).set ↔ _
  rw [View.set_slice_whole, Rect.mem_set_unit]
  exact Iff.rfl

/-- The 256 stripes tile the image. -/
theorem cover (i : S8x8x112x112x32.Idx) : ∃ t : Fin cfg0.N, (cfg0.win 3).flush t = true ∧ i ∈ ((cfg0.win 3).blk t).view.set := by
  have h0 : (i 0).val < 8 := (i 0).isLt
  have h1 : (i 1).val < 8 := (i 1).isLt
  have h2 : (i 2).val < 112 := (i 2).isLt
  have h3 : (i 3).val < 112 := (i 3).isLt
  have h4 : (i 4).val < 32 := (i 4).isLt
  obtain ⟨t, ht⟩ := idx_onto ⟨(i 0).val, h0⟩ ⟨(i 1).val, h1⟩ ⟨(i 2).val / 28, by omega⟩
  have q0 : win0_3.index t (0 : Fin 5) = (i 0).val := congrFun ht 0
  have q1 : win0_3.index t (1 : Fin 5) = (i 1).val := congrFun ht 1
  have q2 : win0_3.index t (2 : Fin 5) = (i 2).val / 28 := congrFun ht 2
  have q3 : win0_3.index t (3 : Fin 5) = 0 := congrFun ht 3
  have q4 : win0_3.index t (4 : Fin 5) = 0 := congrFun ht 4
  refine ⟨t, flush0_3 t, ?_⟩
  rw [mem_blk]
  intro a
  match a with
  | ⟨0, _⟩ => show win0_3.index t (0 : Fin 5) * 1 ≤ (i 0).val ∧ (i 0).val < win0_3.index t (0 : Fin 5) * 1 + 1; omega
  | ⟨1, _⟩ => show win0_3.index t (1 : Fin 5) * 1 ≤ (i 1).val ∧ (i 1).val < win0_3.index t (1 : Fin 5) * 1 + 1; omega
  | ⟨2, _⟩ => show win0_3.index t (2 : Fin 5) * 28 ≤ (i 2).val ∧ (i 2).val < win0_3.index t (2 : Fin 5) * 28 + 28; omega
  | ⟨3, _⟩ => show win0_3.index t (3 : Fin 5) * 112 ≤ (i 3).val ∧ (i 3).val < win0_3.index t (3 : Fin 5) * 112 + 112; omega
  | ⟨4, _⟩ => show win0_3.index t (4 : Fin 5) * 32 ≤ (i 4).val ∧ (i 4).val < win0_3.index t (4 : Fin 5) * 32 + 32; omega

/-- THE RESULT IMAGE after the run. -/
theorem final (c : Dev nD) : (dats m 0 c).arrAt 3 cfg0.N = GI (V m c main_v2) (V m c main_v5) (V m c main_v8) :=
  (dats m 0 c).arrAt_eq_of_cover 3 (GI (V m c main_v2) (V m c main_v5) (V m c main_v8)) (fun t _ => flushed_eq m c t) cover

/-! ## The host's last line, and the run -/

/-- The program's result: the result image merged back into tokens. -/
theorem tail (c : Dev nD) :
    Pipeline.afterTail₀ cfgs (dats m) 0 (V0 m) [hostOps1] c main_v10
      = shapeCast S8x8x12544x32 (GI (V m c main_v2) (V m c main_v5) (V m c main_v8)) shapeCasts_S8x8x112x112x32_S8x8x12544x32 := by
  unfold Pipeline.afterTail₀
  show StableHlo.after hostOps1 _ (Proc.devRef .tc main_v10) = _
  after_results
  rw [(Pipeline.withArrays_arr spec0 launch0.win.arr_inj c _ _ 3).trans (final m c)]
  rfl

/-- The result is the specification of the argument arrays. -/
theorem result_eq (c : Dev nD) :
    Pipeline.afterTail₀ cfgs (dats m) 0 (V0 m) [hostOps1] c main_v10
      = Cert.Attn.G (m ((c : Thread nD τ).loc main_arg0)) (m ((c : Thread nD τ).loc main_arg1)) (m ((c : Thread nD τ).loc main_arg2)) := by
  rw [tail, V_v2, V_v5, V_v8]
  exact Cert.KernelIdeal.Stripe.tokens_GI _ _ _ _ _ _ _ _ _ _ _

/-- THE RUN: every weakly fair execution terminates with the result at the specification and the arguments unchanged. -/
theorem run : θ_run defs (onTc (τ := τ) (main (F := Ideal))) ⟨m, fun _ => 0, ρ⟩ fun r => ∀ c : Dev nD,
      r.2.mem ((c.tc : Thread nD τ).loc main_v10)
        = Cert.Attn.G (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefRun.lean ====
/-
  The reference's run, read back.

  The reference is a straight line of 52 host operations: each argument laid out as an image and shifted (seven
  operations), then cut into windows (three); the attention inside every window (nineteen); and the windows laid back
  as tokens (three). Every weakly fair execution ends with each buffer at the fold of the operations' results over the
  launch contents; that fold is read back one stretch at a time, over ANY contents the stretch starts from, so that
  the result is the pure functions `imgOf`, `cut3`, `coreOf`, `layOf` composed on the argument arrays.
-/
import proofs.«127838_j19834158973060_2_alg».proof.Proof.Gen.ReferenceIdeal
import proofs.«127838_j19834158973060_2_alg».proof.Proof.Gather
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- @main's 52 operations, in order (the shift's operations stand in its call's place). -/
abbrev ops : List (HloOp τ sig (Elt F)) :=
  [ reshape main_arg0 main_v0 rfl shapeCasts_S8x8x12544x32_S8x8x112x112x32,
    TRef.unary (TRef.of (T := ⟨S8x8x112x112x32, .f32⟩) main_v0) (TRef.of (T := ⟨S8x8x109x112x32, .f32⟩) main_call0_v0) (extractStridedSlice S8x8x109x112x32 ![0, 0, 3, 0, 0] · slices_S8x8x112x112x32_S8x8x109x112x32_0_0_3_0_0),
    TRef.unary (TRef.of (T := ⟨S8x8x112x112x32, .f32⟩) main_v0) (TRef.of (T := ⟨S8x8x3x112x32, .f32⟩) main_call0_v1) (extractStridedSlice S8x8x3x112x32 ![0, 0, 0, 0, 0] · slices_S8x8x112x112x32_S8x8x3x112x32_0_0_0_0_0),
    TRef.binary (TRef.of (T := ⟨S8x8x109x112x32, .f32⟩) main_call0_v0) (TRef.of (T := ⟨S8x8x3x112x32, .f32⟩) main_call0_v1) (TRef.of (T := ⟨S8x8x112x112x32, .f32⟩) main_call0_v2) (fun a b => concatenate S8x8x112x112x32 2 [⟨S8x8x109x112x32, a⟩, ⟨S8x8x3x112x32, b⟩] concatenates_S8x8x109x112x32_S8x8x3x112x32_S8x8x112x112x32_d2),
    TRef.unary (TRef.of (T := ⟨S8x8x112x112x32, .f32⟩) main_call0_v2) (TRef.of (T := ⟨S8x8x112x109x32, .f32⟩) main_call0_v3) (extractStridedSlice S8x8x112x109x32 ![0, 0, 0, 3, 0] · slices_S8x8x112x112x32_S8x8x112x109x32_0_0_0_3_0),
    TRef.unary (TRef.of (T := ⟨S8x8x112x112x32, .f32⟩) main_call0_v2) (TRef.of (T := ⟨S8x8x112x3x32, .f32⟩) main_call0_v4) (extractStridedSlice S8x8x112x3x32 ![0, 0, 0, 0, 0] · slices_S8x8x112x112x32_S8x8x112x3x32_0_0_0_0_0),
    TRef.binary (TRef.of (T := ⟨S8x8x112x109x32, .f32⟩) main_call0_v3) (TRef.of (T := ⟨S8x8x112x3x32, .f32⟩) main_call0_v4) (TRef.of (T := ⟨S8x8x112x112x32, .f32⟩) main_v1) (fun a b => concatenate S8x8x112x112x32 3 [⟨S8x8x112x109x32, a⟩, ⟨S8x8x112x3x32, b⟩] concatenates_S8x8x112x109x32_S8x8x112x3x32_S8x8x112x112x32_d3),
    reshape main_v1 main_v2 rfl shapeCasts_S8x8x112x112x32_S8x8x16x7x16x7x32,
    unary main_v2 main_v3 ((transpose S8x8x16x16x7x7x32 [0, 1, 2, 4, 3, 5, 6] · transposes_S8x8x16x7x16x7x32_S8x8x16x16x7x7x32_0_1_2_4_3_5_6) : (⟨S8x8x16x7x16x7x32, .f32⟩ : BufTy).Contents (Elt F) → (⟨S8x8x16x16x7x7x32, .f32⟩ : BufTy).Contents (Elt F)),
    reshape main_v3 main_v4 rfl shapeCasts_S8x8x16x16x7x7x32_S8x8x256x49x32,
    reshape main_arg1 main_v5 rfl shapeCasts_S8x8x12544x32_S8x8x112x112x32,
    TRef.unary (TRef.of (T := ⟨S8x8x112x112x32, .f32⟩) main_v5) (TRef.of (T := ⟨S8x8x109x112x32, .f32⟩) main_call1_v0) (extractStridedSlice S8x8x109x112x32 ![0, 0, 3, 0, 0] · slices_S8x8x112x112x32_S8x8x109x112x32_0_0_3_0_0),
    TRef.unary (TRef.of (T := ⟨S8x8x112x112x32, .f32⟩) main_v5) (TRef.of (T := ⟨S8x8x3x112x32, .f32⟩) main_call1_v1) (extractStridedSlice S8x8x3x112x32 ![0, 0, 0, 0, 0] · slices_S8x8x112x112x32_S8x8x3x112x32_0_0_0_0_0),
    TRef.binary (TRef.of (T := ⟨S8x8x109x112x32, .f32⟩) main_call1_v0) (TRef.of (T := ⟨S8x8x3x112x32, .f32⟩) main_call1_v1) (TRef.of (T := ⟨S8x8x112x112x32, .f32⟩) main_call1_v2) (fun a b => concatenate S8x8x112x112x32 2 [⟨S8x8x109x112x32, a⟩, ⟨S8x8x3x112x32, b⟩] concatenates_S8x8x109x112x32_S8x8x3x112x32_S8x8x112x112x32_d2),
    TRef.unary (TRef.of (T := ⟨S8x8x112x112x32, .f32⟩) main_call1_v2) (TRef.of (T := ⟨S8x8x112x109x32, .f32⟩) main_call1_v3) (extractStridedSlice S8x8x112x109x32 ![0, 0, 0, 3, 0] · slices_S8x8x112x112x32_S8x8x112x109x32_0_0_0_3_0),
    TRef.unary (TRef.of (T := ⟨S8x8x112x112x32, .f32⟩) main_call1_v2) (TRef.of (T := ⟨S8x8x112x3x32, .f32⟩) main_call1_v4) (extractStridedSlice S8x8x112x3x32 ![0, 0, 0, 0, 0] · slices_S8x8x112x112x32_S8x8x112x3x32_0_0_0_0_0),
    TRef.binary (TRef.of (T := ⟨S8x8x112x109x32, .f32⟩) main_call1_v3) (TRef.of (T := ⟨S8x8x112x3x32, .f32⟩) main_call1_v4) (TRef.of (T := ⟨S8x8x112x112x32, .f32⟩) main_v6) (fun a b => concatenate S8x8x112x112x32 3 [⟨S8x8x112x109x32, a⟩, ⟨S8x8x112x3x32, b⟩] concatenates_S8x8x112x109x32_S8x8x112x3x32_S8x8x112x112x32_d3),
    reshape main_v6 main_v7 rfl shapeCasts_S8x8x112x112x32_S8x8x16x7x16x7x32,
    unary main_v7 main_v8 ((transpose S8x8x16x16x7x7x32 [0, 1, 2, 4, 3, 5, 6] · transposes_S8x8x16x7x16x7x32_S8x8x16x16x7x7x32_0_1_2_4_3_5_6) : (⟨S8x8x16x7x16x7x32, .f32⟩ : BufTy).Contents (Elt F) → (⟨S8x8x16x16x7x7x32, .f32⟩ : BufTy).Contents (Elt F)),
    reshape main_v8 main_v9 rfl shapeCasts_S8x8x16x16x7x7x32_S8x8x256x49x32,
    reshape main_arg2 main_v10 rfl shapeCasts_S8x8x12544x32_S8x8x112x112x32,
    TRef.unary (TRef.of (T := ⟨S8x8x112x112x32, .f32⟩) main_v10) (TRef.of (T := ⟨S8x8x109x112x32, .f32⟩) main_call2_v0) (extractStridedSlice S8x8x109x112x32 ![0, 0, 3, 0, 0] · slices_S8x8x112x112x32_S8x8x109x112x32_0_0_3_0_0),
    TRef.unary (TRef.of (T := ⟨S8x8x112x112x32, .f32⟩) main_v10) (TRef.of (T := ⟨S8x8x3x112x32, .f32⟩) main_call2_v1) (extractStridedSlice S8x8x3x112x32 ![0, 0, 0, 0, 0] · slices_S8x8x112x112x32_S8x8x3x112x32_0_0_0_0_0),
    TRef.binary (TRef.of (T := ⟨S8x8x109x112x32, .f32⟩) main_call2_v0) (TRef.of (T := ⟨S8x8x3x112x32, .f32⟩) main_call2_v1) (TRef.of (T := ⟨S8x8x112x112x32, .f32⟩) main_call2_v2) (fun a b => concatenate S8x8x112x112x32 2 [⟨S8x8x109x112x32, a⟩, ⟨S8x8x3x112x32, b⟩] concatenates_S8x8x109x112x32_S8x8x3x112x32_S8x8x112x112x32_d2),
    TRef.unary (TRef.of (T := ⟨S8x8x112x112x32, .f32⟩) main_call2_v2) (TRef.of (T := ⟨S8x8x112x109x32, .f32⟩) main_call2_v3) (extractStridedSlice S8x8x112x109x32 ![0, 0, 0, 3, 0] · slices_S8x8x112x112x32_S8x8x112x109x32_0_0_0_3_0),
    TRef.unary (TRef.of (T := ⟨S8x8x112x112x32, .f32⟩) main_call2_v2) (TRef.of (T := ⟨S8x8x112x3x32, .f32⟩) main_call2_v4) (extractStridedSlice S8x8x112x3x32 ![0, 0, 0, 0, 0] · slices_S8x8x112x112x32_S8x8x112x3x32_0_0_0_0_0),
    TRef.binary (TRef.of (T := ⟨S8x8x112x109x32, .f32⟩) main_call2_v3) (TRef.of (T := ⟨S8x8x112x3x32, .f32⟩) main_call2_v4) (TRef.of (T := ⟨S8x8x112x112x32, .f32⟩) main_v11) (fun a b => concatenate S8x8x112x112x32 3 [⟨S8x8x112x109x32, a⟩, ⟨S8x8x112x3x32, b⟩] concatenates_S8x8x112x109x32_S8x8x112x3x32_S8x8x112x112x32_d3),
    reshape main_v11 main_v12 rfl shapeCasts_S8x8x112x112x32_S8x8x16x7x16x7x32,
    unary main_v12 main_v13 ((transpose S8x8x16x16x7x7x32 [0, 1, 2, 4, 3, 5, 6] · transposes_S8x8x16x7x16x7x32_S8x8x16x16x7x7x32_0_1_2_4_3_5_6) : (⟨S8x8x16x7x16x7x32, .f32⟩ : BufTy).Contents (Elt F) → (⟨S8x8x16x16x7x7x32, .f32⟩ : BufTy).Contents (Elt F)),
    reshape main_v13 main_v14 rfl shapeCasts_S8x8x16x16x7x7x32_S8x8x256x49x32,
    binary main_v4 main_v9 main_v15 ((fun l r => Host.dotGeneral dot_S8x8x256x49x32_S8x8x256x49x32_S8x8x256x49x49_4_4_3_3_012_012 none l r) : (⟨S8x8x256x49x32, .f32⟩ : BufTy).Contents (Elt F) → (⟨S8x8x256x49x32, .f32⟩ : BufTy).Contents (Elt F) → (⟨S8x8x256x49x49, .f32⟩ : BufTy).Contents (Elt F)),
    nullary main_cst (constant S_ .f32 0x3E3504F3#32),
    unary main_cst main_v16 (broadcastInDim S8x8x256x49x49 ![] bcast_S_S8x8x256x49x49 : (⟨S_, .f32⟩ : BufTy).Contents (Elt F) → (⟨S8x8x256x49x49, .f32⟩ : BufTy).Contents (Elt F)),
    binary main_v15 main_v16 main_v17 (mulf : (⟨S8x8x256x49x49, .f32⟩ : BufTy).Contents (Elt F) → (⟨S8x8x256x49x49, .f32⟩ : BufTy).Contents (Elt F) → (⟨S8x8x256x49x49, .f32⟩ : BufTy).Contents (Elt F)),
    nullary main_cst_0 (constant S_ .f32 0xFF800000#32),
    binary main_v17 main_cst_0 main_v18 ((fun x v => Host.reduce FloatOps.maximumf x v reducesTo_S8x8x256x49x49_S8x8x256x49_d4 h_S_) : (⟨S8x8x256x49x49, .f32⟩ : BufTy).Contents (Elt F) → (⟨S_, .f32⟩ : BufTy).Contents (Elt F) → (⟨S8x8x256x49, .f32⟩ : BufTy).Contents (Elt F)),
    nullary main_cst_1 (constant S_ .f32 0xFF800000#32),
    unary main_cst_1 main_v19 (broadcastInDim S8x8x256x49 ![] bcast_S_S8x8x256x49 : (⟨S_, .f32⟩ : BufTy).Contents (Elt F) → (⟨S8x8x256x49, .f32⟩ : BufTy).Contents (Elt F)),
    binary main_v19 main_v18 main_v20 (maximumf : (⟨S8x8x256x49, .f32⟩ : BufTy).Contents (Elt F) → (⟨S8x8x256x49, .f32⟩ : BufTy).Contents (Elt F) → (⟨S8x8x256x49, .f32⟩ : BufTy).Contents (Elt F)),
    unary main_v20 main_v21 (broadcastInDim S8x8x256x49x1 ![0, 1, 2, 3] bcast_S8x8x256x49_S8x8x256x49x1_0_1_2_3 : (⟨S8x8x256x49, .f32⟩ : BufTy).Contents (Elt F) → (⟨S8x8x256x49x1, .f32⟩ : BufTy).Contents (Elt F)),
    unary main_v21 main_v22 (broadcastInDim S8x8x256x49x49 ![0, 1, 2, 3, 4] bcast_S8x8x256x49x1_S8x8x256x49x49_0_1_2_3_4 : (⟨S8x8x256x49x1, .f32⟩ : BufTy).Contents (Elt F) → (⟨S8x8x256x49x49, .f32⟩ : BufTy).Contents (Elt F)),
    binary main_v17 main_v22 main_v23 (subf : (⟨S8x8x256x49x49, .f32⟩ : BufTy).Contents (Elt F) → (⟨S8x8x256x49x49, .f32⟩ : BufTy).Contents (Elt F) → (⟨S8x8x256x49x49, .f32⟩ : BufTy).Contents (Elt F)),
    unary main_v23 main_v24 (Host.exp : (⟨S8x8x256x49x49, .f32⟩ : BufTy).Contents (Elt F) → (⟨S8x8x256x49x49, .f32⟩ : BufTy).Contents (Elt F)),
    nullary main_cst_2 (constant S_ .f32 0x00000000#32),
    binary main_v24 main_cst_2 main_v25 ((fun x v => Host.reduceAdd x v reducesTo_S8x8x256x49x49_S8x8x256x49_d4 h_S_) : (⟨S8x8x256x49x49, .f32⟩ : BufTy).Contents (Elt F) → (⟨S_, .f32⟩ : BufTy).Contents (Elt F) → (⟨S8x8x256x49, .f32⟩ : BufTy).Contents (Elt F)),
    unary main_v25 main_v26 (broadcastInDim S8x8x256x49x1 ![0, 1, 2, 3] bcast_S8x8x256x49_S8x8x256x49x1_0_1_2_3 : (⟨S8x8x256x49, .f32⟩ : BufTy).Contents (Elt F) → (⟨S8x8x256x49x1, .f32⟩ : BufTy).Contents (Elt F)),
    unary main_v26 main_v27 (broadcastInDim S8x8x256x49x49 ![0, 1, 2, 3, 4] bcast_S8x8x256x49x1_S8x8x256x49x49_0_1_2_3_4 : (⟨S8x8x256x49x1, .f32⟩ : BufTy).Contents (Elt F) → (⟨S8x8x256x49x49, .f32⟩ : BufTy).Contents (Elt F)),
    binary main_v24 main_v27 main_v28 (Host.divf : (⟨S8x8x256x49x49, .f32⟩ : BufTy).Contents (Elt F) → (⟨S8x8x256x49x49, .f32⟩ : BufTy).Contents (Elt F) → (⟨S8x8x256x49x49, .f32⟩ : BufTy).Contents (Elt F)),
    binary main_v28 main_v14 main_v29 ((fun l r => Host.dotGeneral dot_S8x8x256x49x49_S8x8x256x49x32_S8x8x256x49x32_4_3_3_4_012_012 none l r) : (⟨S8x8x256x49x49, .f32⟩ : BufTy).Contents (Elt F) → (⟨S8x8x256x49x32, .f32⟩ : BufTy).Contents (Elt F) → (⟨S8x8x256x49x32, .f32⟩ : BufTy).Contents (Elt F)),
    reshape main_v29 main_v30 rfl shapeCasts_S8x8x256x49x32_S8x8x16x16x7x7x32,
    unary main_v30 main_v31 ((transpose S8x8x16x7x16x7x32 [0, 1, 2, 4, 3, 5, 6] · transposes_S8x8x16x16x7x7x32_S8x8x16x7x16x7x32_0_1_2_4_3_5_6) : (⟨S8x8x16x16x7x7x32, .f32⟩ : BufTy).Contents (Elt F) → (⟨S8x8x16x7x16x7x32, .f32⟩ : BufTy).Contents (Elt F)),
    reshape main_v31 main_v32 rfl shapeCasts_S8x8x16x7x16x7x32_S8x8x12544x32 ]

/-- The eight stretches. -/
abbrev opsX1 : List (HloOp τ sig (Elt F)) :=
  [ reshape main_arg0 main_v0 rfl shapeCasts_S8x8x12544x32_S8x8x112x112x32,
    TRef.unary (TRef.of (T := ⟨S8x8x112x112x32, .f32⟩) main_v0) (TRef.of (T := ⟨S8x8x109x112x32, .f32⟩) main_call0_v0) (extractStridedSlice S8x8x109x112x32 ![0, 0, 3, 0, 0] · slices_S8x8x112x112x32_S8x8x109x112x32_0_0_3_0_0),
    TRef.unary (TRef.of (T := ⟨S8x8x112x112x32, .f32⟩) main_v0) (TRef.of (T := ⟨S8x8x3x112x32, .f32⟩) main_call0_v1) (extractStridedSlice S8x8x3x112x32 ![0, 0, 0, 0, 0] · slices_S8x8x112x112x32_S8x8x3x112x32_0_0_0_0_0),
    TRef.binary (TRef.of (T := ⟨S8x8x109x112x32, .f32⟩) main_call0_v0) (TRef.of (T := ⟨S8x8x3x112x32, .f32⟩) main_call0_v1) (TRef.of (T := ⟨S8x8x112x112x32, .f32⟩) main_call0_v2) (fun a b => concatenate S8x8x112x112x32 2 [⟨S8x8x109x112x32, a⟩, ⟨S8x8x3x112x32, b⟩] concatenates_S8x8x109x112x32_S8x8x3x112x32_S8x8x112x112x32_d2),
    TRef.unary (TRef.of (T := ⟨S8x8x112x112x32, .f32⟩) main_call0_v2) (TRef.of (T := ⟨S8x8x112x109x32, .f32⟩) main_call0_v3) (extractStridedSlice S8x8x112x109x32 ![0, 0, 0, 3, 0] · slices_S8x8x112x112x32_S8x8x112x109x32_0_0_0_3_0),
    TRef.unary (TRef.of (T := ⟨S8x8x112x112x32, .f32⟩) main_call0_v2) (TRef.of (T := ⟨S8x8x112x3x32, .f32⟩) main_call0_v4) (extractStridedSlice S8x8x112x3x32 ![0, 0, 0, 0, 0] · slices_S8x8x112x112x32_S8x8x112x3x32_0_0_0_0_0),
    TRef.binary (TRef.of (T := ⟨S8x8x112x109x32, .f32⟩) main_call0_v3) (TRef.of (T := ⟨S8x8x112x3x32, .f32⟩) main_call0_v4) (TRef.of (T := ⟨S8x8x112x112x32, .f32⟩) main_v1) (fun a b => concatenate S8x8x112x112x32 3 [⟨S8x8x112x109x32, a⟩, ⟨S8x8x112x3x32, b⟩] concatenates_S8x8x112x109x32_S8x8x112x3x32_S8x8x112x112x32_d3) ]
abbrev opsX2 : List (HloOp τ sig (Elt F)) :=
  [ reshape main_v1 main_v2 rfl shapeCasts_S8x8x112x112x32_S8x8x16x7x16x7x32,
    unary main_v2 main_v3 ((transpose S8x8x16x16x7x7x32 [0, 1, 2, 4, 3, 5, 6] · transposes_S8x8x16x7x16x7x32_S8x8x16x16x7x7x32_0_1_2_4_3_5_6) : (⟨S8x8x16x7x16x7x32, .f32⟩ : BufTy).Contents (Elt F) → (⟨S8x8x16x16x7x7x32, .f32⟩ : BufTy).Contents (Elt F)),
    reshape main_v3 main_v4 rfl shapeCasts_S8x8x16x16x7x7x32_S8x8x256x49x32 ]
abbrev opsY1 : List (HloOp τ sig (Elt F)) :=
  [ reshape main_arg1 main_v5 rfl shapeCasts_S8x8x12544x32_S8x8x112x112x32,
    TRef.unary (TRef.of (T := ⟨S8x8x112x112x32, .f32⟩) main_v5) (TRef.of (T := ⟨S8x8x109x112x32, .f32⟩) main_call1_v0) (extractStridedSlice S8x8x109x112x32 ![0, 0, 3, 0, 0] · slices_S8x8x112x112x32_S8x8x109x112x32_0_0_3_0_0),
    TRef.unary (TRef.of (T := ⟨S8x8x112x112x32, .f32⟩) main_v5) (TRef.of (T := ⟨S8x8x3x112x32, .f32⟩) main_call1_v1) (extractStridedSlice S8x8x3x112x32 ![0, 0, 0, 0, 0] · slices_S8x8x112x112x32_S8x8x3x112x32_0_0_0_0_0),
    TRef.binary (TRef.of (T := ⟨S8x8x109x112x32, .f32⟩) main_call1_v0) (TRef.of (T := ⟨S8x8x3x112x32, .f32⟩) main_call1_v1) (TRef.of (T := ⟨S8x8x112x112x32, .f32⟩) main_call1_v2) (fun a b => concatenate S8x8x112x112x32 2 [⟨S8x8x109x112x32, a⟩, ⟨S8x8x3x112x32, b⟩] concatenates_S8x8x109x112x32_S8x8x3x112x32_S8x8x112x112x32_d2),
    TRef.unary (TRef.of (T := ⟨S8x8x112x112x32, .f32⟩) main_call1_v2) (TRef.of (T := ⟨S8x8x112x109x32, .f32⟩) main_call1_v3) (extractStridedSlice S8x8x112x109x32 ![0, 0, 0, 3, 0] · slices_S8x8x112x112x32_S8x8x112x109x32_0_0_0_3_0),
    TRef.unary (TRef.of (T := ⟨S8x8x112x112x32, .f32⟩) main_call1_v2) (TRef.of (T := ⟨S8x8x112x3x32, .f32⟩) main_call1_v4) (extractStridedSlice S8x8x112x3x32 ![0, 0, 0, 0, 0] · slices_S8x8x112x112x32_S8x8x112x3x32_0_0_0_0_0),
    TRef.binary (TRef.of (T := ⟨S8x8x112x109x32, .f32⟩) main_call1_v3) (TRef.of (T := ⟨S8x8x112x3x32, .f32⟩) main_call1_v4) (TRef.of (T := ⟨S8x8x112x112x32, .f32⟩) main_v6) (fun a b => concatenate S8x8x112x112x32 3 [⟨S8x8x112x109x32, a⟩, ⟨S8x8x112x3x32, b⟩] concatenates_S8x8x112x109x32_S8x8x112x3x32_S8x8x112x112x32_d3) ]
abbrev opsY2 : List (HloOp τ sig (Elt F)) :=
  [ reshape main_v6 main_v7 rfl shapeCasts_S8x8x112x112x32_S8x8x16x7x16x7x32,
    unary main_v7 main_v8 ((transpose S8x8x16x16x7x7x32 [0, 1, 2, 4, 3, 5, 6] · transposes_S8x8x16x7x16x7x32_S8x8x16x16x7x7x32_0_1_2_4_3_5_6) : (⟨S8x8x16x7x16x7x32, .f32⟩ : BufTy).Contents (Elt F) → (⟨S8x8x16x16x7x7x32, .f32⟩ : BufTy).Contents (Elt F)),
    reshape main_v8 main_v9 rfl shapeCasts_S8x8x16x16x7x7x32_S8x8x256x49x32 ]
abbrev opsZ1 : List (HloOp τ sig (Elt F)) :=
  [ reshape main_arg2 main_v10 rfl shapeCasts_S8x8x12544x32_S8x8x112x112x32,
    TRef.unary (TRef.of (T := ⟨S8x8x112x112x32, .f32⟩) main_v10) (TRef.of (T := ⟨S8x8x109x112x32, .f32⟩) main_call2_v0) (extractStridedSlice S8x8x109x112x32 ![0, 0, 3, 0, 0] · slices_S8x8x112x112x32_S8x8x109x112x32_0_0_3_0_0),
    TRef.unary (TRef.of (T := ⟨S8x8x112x112x32, .f32⟩) main_v10) (TRef.of (T := ⟨S8x8x3x112x32, .f32⟩) main_call2_v1) (extractStridedSlice S8x8x3x112x32 ![0, 0, 0, 0, 0] · slices_S8x8x112x112x32_S8x8x3x112x32_0_0_0_0_0),
    TRef.binary (TRef.of (T := ⟨S8x8x109x112x32, .f32⟩) main_call2_v0) (TRef.of (T := ⟨S8x8x3x112x32, .f32⟩) main_call2_v1) (TRef.of (T := ⟨S8x8x112x112x32, .f32⟩) main_call2_v2) (fun a b => concatenate S8x8x112x112x32 2 [⟨S8x8x109x112x32, a⟩, ⟨S8x8x3x112x32, b⟩] concatenates_S8x8x109x112x32_S8x8x3x112x32_S8x8x112x112x32_d2),
    TRef.unary (TRef.of (T := ⟨S8x8x112x112x32, .f32⟩) main_call2_v2) (TRef.of (T := ⟨S8x8x112x109x32, .f32⟩) main_call2_v3) (extractStridedSlice S8x8x112x109x32 ![0, 0, 0, 3, 0] · slices_S8x8x112x112x32_S8x8x112x109x32_0_0_0_3_0),
    TRef.unary (TRef.of (T := ⟨S8x8x112x112x32, .f32⟩) main_call2_v2) (TRef.of (T := ⟨S8x8x112x3x32, .f32⟩) main_call2_v4) (extractStridedSlice S8x8x112x3x32 ![0, 0, 0, 0, 0] · slices_S8x8x112x112x32_S8x8x112x3x32_0_0_0_0_0),
    TRef.binary (TRef.of (T := ⟨S8x8x112x109x32, .f32⟩) main_call2_v3) (TRef.of (T := ⟨S8x8x112x3x32, .f32⟩) main_call2_v4) (TRef.of (T := ⟨S8x8x112x112x32, .f32⟩) main_v11) (fun a b => concatenate S8x8x112x112x32 3 [⟨S8x8x112x109x32, a⟩, ⟨S8x8x112x3x32, b⟩] concatenates_S8x8x112x109x32_S8x8x112x3x32_S8x8x112x112x32_d3) ]
abbrev opsZ2 : List (HloOp τ sig (Elt F)) :=
  [ reshape main_v11 main_v12 rfl shapeCasts_S8x8x112x112x32_S8x8x16x7x16x7x32,
    unary main_v12 main_v13 ((transpose S8x8x16x16x7x7x32 [0, 1, 2, 4, 3, 5, 6] · transposes_S8x8x16x7x16x7x32_S8x8x16x16x7x7x32_0_1_2_4_3_5_6) : (⟨S8x8x16x7x16x7x32, .f32⟩ : BufTy).Contents (Elt F) → (⟨S8x8x16x16x7x7x32, .f32⟩ : BufTy).Contents (Elt F)),
    reshape main_v13 main_v14 rfl shapeCasts_S8x8x16x16x7x7x32_S8x8x256x49x32 ]
abbrev opsCore : List (HloOp τ sig (Elt F)) :=
  [ binary main_v4 main_v9 main_v15 ((fun l r => Host.dotGeneral dot_S8x8x256x49x32_S8x8x256x49x32_S8x8x256x49x49_4_4_3_3_012_012 none l r) : (⟨S8x8x256x49x32, .f32⟩ : BufTy).Contents (Elt F) → (⟨S8x8x256x49x32, .f32⟩ : BufTy).Contents (Elt F) → (⟨S8x8x256x49x49, .f32⟩ : BufTy).Contents (Elt F)),
    nullary main_cst (constant S_ .f32 0x3E3504F3#32),
    unary main_cst main_v16 (broadcastInDim S8x8x256x49x49 ![] bcast_S_S8x8x256x49x49 : (⟨S_, .f32⟩ : BufTy).Contents (Elt F) → (⟨S8x8x256x49x49, .f32⟩ : BufTy).Contents (Elt F)),
    binary main_v15 main_v16 main_v17 (mulf : (⟨S8x8x256x49x49, .f32⟩ : BufTy).Contents (Elt F) → (⟨S8x8x256x49x49, .f32⟩ : BufTy).Contents (Elt F) → (⟨S8x8x256x49x49, .f32⟩ : BufTy).Contents (Elt F)),
    nullary main_cst_0 (constant S_ .f32 0xFF800000#32),
    binary main_v17 main_cst_0 main_v18 ((fun x v => Host.reduce FloatOps.maximumf x v reducesTo_S8x8x256x49x49_S8x8x256x49_d4 h_S_) : (⟨S8x8x256x49x49, .f32⟩ : BufTy).Contents (Elt F) → (⟨S_, .f32⟩ : BufTy).Contents (Elt F) → (⟨S8x8x256x49, .f32⟩ : BufTy).Contents (Elt F)),
    nullary main_cst_1 (constant S_ .f32 0xFF800000#32),
    unary main_cst_1 main_v19 (broadcastInDim S8x8x256x49 ![] bcast_S_S8x8x256x49 : (⟨S_, .f32⟩ : BufTy).Contents (Elt F) → (⟨S8x8x256x49, .f32⟩ : BufTy).Contents (Elt F)),
    binary main_v19 main_v18 main_v20 (maximumf : (⟨S8x8x256x49, .f32⟩ : BufTy).Contents (Elt F) → (⟨S8x8x256x49, .f32⟩ : BufTy).Contents (Elt F) → (⟨S8x8x256x49, .f32⟩ : BufTy).Contents (Elt F)),
    unary main_v20 main_v21 (broadcastInDim S8x8x256x49x1 ![0, 1, 2, 3] bcast_S8x8x256x49_S8x8x256x49x1_0_1_2_3 : (⟨S8x8x256x49, .f32⟩ : BufTy).Contents (Elt F) → (⟨S8x8x256x49x1, .f32⟩ : BufTy).Contents (Elt F)),
    unary main_v21 main_v22 (broadcastInDim S8x8x256x49x49 ![0, 1, 2, 3, 4] bcast_S8x8x256x49x1_S8x8x256x49x49_0_1_2_3_4 : (⟨S8x8x256x49x1, .f32⟩ : BufTy).Contents (Elt F) → (⟨S8x8x256x49x49, .f32⟩ : BufTy).Contents (Elt F)),
    binary main_v17 main_v22 main_v23 (subf : (⟨S8x8x256x49x49, .f32⟩ : BufTy).Contents (Elt F) → (⟨S8x8x256x49x49, .f32⟩ : BufTy).Contents (Elt F) → (⟨S8x8x256x49x49, .f32⟩ : BufTy).Contents (Elt F)),
    unary main_v23 main_v24 (Host.exp : (⟨S8x8x256x49x49, .f32⟩ : BufTy).Contents (Elt F) → (⟨S8x8x256x49x49, .f32⟩ : BufTy).Contents (Elt F)),
    nullary main_cst_2 (constant S_ .f32 0x00000000#32),
    binary main_v24 main_cst_2 main_v25 ((fun x v => Host.reduceAdd x v reducesTo_S8x8x256x49x49_S8x8x256x49_d4 h_S_) : (⟨S8x8x256x49x49, .f32⟩ : BufTy).Contents (Elt F) → (⟨S_, .f32⟩ : BufTy).Contents (Elt F) → (⟨S8x8x256x49, .f32⟩ : BufTy).Contents (Elt F)),
    unary main_v25 main_v26 (broadcastInDim S8x8x256x49x1 ![0, 1, 2, 3] bcast_S8x8x256x49_S8x8x256x49x1_0_1_2_3 : (⟨S8x8x256x49, .f32⟩ : BufTy).Contents (Elt F) → (⟨S8x8x256x49x1, .f32⟩ : BufTy).Contents (Elt F)),
    unary main_v26 main_v27 (broadcastInDim S8x8x256x49x49 ![0, 1, 2, 3, 4] bcast_S8x8x256x49x1_S8x8x256x49x49_0_1_2_3_4 : (⟨S8x8x256x49x1, .f32⟩ : BufTy).Contents (Elt F) → (⟨S8x8x256x49x49, .f32⟩ : BufTy).Contents (Elt F)),
    binary main_v24 main_v27 main_v28 (Host.divf : (⟨S8x8x256x49x49, .f32⟩ : BufTy).Contents (Elt F) → (⟨S8x8x256x49x49, .f32⟩ : BufTy).Contents (Elt F) → (⟨S8x8x256x49x49, .f32⟩ : BufTy).Contents (Elt F)),
    binary main_v28 main_v14 main_v29 ((fun l r => Host.dotGeneral dot_S8x8x256x49x49_S8x8x256x49x32_S8x8x256x49x32_4_3_3_4_012_012 none l r) : (⟨S8x8x256x49x49, .f32⟩ : BufTy).Contents (Elt F) → (⟨S8x8x256x49x32, .f32⟩ : BufTy).Contents (Elt F) → (⟨S8x8x256x49x32, .f32⟩ : BufTy).Contents (Elt F)) ]
abbrev opsLay : List (HloOp τ sig (Elt F)) :=
  [ reshape main_v29 main_v30 rfl shapeCasts_S8x8x256x49x32_S8x8x16x16x7x7x32,
    unary main_v30 main_v31 ((transpose S8x8x16x7x16x7x32 [0, 1, 2, 4, 3, 5, 6] · transposes_S8x8x16x16x7x7x32_S8x8x16x7x16x7x32_0_1_2_4_3_5_6) : (⟨S8x8x16x16x7x7x32, .f32⟩ : BufTy).Contents (Elt F) → (⟨S8x8x16x7x16x7x32, .f32⟩ : BufTy).Contents (Elt F)),
    reshape main_v31 main_v32 rfl shapeCasts_S8x8x16x7x16x7x32_S8x8x12544x32 ]

theorem ops_eq : (ops : List (HloOp τ sig (Elt F))) = opsX1 ++ (opsX2 ++ (opsY1 ++ (opsY2 ++ (opsZ1 ++ (opsZ2 ++ (opsCore ++ (opsLay))))))) := rfl

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., unary_bufs_sub .., unary_bufs_sub .., binary_bufs_sub .., unary_bufs_sub .., unary_bufs_sub .., binary_bufs_sub .., reshape_bufs_sub .., unary_bufs_sub .., reshape_bufs_sub .., reshape_bufs_sub .., unary_bufs_sub .., unary_bufs_sub .., binary_bufs_sub .., unary_bufs_sub .., unary_bufs_sub .., binary_bufs_sub .., reshape_bufs_sub .., unary_bufs_sub .., reshape_bufs_sub .., reshape_bufs_sub .., unary_bufs_sub .., unary_bufs_sub .., binary_bufs_sub .., unary_bufs_sub .., unary_bufs_sub .., binary_bufs_sub .., reshape_bufs_sub .., unary_bufs_sub .., reshape_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., reshape_bufs_sub .., unary_bufs_sub .., reshape_bufs_sub ..⟩

/-- The fold over two stretches in a row is the fold over the second from the fold over the first. -/
theorem after_append (a b : List (HloOp τ sig (Elt F))) (V : Valuation τ sig (Elt F)) :
    after (a ++ b) V = after b (after a V) := by
  induction a generalizing V with
  | nil => rfl
  | cons op a ih => exact ih _

/-! ## The pure functions -/

abbrev Arr := FVec Ideal S8x8x12544x32 .f32
abbrev Img := FVec Ideal S8x8x112x112x32 .f32
abbrev Win := FVec Ideal S8x8x256x49x32 .f32
abbrev Sco := FVec Ideal S8x8x256x49x49 .f32
abbrev Row := FVec Ideal S8x8x256x49 .f32

/-- An argument as an image, shifted. -/
def imgOf (X : Arr) : Img :=
  Cert.Gather.shift (shapeCast S8x8x112x112x32 X shapeCasts_S8x8x12544x32_S8x8x112x112x32)
      slices_S8x8x112x112x32_S8x8x109x112x32_0_0_3_0_0 slices_S8x8x112x112x32_S8x8x3x112x32_0_0_0_0_0
      concatenates_S8x8x109x112x32_S8x8x3x112x32_S8x8x112x112x32_d2 slices_S8x8x112x112x32_S8x8x112x109x32_0_0_0_3_0
      slices_S8x8x112x112x32_S8x8x112x3x32_0_0_0_0_0 concatenates_S8x8x112x109x32_S8x8x112x3x32_S8x8x112x112x32_d3

/-- An image cut into windows. -/
def cut3 (y : Img) : Win :=
  shapeCast S8x8x256x49x32 (transpose S8x8x16x16x7x7x32 [0, 1, 2, 4, 3, 5, 6]
    (shapeCast S8x8x16x7x16x7x32 y shapeCasts_S8x8x112x112x32_S8x8x16x7x16x7x32)
    transposes_S8x8x16x7x16x7x32_S8x8x16x16x7x7x32_0_1_2_4_3_5_6) shapeCasts_S8x8x16x16x7x7x32_S8x8x256x49x32

/-- An argument as an image, shifted, cut into windows. -/
def cutOf (X : Arr) : Win := cut3 (imgOf X)

/-- A row value given a unit axis and broadcast back along the row. -/
def alongRow (v : Row) : Sco :=
  broadcastInDim S8x8x256x49x49 ![0, 1, 2, 3, 4] bcast_S8x8x256x49x1_S8x8x256x49x49_0_1_2_3_4
    (broadcastInDim S8x8x256x49x1 ![0, 1, 2, 3] bcast_S8x8x256x49_S8x8x256x49x1_0_1_2_3 v)

/-- The scaled scores. -/
def sc (q k : Win) : Sco :=
  mulf (Host.dotGeneral dot_S8x8x256x49x32_S8x8x256x49x32_S8x8x256x49x49_4_4_3_3_012_012 none q k)
    (broadcastInDim S8x8x256x49x49 ![] bcast_S_S8x8x256x49x49 (constant (F := Ideal) S_ .f32 0x3E3504F3#32))
/-- Their row maxima, taken once more against minus infinity. -/
def mx (q k : Win) : Row :=
  maximumf (broadcastInDim S8x8x256x49 ![] bcast_S_S8x8x256x49 (constant (F := Ideal) S_ .f32 0xFF800000#32))
    (Host.reduce FloatOps.maximumf (sc q k) (constant (F := Ideal) S_ .f32 0xFF800000#32) reducesTo_S8x8x256x49x49_S8x8x256x49_d4 h_S_)
/-- The exponentials of the differences. -/
def ex (q k : Win) : Sco := Host.exp (subf (sc q k) (alongRow (mx q k)))
/-- Their row sums. -/
def sm (q k : Win) : Row := Host.reduceAdd (ex q k) (constant (F := Ideal) S_ .f32 0x00000000#32) reducesTo_S8x8x256x49x49_S8x8x256x49_d4 h_S_
/-- The normalized weights. -/
def pr (q k : Win) : Sco := Host.divf (ex q k) (alongRow (sm q k))
/-- Attention inside every window. -/
def coreOf (q k v : Win) : Win := Host.dotGeneral dot_S8x8x256x49x49_S8x8x256x49x32_S8x8x256x49x32_4_3_3_4_012_012 none (pr q k) v

/-- The windows laid back as tokens. -/
def layOf (o : Win) : Arr :=
  shapeCast S8x8x12544x32 (transpose S8x8x16x7x16x7x32 [0, 1, 2, 4, 3, 5, 6]
    (shapeCast S8x8x16x16x7x7x32 o shapeCasts_S8x8x256x49x32_S8x8x16x16x7x7x32)
    transposes_S8x8x16x16x7x7x32_S8x8x16x7x16x7x32_0_1_2_4_3_5_6) shapeCasts_S8x8x16x7x16x7x32_S8x8x12544x32

/-! ## Each stretch, from any contents -/

variable (W : Valuation τ sig (Elt Ideal))

theorem after_X1 : after (opsX1 (F := Ideal)) W (Proc.devRef .tc main_v1) = imgOf (W (Proc.devRef .tc main_arg0)) := by
  after_results <;> rfl
theorem after_X2 : after (opsX2 (F := Ideal)) W (Proc.devRef .tc main_v4) = cut3 (W (Proc.devRef .tc main_v1)) := by
  after_results <;> rfl
theorem after_Y1 : after (opsY1 (F := Ideal)) W (Proc.devRef .tc main_v6) = imgOf (W (Proc.devRef .tc main_arg1)) := by
  after_results <;> rfl
theorem after_Y2 : after (opsY2 (F := Ideal)) W (Proc.devRef .tc main_v9) = cut3 (W (Proc.devRef .tc main_v6)) := by
  after_results <;> rfl
theorem after_Z1 : after (opsZ1 (F := Ideal)) W (Proc.devRef .tc main_v11) = imgOf (W (Proc.devRef .tc main_arg2)) := by
  after_results <;> rfl
theorem after_Z2 : after (opsZ2 (F := Ideal)) W (Proc.devRef .tc main_v14) = cut3 (W (Proc.devRef .tc main_v11)) := by
  after_results <;> rfl
set_option maxHeartbeats 1000000 in
theorem after_core : after (opsCore (F := Ideal)) W (Proc.devRef .tc main_v29)
    = coreOf (W (Proc.devRef .tc main_v4)) (W (Proc.devRef .tc main_v9)) (W (Proc.devRef .tc main_v14)) := by
  after_results_simp <;> rfl
theorem after_lay : after (opsLay (F := Ideal)) W (Proc.devRef .tc main_v32) = layOf (W (Proc.devRef .tc main_v29)) := by
  after_results <;> rfl

/-- What a stretch does not write, it keeps. -/
theorem keepZ2_v4 : after (opsZ2 (F := Ideal)) W (Proc.devRef .tc main_v4) = W (Proc.devRef .tc main_v4) := by after_results <;> rfl
theorem keepZ2_v9 : after (opsZ2 (F := Ideal)) W (Proc.devRef .tc main_v9) = W (Proc.devRef .tc main_v9) := by after_results <;> rfl
theorem keepZ1_v4 : after (opsZ1 (F := Ideal)) W (Proc.devRef .tc main_v4) = W (Proc.devRef .tc main_v4) := by after_results <;> rfl
theorem keepZ1_v9 : after (opsZ1 (F := Ideal)) W (Proc.devRef .tc main_v9) = W (Proc.devRef .tc main_v9) := by after_results <;> rfl
theorem keepY2_v4 : after (opsY2 (F := Ideal)) W (Proc.devRef .tc main_v4) = W (Proc.devRef .tc main_v4) := by after_results <;> rfl
theorem keepY1_v4 : after (opsY1 (F := Ideal)) W (Proc.devRef .tc main_v4) = W (Proc.devRef .tc main_v4) := by after_results <;> rfl
theorem keepX1_a0 : after (opsX1 (F := Ideal)) W (Proc.devRef .tc main_arg0) = W (Proc.devRef .tc main_arg0) := by after_results <;> rfl
theorem keepX1_a1 : after (opsX1 (F := Ideal)) W (Proc.devRef .tc main_arg1) = W (Proc.devRef .tc main_arg1) := by after_results <;> rfl
theorem keepX1_a2 : after (opsX1 (F := Ideal)) W (Proc.devRef .tc main_arg2) = W (Proc.devRef .tc main_arg2) := by after_results <;> rfl
theorem keepX2_a0 : after (opsX2 (F := Ideal)) W (Proc.devRef .tc main_arg0) = W (Proc.devRef .tc main_arg0) := by after_results <;> rfl
theorem keepX2_a1 : after (opsX2 (F := Ideal)) W (Proc.devRef .tc main_arg1) = W (Proc.devRef .tc main_arg1) := by after_results <;> rfl
theorem keepX2_a2 : after (opsX2 (F := Ideal)) W (Proc.devRef .tc main_arg2) = W (Proc.devRef .tc main_arg2) := by after_results <;> rfl
theorem keepY1_a0 : after (opsY1 (F := Ideal)) W (Proc.devRef .tc main_arg0) = W (Proc.devRef .tc main_arg0) := by after_results <;> rfl
theorem keepY1_a1 : after (opsY1 (F := Ideal)) W (Proc.devRef .tc main_arg1) = W (Proc.devRef .tc main_arg1) := by after_results <;> rfl
theorem keepY1_a2 : after (opsY1 (F := Ideal)) W (Proc.devRef .tc main_arg2) = W (Proc.devRef .tc main_arg2) := by after_results <;> rfl
theorem keepY2_a0 : after (opsY2 (F := Ideal)) W (Proc.devRef .tc main_arg0) = W (Proc.devRef .tc main_arg0) := by after_results <;> rfl
theorem keepY2_a1 : after (opsY2 (F := Ideal)) W (Proc.devRef .tc main_arg1) = W (Proc.devRef .tc main_arg1) := by after_results <;> rfl
theorem keepY2_a2 : after (opsY2 (F := Ideal)) W (Proc.devRef .tc main_arg2) = W (Proc.devRef .tc main_arg2) := by after_results <;> rfl
theorem keepZ1_a0 : after (opsZ1 (F := Ideal)) W (Proc.devRef .tc main_arg0) = W (Proc.devRef .tc main_arg0) := by after_results <;> rfl
theorem keepZ1_a1 : after (opsZ1 (F := Ideal)) W (Proc.devRef .tc main_arg1) = W (Proc.devRef .tc main_arg1) := by after_results <;> rfl
theorem keepZ1_a2 : after (opsZ1 (F := Ideal)) W (Proc.devRef .tc main_arg2) = W (Proc.devRef .tc main_arg2) := by after_results <;> rfl
theorem keepZ2_a0 : after (opsZ2 (F := Ideal)) W (Proc.devRef .tc main_arg0) = W (Proc.devRef .tc main_arg0) := by after_results <;> rfl
theorem keepZ2_a1 : after (opsZ2 (F := Ideal)) W (Proc.devRef .tc main_arg1) = W (Proc.devRef .tc main_arg1) := by after_results <;> rfl
theorem keepZ2_a2 : after (opsZ2 (F := Ideal)) W (Proc.devRef .tc main_arg2) = W (Proc.devRef .tc main_arg2) := by after_results <;> rfl
theorem keepCore_a0 : after (opsCore (F := Ideal)) W (Proc.devRef .tc main_arg0) = W (Proc.devRef .tc main_arg0) := by after_results <;> rfl
theorem keepCore_a1 : after (opsCore (F := Ideal)) W (Proc.devRef .tc main_arg1) = W (Proc.devRef .tc main_arg1) := by after_results <;> rfl
theorem keepCore_a2 : after (opsCore (F := Ideal)) W (Proc.devRef .tc main_arg2) = W (Proc.devRef .tc main_arg2) := by after_results <;> rfl
theorem keepLay_a0 : after (opsLay (F := Ideal)) W (Proc.devRef .tc main_arg0) = W (Proc.devRef .tc main_arg0) := by after_results <;> rfl
theorem keepLay_a1 : after (opsLay (F := Ideal)) W (Proc.devRef .tc main_arg1) = W (Proc.devRef .tc main_arg1) := by after_results <;> rfl
theorem keepLay_a2 : after (opsLay (F := Ideal)) W (Proc.devRef .tc main_arg2) = W (Proc.devRef .tc main_arg2) := by after_results <;> rfl

/-! ## The whole line -/

/-- The result as a function of the three argument arrays. -/
def resultOf (X Y Z : Arr) : Arr := layOf (coreOf (cutOf X) (cutOf Y) (cutOf Z))

/-- The result buffer after the whole line. -/
theorem result (V : Valuation τ sig (Elt Ideal)) :
    after (ops (F := Ideal)) V (Proc.devRef .tc main_v32)
      = resultOf (V (Proc.devRef .tc main_arg0)) (V (Proc.devRef .tc main_arg1)) (V (Proc.devRef .tc main_arg2)) := by
  rw [ops_eq (F := Ideal), after_append, after_append, after_append, after_append, after_append, after_append, after_append,
    after_lay, after_core,
    after_Z2, keepZ2_v4, keepZ2_v9, after_Z1, keepZ1_v4, keepZ1_v9,
    after_Y2, keepY2_v4, keepY2_a2, after_Y1, keepY1_v4, keepY1_a2,
    after_X2, keepX2_a1, keepX2_a2, after_X1, keepX1_a1, keepX1_a2]
  rfl

theorem kept_a0 (V : Valuation τ sig (Elt Ideal)) : after (ops (F := Ideal)) V (Proc.devRef .tc main_arg0) = V (Proc.devRef .tc main_arg0) := by
  rw [ops_eq (F := Ideal), after_append, after_append, after_append, after_append, after_append, after_append, after_append, keepLay_a0, keepCore_a0, keepZ2_a0, keepZ1_a0, keepY2_a0, keepY1_a0, keepX2_a0, keepX1_a0]
theorem kept_a1 (V : Valuation τ sig (Elt Ideal)) : after (ops (F := Ideal)) V (Proc.devRef .tc main_arg1) = V (Proc.devRef .tc main_arg1) := by
  rw [ops_eq (F := Ideal), after_append, after_append, after_append, after_append, after_append, after_append, after_append, keepLay_a1, keepCore_a1, keepZ2_a1, keepZ1_a1, keepY2_a1, keepY1_a1, keepX2_a1, keepX1_a1]
theorem kept_a2 (V : Valuation τ sig (Elt Ideal)) : after (ops (F := Ideal)) V (Proc.devRef .tc main_arg2) = V (Proc.devRef .tc main_arg2) := by
  rw [ops_eq (F := Ideal), after_append, after_append, after_append, after_append, after_append, after_append, after_append, keepLay_a2, keepCore_a2, keepZ2_a2, keepZ1_a2, keepY2_a2, keepY1_a2, keepX2_a2, keepX1_a2]

/-- THE RUN: every weakly fair execution of the reference terminates with the result at `resultOf` of the arguments, the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32)
        = resultOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v32).trans ((result _).trans rfl),
      (h c main_arg0).trans ((kept_a0 _).trans rfl),
      (h c main_arg1).trans ((kept_a1 _).trans rfl),
      (h c main_arg2).trans ((kept_a2 _).trans rfl)⟩)
    (run_seq scopedRefs_eq scopedSems_eq defs main (fun _ => ops) main_eq (fun _ => ops_sub) m ρ)

end Cert.ReferenceIdeal.RefRun

end
-- ==== Proof.LibHostDotSingle.lean ====
/-
  A host matrix product with ONE contracted axis, read at an index of the result, over the extended reals.

  Whatever the ranks of the operands, the batch axes and the axis contracted: once the contracted axis has extent `K`
  and the operand indices at the `k`-th contraction coordinate are known (`li k`, `ri k`), the host's `dot_general` at a
  result index is the finite sum `∑ k, x (li k) * w (ri k)` (the host's product has no accumulator, and the one-axis
  contraction index is its coordinate).
-/
import Idealize.ShloMosaic.Lib.ValueIdx
import Idealize.ShloMosaic.PureOps.Ideal.Laws

namespace Cert.LibHostDotSingle

open Idealize.ShloMosaic Idealize.ShloMosaic.ValueIdx

/-- A host `dot_general` whose dimension numbers contract one axis of extent `K`, at the result index `j`, is the sum over
    `k : Fin K` of the left operand at `li k` times the right operand at `ri k`, where `li`, `ri` name the operand indices the
    dimension numbers give at contraction coordinate `k`. -/
theorem hostDot_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    Host.dotGeneral d prec x w j = ∑ k : Fin K, x (li k) * w (ri k) := by
  refine (Ideal.dotGeneral_apply d prec .single x w j).trans ?_
  refine (Equiv.sum_comp (contrEquiv1 d K hr hs).symm _).symm.trans ?_
  exact Finset.sum_congr rfl fun k _ => by rw [hl k, hri k]

end Cert.LibHostDotSingle
-- ==== Proof.RefCore.lean ====
/-
  Attention inside one window of the reference, read at an index.

  The scores are finite sums of products times the scale word; the row maximum is a fold of `max` from the word of minus
  infinity (taking `max` with that word once more changes nothing); the weights are exponentials of differences divided
  by their finite sum (the sum's initial zero adds nothing); the result is the finite sum of weights times values. A
  host matrix product with one contracted axis is a finite sum, the operand indices named axis by axis.
-/
import proofs.«127838_j19834158973060_2_alg».proof.Proof.RefRun
import proofs.«127838_j19834158973060_2_alg».proof.Proof.LibHostDotSingle
import Idealize.ShloMosaic.PureOps.Ideal.Laws

noncomputable section

namespace Cert.ReferenceIdeal.RefCore

open Cert.ReferenceIdeal Cert.ReferenceIdeal.Gen Cert.ReferenceIdeal.RefRun Idealize.ShloMosaic Idealize.ShloMosaic.ValueIdx

/-! ## The two products' operand indices, axis by axis -/

theorem s_lhs_0 (i : S8x8x256x49x49.Idx) (q : dot_S8x8x256x49x32_S8x8x256x49x32_S8x8x256x49x49_4_4_3_3_012_012.contr.Idx) :
    (dot_S8x8x256x49x32_S8x8x256x49x32_S8x8x256x49x49_4_4_3_3_012_012.lhsIdx i q 0).val = (i 0).val := by
  unfold DotDims.lhsIdx
  rw [dif_pos (show (0 : Fin S8x8x256x49x32.rank) ∈ dot_S8x8x256x49x32_S8x8x256x49x32_S8x8x256x49x49_4_4_3_3_012_012.lhsBatch by decide)]
  rfl
theorem s_lhs_1 (i : S8x8x256x49x49.Idx) (q : dot_S8x8x256x49x32_S8x8x256x49x32_S8x8x256x49x49_4_4_3_3_012_012.contr.Idx) :
    (dot_S8x8x256x49x32_S8x8x256x49x32_S8x8x256x49x49_4_4_3_3_012_012.lhsIdx i q 1).val = (i 1).val := by
  unfold DotDims.lhsIdx
  rw [dif_pos (show (1 : Fin S8x8x256x49x32.rank) ∈ dot_S8x8x256x49x32_S8x8x256x49x32_S8x8x256x49x49_4_4_3_3_012_012.lhsBatch by decide)]
  rfl
theorem s_lhs_2 (i : S8x8x256x49x49.Idx) (q : dot_S8x8x256x49x32_S8x8x256x49x32_S8x8x256x49x49_4_4_3_3_012_012.contr.Idx) :
    (dot_S8x8x256x49x32_S8x8x256x49x32_S8x8x256x49x49_4_4_3_3_012_012.lhsIdx i q 2).val = (i 2).val := by
  unfold DotDims.lhsIdx
  rw [dif_pos (show (2 : Fin S8x8x256x49x32.rank) ∈ dot_S8x8x256x49x32_S8x8x256x49x32_S8x8x256x49x49_4_4_3_3_012_012.lhsBatch by decide)]
  rfl
theorem s_lhs_3 (i : S8x8x256x49x49.Idx) (q : dot_S8x8x256x49x32_S8x8x256x49x32_S8x8x256x49x49_4_4_3_3_012_012.contr.Idx) :
    (dot_S8x8x256x49x32_S8x8x256x49x32_S8x8x256x49x49_4_4_3_3_012_012.lhsIdx i q 3).val = (i 3).val := by
  unfold DotDims.lhsIdx
  rw [dif_neg (show ¬(3 : Fin S8x8x256x49x32.rank) ∈ dot_S8x8x256x49x32_S8x8x256x49x32_S8x8x256x49x49_4_4_3_3_012_012.lhsBatch by decide), dif_pos (show (3 : Fin S8x8x256x49x32.rank) ∈ dot_S8x8x256x49x32_S8x8x256x49x32_S8x8x256x49x49_4_4_3_3_012_012.lhsNonContracting by decide)]
  rfl
theorem s_lhs_4 (i : S8x8x256x49x49.Idx) (q : dot_S8x8x256x49x32_S8x8x256x49x32_S8x8x256x49x49_4_4_3_3_012_012.contr.Idx) :
    (dot_S8x8x256x49x32_S8x8x256x49x32_S8x8x256x49x49_4_4_3_3_012_012.lhsIdx i q 4).val = (q ⟨0, by decide⟩).val :=
  dot_S8x8x256x49x32_S8x8x256x49x32_S8x8x256x49x49_4_4_3_3_012_012.lhsIdx_val_of_single rfl i q
theorem s_rhs_0 (i : S8x8x256x49x49.Idx) (q : dot_S8x8x256x49x32_S8x8x256x49x32_S8x8x256x49x49_4_4_3_3_012_012.contr.Idx) :
    (dot_S8x8x256x49x32_S8x8x256x49x32_S8x8x256x49x49_4_4_3_3_012_012.rhsIdx i q 0).val = (i 0).val := by
  unfold DotDims.rhsIdx
  rw [dif_pos (show (0 : Fin S8x8x256x49x32.rank) ∈ dot_S8x8x256x49x32_S8x8x256x49x32_S8x8x256x49x49_4_4_3_3_012_012.rhsBatch by decide)]
  rfl
theorem s_rhs_1 (i : S8x8x256x49x49.Idx) (q : dot_S8x8x256x49x32_S8x8x256x49x32_S8x8x256x49x49_4_4_3_3_012_012.contr.Idx) :
    (dot_S8x8x256x49x32_S8x8x256x49x32_S8x8x256x49x49_4_4_3_3_012_012.rhsIdx i q 1).val = (i 1).val := by
  unfold DotDims.rhsIdx
  rw [dif_pos (show (1 : Fin S8x8x256x49x32.rank) ∈ dot_S8x8x256x49x32_S8x8x256x49x32_S8x8x256x49x49_4_4_3_3_012_012.rhsBatch by decide)]
  rfl
theorem s_rhs_2 (i : S8x8x256x49x49.Idx) (q : dot_S8x8x256x49x32_S8x8x256x49x32_S8x8x256x49x49_4_4_3_3_012_012.contr.Idx) :
    (dot_S8x8x256x49x32_S8x8x256x49x32_S8x8x256x49x49_4_4_3_3_012_012.rhsIdx i q 2).val = (i 2).val := by
  unfold DotDims.rhsIdx
  rw [dif_pos (show (2 : Fin S8x8x256x49x32.rank) ∈ dot_S8x8x256x49x32_S8x8x256x49x32_S8x8x256x49x49_4_4_3_3_012_012.rhsBatch by decide)]
  rfl
theorem s_rhs_3 (i : S8x8x256x49x49.Idx) (q : dot_S8x8x256x49x32_S8x8x256x49x32_S8x8x256x49x49_4_4_3_3_012_012.contr.Idx) :
    (dot_S8x8x256x49x32_S8x8x256x49x32_S8x8x256x49x49_4_4_3_3_012_012.rhsIdx i q 3).val = (i 4).val := by
  unfold DotDims.rhsIdx
  rw [dif_neg (show ¬(3 : Fin S8x8x256x49x32.rank) ∈ dot_S8x8x256x49x32_S8x8x256x49x32_S8x8x256x49x49_4_4_3_3_012_012.rhsBatch by decide), dif_pos (show (3 : Fin S8x8x256x49x32.rank) ∈ dot_S8x8x256x49x32_S8x8x256x49x32_S8x8x256x49x49_4_4_3_3_012_012.rhsNonContracting by decide)]
  rfl
theorem s_rhs_4 (i : S8x8x256x49x49.Idx) (q : dot_S8x8x256x49x32_S8x8x256x49x32_S8x8x256x49x49_4_4_3_3_012_012.contr.Idx) :
    (dot_S8x8x256x49x32_S8x8x256x49x32_S8x8x256x49x49_4_4_3_3_012_012.rhsIdx i q 4).val = (q ⟨0, by decide⟩).val :=
  dot_S8x8x256x49x32_S8x8x256x49x32_S8x8x256x49x49_4_4_3_3_012_012.rhsIdx_val_of_single rfl i q
theorem o_lhs_0 (i : S8x8x256x49x32.Idx) (q : dot_S8x8x256x49x49_S8x8x256x49x32_S8x8x256x49x32_4_3_3_4_012_012.contr.Idx) :
    (dot_S8x8x256x49x49_S8x8x256x49x32_S8x8x256x49x32_4_3_3_4_012_012.lhsIdx i q 0).val = (i 0).val := by
  unfold DotDims.lhsIdx
  rw [dif_pos (show (0 : Fin S8x8x256x49x49.rank) ∈ dot_S8x8x256x49x49_S8x8x256x49x32_S8x8x256x49x32_4_3_3_4_012_012.lhsBatch by decide)]
  rfl
theorem o_lhs_1 (i : S8x8x256x49x32.Idx) (q : dot_S8x8x256x49x49_S8x8x256x49x32_S8x8x256x49x32_4_3_3_4_012_012.contr.Idx) :
    (dot_S8x8x256x49x49_S8x8x256x49x32_S8x8x256x49x32_4_3_3_4_012_012.lhsIdx i q 1).val = (i 1).val := by
  unfold DotDims.lhsIdx
  rw [dif_pos (show (1 : Fin S8x8x256x49x49.rank) ∈ dot_S8x8x256x49x49_S8x8x256x49x32_S8x8x256x49x32_4_3_3_4_012_012.lhsBatch by decide)]
  rfl
theorem o_lhs_2 (i : S8x8x256x49x32.Idx) (q : dot_S8x8x256x49x49_S8x8x256x49x32_S8x8x256x49x32_4_3_3_4_012_012.contr.Idx) :
    (dot_S8x8x256x49x49_S8x8x256x49x32_S8x8x256x49x32_4_3_3_4_012_012.lhsIdx i q 2).val = (i 2).val := by
  unfold DotDims.lhsIdx
  rw [dif_pos (show (2 : Fin S8x8x256x49x49.rank) ∈ dot_S8x8x256x49x49_S8x8x256x49x32_S8x8x256x49x32_4_3_3_4_012_012.lhsBatch by decide)]
  rfl
theorem o_lhs_3 (i : S8x8x256x49x32.Idx) (q : dot_S8x8x256x49x49_S8x8x256x49x32_S8x8x256x49x32_4_3_3_4_012_012.contr.Idx) :
    (dot_S8x8x256x49x49_S8x8x256x49x32_S8x8x256x49x32_4_3_3_4_012_012.lhsIdx i q 3).val = (i 3).val := by
  unfold DotDims.lhsIdx
  rw [dif_neg (show ¬(3 : Fin S8x8x256x49x49.rank) ∈ dot_S8x8x256x49x49_S8x8x256x49x32_S8x8x256x49x32_4_3_3_4_012_012.lhsBatch by decide), dif_pos (show (3 : Fin S8x8x256x49x49.rank) ∈ dot_S8x8x256x49x49_S8x8x256x49x32_S8x8x256x49x32_4_3_3_4_012_012.lhsNonContracting by decide)]
  rfl
theorem o_lhs_4 (i : S8x8x256x49x32.Idx) (q : dot_S8x8x256x49x49_S8x8x256x49x32_S8x8x256x49x32_4_3_3_4_012_012.contr.Idx) :
    (dot_S8x8x256x49x49_S8x8x256x49x32_S8x8x256x49x32_4_3_3_4_012_012.lhsIdx i q 4).val = (q ⟨0, by decide⟩).val :=
  dot_S8x8x256x49x49_S8x8x256x49x32_S8x8x256x49x32_4_3_3_4_012_012.lhsIdx_val_of_single rfl i q
theorem o_rhs_0 (i : S8x8x256x49x32.Idx) (q : dot_S8x8x256x49x49_S8x8x256x49x32_S8x8x256x49x32_4_3_3_4_012_012.contr.Idx) :
    (dot_S8x8x256x49x49_S8x8x256x49x32_S8x8x256x49x32_4_3_3_4_012_012.rhsIdx i q 0).val = (i 0).val := by
  unfold DotDims.rhsIdx
  rw [dif_pos (show (0 : Fin S8x8x256x49x32.rank) ∈ dot_S8x8x256x49x49_S8x8x256x49x32_S8x8x256x49x32_4_3_3_4_012_012.rhsBatch by decide)]
  rfl
theorem o_rhs_1 (i : S8x8x256x49x32.Idx) (q : dot_S8x8x256x49x49_S8x8x256x49x32_S8x8x256x49x32_4_3_3_4_012_012.contr.Idx) :
    (dot_S8x8x256x49x49_S8x8x256x49x32_S8x8x256x49x32_4_3_3_4_012_012.rhsIdx i q 1).val = (i 1).val := by
  unfold DotDims.rhsIdx
  rw [dif_pos (show (1 : Fin S8x8x256x49x32.rank) ∈ dot_S8x8x256x49x49_S8x8x256x49x32_S8x8x256x49x32_4_3_3_4_012_012.rhsBatch by decide)]
  rfl
theorem o_rhs_2 (i : S8x8x256x49x32.Idx) (q : dot_S8x8x256x49x49_S8x8x256x49x32_S8x8x256x49x32_4_3_3_4_012_012.contr.Idx) :
    (dot_S8x8x256x49x49_S8x8x256x49x32_S8x8x256x49x32_4_3_3_4_012_012.rhsIdx i q 2).val = (i 2).val := by
  unfold DotDims.rhsIdx
  rw [dif_pos (show (2 : Fin S8x8x256x49x32.rank) ∈ dot_S8x8x256x49x49_S8x8x256x49x32_S8x8x256x49x32_4_3_3_4_012_012.rhsBatch by decide)]
  rfl
theorem o_rhs_3 (i : S8x8x256x49x32.Idx) (q : dot_S8x8x256x49x49_S8x8x256x49x32_S8x8x256x49x32_4_3_3_4_012_012.contr.Idx) :
    (dot_S8x8x256x49x49_S8x8x256x49x32_S8x8x256x49x32_4_3_3_4_012_012.rhsIdx i q 3).val = (q ⟨0, by decide⟩).val :=
  dot_S8x8x256x49x49_S8x8x256x49x32_S8x8x256x49x32_4_3_3_4_012_012.rhsIdx_val_of_single rfl i q
theorem o_rhs_4 (i : S8x8x256x49x32.Idx) (q : dot_S8x8x256x49x49_S8x8x256x49x32_S8x8x256x49x32_4_3_3_4_012_012.contr.Idx) :
    (dot_S8x8x256x49x49_S8x8x256x49x32_S8x8x256x49x32_4_3_3_4_012_012.rhsIdx i q 4).val = (i 4).val := by
  unfold DotDims.rhsIdx
  rw [dif_neg (show ¬(4 : Fin S8x8x256x49x32.rank) ∈ dot_S8x8x256x49x49_S8x8x256x49x32_S8x8x256x49x32_4_3_3_4_012_012.rhsBatch by decide), dif_pos (show (4 : Fin S8x8x256x49x32.rank) ∈ dot_S8x8x256x49x49_S8x8x256x49x32_S8x8x256x49x32_4_3_3_4_012_012.rhsNonContracting by decide)]
  rfl

/-- Scores: at result index (b, h, w, p, j) and channel k the left operand is read at (b, h, w, p, k). -/
theorem s_lhs (b hd : Fin 8) (w : Fin 256) (p j : Fin 49) (k : Fin 32) :
    dot_S8x8x256x49x32_S8x8x256x49x32_S8x8x256x49x49_4_4_3_3_012_012.lhsIdx (ix5 b hd w p j) ((contrEquiv1 dot_S8x8x256x49x32_S8x8x256x49x32_S8x8x256x49x49_4_4_3_3_012_012 32 rfl rfl).symm k) = ix5 b hd w p k :=
  funext fun a => Fin.ext (by
    have hk := contrEquiv1_symm_val dot_S8x8x256x49x32_S8x8x256x49x32_S8x8x256x49x49_4_4_3_3_012_012 32 rfl rfl k
    match a with
    | ⟨0, _⟩ => exact s_lhs_0 _ _
    | ⟨1, _⟩ => exact s_lhs_1 _ _
    | ⟨2, _⟩ => exact s_lhs_2 _ _
    | ⟨3, _⟩ => exact s_lhs_3 _ _
    | ⟨4, _⟩ => exact (s_lhs_4 _ _).trans hk)

/-- … and the right operand at (b, h, w, j, k). -/
theorem s_rhs (b hd : Fin 8) (w : Fin 256) (p j : Fin 49) (k : Fin 32) :
    dot_S8x8x256x49x32_S8x8x256x49x32_S8x8x256x49x49_4_4_3_3_012_012.rhsIdx (ix5 b hd w p j) ((contrEquiv1 dot_S8x8x256x49x32_S8x8x256x49x32_S8x8x256x49x49_4_4_3_3_012_012 32 rfl rfl).symm k) = ix5 b hd w j k :=
  funext fun a => Fin.ext (by
    have hk := contrEquiv1_symm_val dot_S8x8x256x49x32_S8x8x256x49x32_S8x8x256x49x49_4_4_3_3_012_012 32 rfl rfl k
    match a with
    | ⟨0, _⟩ => exact s_rhs_0 _ _
    | ⟨1, _⟩ => exact s_rhs_1 _ _
    | ⟨2, _⟩ => exact s_rhs_2 _ _
    | ⟨3, _⟩ => exact s_rhs_3 _ _
    | ⟨4, _⟩ => exact (s_rhs_4 _ _).trans hk)

/-- Output: at result index (b, h, w, p, d) and key position k the weights are read at (b, h, w, p, k). -/
theorem o_lhs (b hd : Fin 8) (w : Fin 256) (p : Fin 49) (d : Fin 32) (k : Fin 49) :
    dot_S8x8x256x49x49_S8x8x256x49x32_S8x8x256x49x32_4_3_3_4_012_012.lhsIdx (ix5 b hd w p d) ((contrEquiv1 dot_S8x8x256x49x49_S8x8x256x49x32_S8x8x256x49x32_4_3_3_4_012_012 49 rfl rfl).symm k) = ix5 b hd w p k :=
  funext fun a => Fin.ext (by
    have hk := contrEquiv1_symm_val dot_S8x8x256x49x49_S8x8x256x49x32_S8x8x256x49x32_4_3_3_4_012_012 49 rfl rfl k
    match a with
    | ⟨0, _⟩ => exact o_lhs_0 _ _
    | ⟨1, _⟩ => exact o_lhs_1 _ _
    | ⟨2, _⟩ => exact o_lhs_2 _ _
    | ⟨3, _⟩ => exact o_lhs_3 _ _
    | ⟨4, _⟩ => exact (o_lhs_4 _ _).trans hk)

/-- … and the values at (b, h, w, k, d). -/
theorem o_rhs (b hd : Fin 8) (w : Fin 256) (p : Fin 49) (d : Fin 32) (k : Fin 49) :
    dot_S8x8x256x49x49_S8x8x256x49x32_S8x8x256x49x32_4_3_3_4_012_012.rhsIdx (ix5 b hd w p d) ((contrEquiv1 dot_S8x8x256x49x49_S8x8x256x49x32_S8x8x256x49x32_4_3_3_4_012_012 49 rfl rfl).symm k) = ix5 b hd w k d :=
  funext fun a => Fin.ext (by
    have hk := contrEquiv1_symm_val dot_S8x8x256x49x49_S8x8x256x49x32_S8x8x256x49x32_4_3_3_4_012_012 49 rfl rfl k
    match a with
    | ⟨0, _⟩ => exact o_rhs_0 _ _
    | ⟨1, _⟩ => exact o_rhs_1 _ _
    | ⟨2, _⟩ => exact o_rhs_2 _ _
    | ⟨3, _⟩ => exact (o_rhs_3 _ _).trans hk
    | ⟨4, _⟩ => exact o_rhs_4 _ _)

/-! ## Rows -/

theorem hred : S8x8x256x49x49.Reduces [4] S8x8x256x49 := by decide

/-- The index a row reduction inserts coordinate `j` into. -/
theorem lift5 (b hd : Fin 8) (w : Fin 256) (p j : Fin 49) : hred.lift (ix4 b hd w p) j = ix5 b hd w p j :=
  funext fun a => Fin.ext (by match a with | ⟨0, _⟩ => rfl | ⟨1, _⟩ => rfl | ⟨2, _⟩ => rfl | ⟨3, _⟩ => rfl | ⟨4, _⟩ => rfl)

/-- A row value given a unit axis and broadcast back along the row, read anywhere in the row, is that value. -/
theorem alongRow_apply (v : Row) (b hd : Fin 8) (w : Fin 256) (p j : Fin 49) : alongRow v (ix5 b hd w p j) = v (ix4 b hd w p) := by
  unfold alongRow
  refine (broadcastInDim_apply _ bcast_S8x8x256x49x1_S8x8x256x49x49_0_1_2_3_4 _ (ix5 b hd w p j) (ix5 b hd w p (0 : Fin 1)) (fun a => match a with
    | ⟨0, _⟩ => by show b.val = if (8 : Nat) = 1 then 0 else b.val; rw [if_neg (by decide)]
    | ⟨1, _⟩ => by show hd.val = if (8 : Nat) = 1 then 0 else hd.val; rw [if_neg (by decide)]
    | ⟨2, _⟩ => by show w.val = if (256 : Nat) = 1 then 0 else w.val; rw [if_neg (by decide)]
    | ⟨3, _⟩ => by show p.val = if (49 : Nat) = 1 then 0 else p.val; rw [if_neg (by decide)]
    | ⟨4, _⟩ => by show 0 = if (1 : Nat) = 1 then 0 else j.val; rw [if_pos rfl])).trans ?_
  exact broadcastInDim_apply _ bcast_S8x8x256x49_S8x8x256x49x1_0_1_2_3 v (ix5 b hd w p (0 : Fin 1)) (ix4 b hd w p) (fun a => match a with
    | ⟨0, _⟩ => by show b.val = if (8 : Nat) = 1 then 0 else b.val; rw [if_neg (by decide)]
    | ⟨1, _⟩ => by show hd.val = if (8 : Nat) = 1 then 0 else hd.val; rw [if_neg (by decide)]
    | ⟨2, _⟩ => by show w.val = if (256 : Nat) = 1 then 0 else w.val; rw [if_neg (by decide)]
    | ⟨3, _⟩ => by show p.val = if (49 : Nat) = 1 then 0 else p.val; rw [if_neg (by decide)])

/-! ## One window -/

variable (q k v : Win)

/-- Window `w` of batch `b`, head `hd` of a cut array. -/
abbrev winOf (x : Win) (b hd : Fin 8) (w : Fin 256) : Fin 49 → Fin 32 → EReal := fun p e => x (ix5 b hd w p e)

theorem sc_at (b hd : Fin 8) (w : Fin 256) (p j : Fin 49) :
    sc q k (ix5 b hd w p j) = Cert.Attn.score (winOf q b hd w) (winOf k b hd w) p j := by
  show Host.dotGeneral dot_S8x8x256x49x32_S8x8x256x49x32_S8x8x256x49x49_4_4_3_3_012_012 none q k (ix5 b hd w p j) * Ideal.ofBits .f32 0x3E3504F3#32 = _
  exact congrArg (· * Ideal.ofBits .f32 0x3E3504F3#32)
    (Cert.LibHostDotSingle.hostDot_apply dot_S8x8x256x49x32_S8x8x256x49x32_S8x8x256x49x49_4_4_3_3_012_012 32 rfl rfl none q k (ix5 b hd w p j) (fun e => ix5 b hd w p e) (fun e => ix5 b hd w j e)
      (fun e => s_lhs b hd w p j e) (fun e => s_rhs b hd w p j e))

/-- The host's fold of the float maximum from a value, with `max` against that value once more, is the fold of `max`. -/
theorem max_fold_maximumf (c : EReal) (f g : Fin 49 → EReal) (h : ∀ j, f j = g j) :
    max c ((Finset.univ : Finset (Fin 49)).fold (FloatOps.maximumf (F := Ideal) (φ := .f32)) c f)
      = (Finset.univ : Finset (Fin 49)).fold max c g := by
  rw [show f = g from funext h]
  exact Cert.Attn.max_fold_max Finset.univ c g

theorem mx_at (b hd : Fin 8) (w : Fin 256) (p : Fin 49) :
    mx q k (ix4 b hd w p) = Cert.Attn.rowMax (winOf q b hd w) (winOf k b hd w) p := by
  have ha : broadcastInDim S8x8x256x49 ![] bcast_S_S8x8x256x49 (constant (F := Ideal) S_ .f32 0xFF800000#32) (ix4 b hd w p)
      = Ideal.ofBits .f32 0xFF800000#32 := rfl
  have hc : constant (F := Ideal) S_ .f32 0xFF800000#32 (Shape.Idx.first h_S_) = Ideal.ofBits .f32 0xFF800000#32 := rfl
  unfold mx
  rw [maximumf_apply, ha,
    Host.reduce_eq_fold_single FloatOps.maximumf (sc q k) (constant (F := Ideal) S_ .f32 0xFF800000#32) reducesTo_S8x8x256x49x49_S8x8x256x49_d4 hred h_S_ (ix4 b hd w p), hc]
  exact max_fold_maximumf _ _ _ fun j => (congrArg (sc q k) (lift5 b hd w p j)).trans (sc_at q k b hd w p j)
theorem ex_at (b hd : Fin 8) (w : Fin 256) (p j : Fin 49) :
    ex q k (ix5 b hd w p j) = Cert.Attn.weight (winOf q b hd w) (winOf k b hd w) p j := by
  show Ideal.exp (sc q k (ix5 b hd w p j) - alongRow (mx q k) (ix5 b hd w p j)) = _
  rw [alongRow_apply, sc_at, mx_at]
  rfl

theorem sm_at (b hd : Fin 8) (w : Fin 256) (p : Fin 49) :
    sm q k (ix4 b hd w p) = ∑ j : Fin 49, Cert.Attn.weight (winOf q b hd w) (winOf k b hd w) p j := by
  show Ideal.hostReduceAdd reducesTo_S8x8x256x49x49_S8x8x256x49_d4 (ex q k) (Ideal.ofBits .f32 0x00000000#32) (ix4 b hd w p) = _
  rw [Ideal.hostReduceAdd_single reducesTo_S8x8x256x49x49_S8x8x256x49_d4 hred, Ideal.ofBits_zero_f32, zero_add]
  exact Finset.sum_congr rfl fun j _ => (congrArg (ex q k) (lift5 b hd w p j)).trans (ex_at q k b hd w p j)

theorem pr_at (b hd : Fin 8) (w : Fin 256) (p j : Fin 49) :
    pr q k (ix5 b hd w p j)
      = Ideal.div (Cert.Attn.weight (winOf q b hd w) (winOf k b hd w) p j)
          (∑ j' : Fin 49, Cert.Attn.weight (winOf q b hd w) (winOf k b hd w) p j') := by
  show Ideal.div (ex q k (ix5 b hd w p j)) (alongRow (sm q k) (ix5 b hd w p j)) = _
  rw [alongRow_apply, ex_at, sm_at]

/-- Window `w` of the product with the values is the specification's attention on window `w` of the three cut arrays. -/
theorem core_at (b hd : Fin 8) (w : Fin 256) (p : Fin 49) (d : Fin 32) :
    coreOf q k v (ix5 b hd w p d) = Cert.Attn.attn (winOf q b hd w) (winOf k b hd w) (winOf v b hd w) p d := by
  refine (Cert.LibHostDotSingle.hostDot_apply dot_S8x8x256x49x49_S8x8x256x49x32_S8x8x256x49x32_4_3_3_4_012_012 49 rfl rfl none (pr q k) v (ix5 b hd w p d) (fun j => ix5 b hd w p j)
    (fun j => ix5 b hd w j d) (fun j => o_lhs b hd w p d j) (fun j => o_rhs b hd w p d j)).trans ?_
  exact Finset.sum_congr rfl fun j _ => congrArg (· * v (ix5 b hd w j d)) (pr_at q k b hd w p j)

end Cert.ReferenceIdeal.RefCore

end
-- ==== Proof.RefValue.lean ====
/-
  The reference's result is the specification.

  An argument cut into windows, read at window `w`, position `p`, is the argument at the specification's token; inside
  a window the reference computes the specification's attention; and laid back as tokens, token `n` reads window
  `16 (n / 112 / 7) + n % 112 / 7` at position `7 (n / 112 % 7) + n % 112 % 7`.
-/
import proofs.«127838_j19834158973060_2_alg».proof.Proof.RefCore

noncomputable section

namespace Cert.ReferenceIdeal.RefValue

open Cert.ReferenceIdeal Cert.ReferenceIdeal.Gen Cert.ReferenceIdeal.RefRun Cert.ReferenceIdeal.RefCore Idealize.ShloMosaic
  Idealize.ShloMosaic.ValueIdx

/-- An argument cut into windows, read at window `w`, position `p`: the argument at the specification's token. -/
theorem cut_at (X : Arr) (b hd : Fin 8) (w : Fin 256) (p : Fin 49) (e : Fin 32) :
    cutOf X (ix5 b hd w p e) = X (ix4 b hd (Cert.Attn.src ⟨w.val / 16, by omega⟩ ⟨w.val % 16, by omega⟩ p) e) := by
  unfold cutOf cut3
  refine (Cert.Windows.cut_apply (imgOf X) shapeCasts_S8x8x112x112x32_S8x8x16x7x16x7x32
    transposes_S8x8x16x7x16x7x32_S8x8x16x16x7x7x32_0_1_2_4_3_5_6 shapeCasts_S8x8x16x16x7x7x32_S8x8x256x49x32 b hd w p e).trans ?_
  unfold imgOf
  exact Cert.Gather.shifted_arg_apply X shapeCasts_S8x8x12544x32_S8x8x112x112x32
      slices_S8x8x112x112x32_S8x8x109x112x32_0_0_3_0_0 slices_S8x8x112x112x32_S8x8x3x112x32_0_0_0_0_0
      concatenates_S8x8x109x112x32_S8x8x3x112x32_S8x8x112x112x32_d2 slices_S8x8x112x112x32_S8x8x112x109x32_0_0_0_3_0
      slices_S8x8x112x112x32_S8x8x112x3x32_0_0_0_0_0 concatenates_S8x8x112x109x32_S8x8x112x3x32_S8x8x112x112x32_d3 b hd _ _ e

/-- Window `16 hw + ww` of a cut argument is the specification's window `(hw, ww)` of the argument. -/
theorem winOf_cut (X : Arr) (b hd : Fin 8) (n : Fin 12544) :
    winOf (cutOf X) b hd ⟨16 * (n.val / 112 / 7) + n.val % 112 / 7, by omega⟩
      = Cert.Attn.win X b hd ⟨n.val / 112 / 7, by omega⟩ ⟨n.val % 112 / 7, by omega⟩ := by
  funext p e
  have h1 : (⟨(16 * (n.val / 112 / 7) + n.val % 112 / 7) / 16, by omega⟩ : Fin 16) = ⟨n.val / 112 / 7, by omega⟩ := Fin.ext (by
    show (16 * (n.val / 112 / 7) + n.val % 112 / 7) / 16 = n.val / 112 / 7; omega)
  have h2 : (⟨(16 * (n.val / 112 / 7) + n.val % 112 / 7) % 16, by omega⟩ : Fin 16) = ⟨n.val % 112 / 7, by omega⟩ := Fin.ext (by
    show (16 * (n.val / 112 / 7) + n.val % 112 / 7) % 16 = n.val % 112 / 7; omega)
  refine (cut_at X b hd _ p e).trans ?_
  show X (ix4 b hd (Cert.Attn.src ⟨(16 * (n.val / 112 / 7) + n.val % 112 / 7) / 16, by omega⟩
    ⟨(16 * (n.val / 112 / 7) + n.val % 112 / 7) % 16, by omega⟩ p) e) = _
  rw [h1, h2]
  rfl

theorem result_at (X Y Z : Arr) (b hd : Fin 8) (n : Fin 12544) (d : Fin 32) :
    resultOf X Y Z (ix4 b hd n d) = Cert.Attn.G4 X Y Z b hd n d := by
  unfold resultOf layOf
  refine (Cert.Windows.lay_apply _ _ _ _ b hd n d).trans ?_
  rw [core_at, winOf_cut X, winOf_cut Y, winOf_cut Z]
  rfl

/-- THE REFERENCE IS THE SPECIFICATION. -/
theorem result_eq (X Y Z : Arr) : resultOf X Y Z = Cert.Attn.G X Y Z := by
  funext i
  exact (congrArg (resultOf X Y Z) (eq_ix4 i)).trans (result_at X Y Z (i 0) (i 1) (i 2) (i 3))

end Cert.ReferenceIdeal.RefValue

end
-- ==== Proof.lean ====
/-
  Shifted-window attention: the kernel against its reference, over the extended reals.

  Both programs compute, for every batch and head, attention inside the 7 × 7 windows of the 112 × 112 image of tokens
  shifted cyclically by three rows and three columns, the result left in shifted coordinates. The reference cuts the
  whole shifted image into 256 windows per image and lays the result back; the kernel runs one grid point per stripe of
  four window-rows, cuts the stripe into its 64 windows inside the body, and writes the stripe of the result. Read at
  an index of the result, each program is the same function of the argument arrays (`Cert.Attn.G`): the scores are
  finite sums of products times one scale word, the row maximum a fold of `max` from one word, the weights the
  exponentials of the differences divided by their finite sum, the result the finite sum of weights times values — all
  operations the same on both sides, the changes of float format the identity, and no rearrangement of a sum needs
  more than commutativity, so the precondition is never opened.

  The two kernels' frames are the generated ones; the reference's is its run (a straight line of host operations) with the result dropped; the ideal
  pass rewrote nothing, so there is nothing to preserve.
-/
import proofs.«127838_j19834158973060_2_alg».proof.Defs
import proofs.«127838_j19834158973060_2_alg».proof.Proof.Gen.Kernel
import proofs.«127838_j19834158973060_2_alg».proof.Proof.Gen.Kernel.Skeleton
import proofs.«127838_j19834158973060_2_alg».proof.Proof.Gen.Kernel.Launch
import proofs.«127838_j19834158973060_2_alg».proof.Proof.Gen.Kernel.Points
import proofs.«127838_j19834158973060_2_alg».proof.Proof.Gen.Kernel.Frame
import proofs.«127838_j19834158973060_2_alg».proof.Proof.Gen.KernelIdeal
import proofs.«127838_j19834158973060_2_alg».proof.Proof.Gen.KernelIdeal.Skeleton
import proofs.«127838_j19834158973060_2_alg».proof.Proof.Gen.KernelIdeal.Launch
import proofs.«127838_j19834158973060_2_alg».proof.Proof.Gen.KernelIdeal.Points
import proofs.«127838_j19834158973060_2_alg».proof.Proof.Gen.KernelIdeal.Frame
import proofs.«127838_j19834158973060_2_alg».proof.Proof.Gen.ReferenceIdeal
import proofs.«127838_j19834158973060_2_alg».proof.Proof.Gen.Pre_finite_inputs
import proofs.«127838_j19834158973060_2_alg».proof.Proof.KernelValue
import proofs.«127838_j19834158973060_2_alg».proof.Proof.RefRun
import proofs.«127838_j19834158973060_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.RefRun.run m ρ)

/-- Both programs end with the result at the specification of the (agreeing) arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run m' ρ')
  rw [Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
